-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S524288 : S_.BroadcastsInDim S524288 (![] : Fin 0 → Fin S524288.rank)
  reducesTo_S524288_S_d0 : S524288.ReducesTo [0] S_
  bcast_S_S2x524288 : S_.BroadcastsInDim S2x524288 (![] : Fin 0 → Fin S2x524288.rank)
  reducesTo_S2x524288_S_d0_1 : S2x524288.ReducesTo [0, 1] S_

variable [Facts]

def fn_part2 {F : FTy → Type} [FloatOps F] (main_v28 : IVec S_ 1) (main_v33 : IVec S2x524288 1) : IVec S_ 1 :=
  let main_c_12 : IVec S_ 1 := constantI S_ 1 1#1
  let main_v34 : IVec S_ 1 := (fun x v => Host.reduce IntOp.andi x v reducesTo_S2x524288_S_d0_1 h_S_) main_v33 main_c_12
  let main_v35 : IVec S_ 1 := andi main_v28 main_v34
  main_v35

def fn_part1 {F : FTy → Type} [FloatOps F] (main_arg4 : FVec F S16 .f32) (main_arg5 : FVec F S524288 .f32) (main_arg6 : IVec S2x524288 32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S524288 .f32 := Host.absf main_arg5
  let main_cst_8 : FVec F S_ .f32 := constant S_ .f32 0x7F800000#32
  let main_v25 : FVec F S524288 .f32 := broadcastInDim S524288 ![] bcast_S_S524288 main_cst_8
  let main_v26 : IVec S524288 1 := cmpf .olt main_v24 main_v25
  let main_c_9 : IVec S_ 1 := constantI S_ 1 1#1
  let main_v27 : IVec S_ 1 := (fun x v => Host.reduce IntOp.andi x v reducesTo_S524288_S_d0 h_S_) main_v26 main_c_9
  let main_v28 : IVec S_ 1 := andi main_v23 main_v27
  let main_c_10 : IVec S_ 32 := constantI S_ 32 0#32
  let main_v29 : IVec S2x524288 32 := broadcastInDim S2x524288 ![] bcast_S_S2x524288 main_c_10
  let main_v30 : IVec S2x524288 1 := cmpi .sge main_arg6 main_v29
  let main_c_11 : IVec S_ 32 := constantI S_ 32 16384#32
  let main_v31 : IVec S2x524288 32 := broadcastInDim S2x524288 ![] bcast_S_S2x524288 main_c_11
  let main_v32 : IVec S2x524288 1 := cmpi .slt main_arg6 main_v31
  let main_v33 : IVec S2x524288 1 := andi main_v30 main_v32
  fn_part2 (F := F) main_v28 main_v33

def fn {F : FTy → Type} [FloatOps F] (main_arg0 : FVec F S16384x64 .f32) (main_arg1 : FVec F S64x64 .f32) (main_arg2 : FVec F S64 .f32) (main_arg3 : FVec F S64x16 .f32) (main_arg4 : FVec F S16 .f32) (main_arg5 : FVec F S524288 .f32) (main_arg6 : IVec S2x524288 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S1048576 : Shape := ⟨1, ![1048576]⟩
abbrev S16384x16384 : Shape := ⟨2, ![16384, 16384]⟩
abbrev S1048576x1 : Shape := ⟨2, ![1048576, 1]⟩
abbrev S1048576x2 : Shape := ⟨2, ![1048576, 2]⟩
abbrev S16384 : Shape := ⟨1, ![16384]⟩
abbrev S524288x1 : Shape := ⟨2, ![524288, 1]⟩
abbrev S16384x1 : Shape := ⟨2, ![16384, 1]⟩
abbrev S1x64 : Shape := ⟨2, ![1, 64]⟩
abbrev S1024x2048 : Shape := ⟨2, ![1024, 2048]⟩
abbrev S2048x64 : Shape := ⟨2, ![2048, 64]⟩
abbrev S1024x1 : Shape := ⟨2, ![1024, 1]⟩
abbrev S2048x1 : Shape := ⟨2, ![2048, 1]⟩
abbrev S1024x64 : Shape := ⟨2, ![1024, 64]⟩
abbrev S16384x16 : Shape := ⟨2, ![16384, 16]⟩
abbrev S1x16 : Shape := ⟨2, ![1, 16]⟩
abbrev S1024x4096 : Shape := ⟨2, ![1024, 4096]⟩
abbrev S4096x16 : Shape := ⟨2, ![4096, 16]⟩
abbrev S4096x1 : Shape := ⟨2, ![4096, 1]⟩
abbrev S1024x16 : Shape := ⟨2, ![1024, 16]⟩

abbrev nBuf : Space → Nat
  | .hbm => 79
  | .vmem => 26
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S524288, .f32⟩
  | .hbm, ⟨6, _⟩ => ⟨S2x524288, .i32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .f32⟩
  | .hbm, ⟨12, _⟩ => ⟨S524288, .f32⟩
  | .hbm, ⟨13, _⟩ => ⟨S524288, .f32⟩
  | .hbm, ⟨14, _⟩ => ⟨S1048576, .i32⟩
  | .hbm, ⟨15, _⟩ => ⟨S1048576, .i32⟩
  | .hbm, ⟨16, _⟩ => ⟨S1048576, .f32⟩
  | .hbm, ⟨17, _⟩ => ⟨S_, .f32⟩
  | .hbm, ⟨18, _⟩ => ⟨S16384x16384, .f32⟩
  | .hbm, ⟨19, _⟩ => ⟨S_, .i32⟩
  | .hbm, ⟨20, _⟩ => ⟨S1048576, .i32⟩
  | .hbm, ⟨21, _⟩ => ⟨S1048576, .i1⟩
  | .hbm, ⟨22, _⟩ => ⟨S_, .i32⟩
  | .hbm, ⟨23, _⟩ => ⟨S1048576, .i32⟩
  | .hbm, ⟨24, _⟩ => ⟨S1048576, .i32⟩
  | .hbm, ⟨25, _⟩ => ⟨S1048576, .i32⟩
  | .hbm, ⟨26, _⟩ => ⟨S_, .i32⟩
  | .hbm, ⟨27, _⟩ => ⟨S1048576, .i32⟩
  | .hbm, ⟨28, _⟩ => ⟨S1048576, .i1⟩
  | .hbm, ⟨29, _⟩ => ⟨S_, .i32⟩
  | .hbm, ⟨30, _⟩ => ⟨S1048576, .i32⟩
  | .hbm, ⟨31, _⟩ => ⟨S1048576, .i32⟩
  | .hbm, ⟨32, _⟩ => ⟨S1048576, .i32⟩
  | .hbm, ⟨33, _⟩ => ⟨S1048576x1, .i32⟩
  | .hbm, ⟨34, _⟩ => ⟨S1048576x1, .i32⟩
  | .hbm, ⟨35, _⟩ => ⟨S1048576x2, .i32⟩
  | .hbm, ⟨36, _⟩ => ⟨S16384x16384, .f32⟩
  | .hbm, ⟨37, _⟩ => ⟨S_, .f32⟩
  | .hbm, ⟨38, _⟩ => ⟨S16384, .f32⟩
  | .hbm, ⟨39, _⟩ => ⟨S_, .f32⟩
  | .hbm, ⟨40, _⟩ => ⟨S16384, .f32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S_, .i32⟩
  | .hbm, ⟨54, _⟩ => ⟨S524288, .i32⟩
  | .hbm, ⟨55, _⟩ => ⟨S524288, .i1⟩
  | .hbm, ⟨56, _⟩ => ⟨S_, .i32⟩
  | .hbm, ⟨57, _⟩ => ⟨S524288, .i32⟩
  | .hbm, ⟨58, _⟩ => ⟨S524288, .i32⟩
  | .hbm, ⟨59, _⟩ => ⟨S524288, .i32⟩
  | .hbm, ⟨60, _⟩ => ⟨S524288x1, .i32⟩
  | .hbm, ⟨61, _⟩ => ⟨S16384, .f32⟩
  | .hbm, ⟨62, _⟩ => ⟨S16384, .f32⟩
  | .hbm, ⟨63, _⟩ => ⟨S_, .f32⟩
  | .hbm, ⟨64, _⟩ => ⟨S16384, .f32⟩
  | .hbm, ⟨65, _⟩ => ⟨S16384, .i1⟩
  | .hbm, ⟨66, _⟩ => ⟨S16384, .f32⟩
  | .hbm, ⟨67, _⟩ => ⟨S_, .f32⟩
  | .hbm, ⟨68, _⟩ => ⟨S_, .f32⟩
  | .hbm, ⟨69, _⟩ => ⟨S16384, .f32⟩
  | .hbm, ⟨70, _⟩ => ⟨S16384, .f32⟩
  | .hbm, ⟨71, _⟩ => ⟨S16384x1, .f32⟩
  | .hbm, ⟨72, _⟩ => ⟨S16384x64, .f32⟩
  | .hbm, ⟨73, _⟩ => ⟨S1x64, .f32⟩
  | .hbm, ⟨74, _⟩ => ⟨S16384x64, .f32⟩
  | .hbm, ⟨75, _⟩ => ⟨S16384x16384, .bf16⟩
  | .hbm, ⟨76, _⟩ => ⟨S16384x16, .f32⟩
  | .hbm, ⟨77, _⟩ => ⟨S1x16, .f32⟩
  | .hbm, ⟨78, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x1, .f32⟩
  | .local _ .vmem, ⟨5, _⟩ => ⟨S1024x1, .f32⟩
  | .local _ .vmem, ⟨6, _⟩ => ⟨S2048x1, .f32⟩
  | .local _ .vmem, ⟨7, _⟩ => ⟨S2048x1, .f32⟩
  | .local _ .vmem, ⟨8, _⟩ => ⟨S1x64, .f32⟩
  | .local _ .vmem, ⟨9, _⟩ => ⟨S1024x64, .f32⟩
  | .local _ .vmem, ⟨10, _⟩ => ⟨S1024x64, .f32⟩
  | .local _ .vmem, ⟨11, _⟩ => ⟨S1024x2048, .bf16⟩
  | .local _ .vmem, ⟨12, _⟩ => ⟨S1024x2048, .bf16⟩
  | .local _ .vmem, ⟨13, _⟩ => ⟨S1024x64, .f32⟩
  | .local _ .vmem, ⟨14, _⟩ => ⟨S1024x4096, .bf16⟩
  | .local _ .vmem, ⟨15, _⟩ => ⟨S1024x4096, .bf16⟩
  | .local _ .vmem, ⟨16, _⟩ => ⟨S4096x16, .f32⟩
  | .local _ .vmem, ⟨17, _⟩ => ⟨S4096x16, .f32⟩
  | .local _ .vmem, ⟨18, _⟩ => ⟨S1024x1, .f32⟩
  | .local _ .vmem, ⟨19, _⟩ => ⟨S1024x1, .f32⟩
  | .local _ .vmem, ⟨20, _⟩ => ⟨S4096x1, .f32⟩
  | .local _ .vmem, ⟨21, _⟩ => ⟨S4096x1, .f32⟩
  | .local _ .vmem, ⟨22, _⟩ => ⟨S1x16, .f32⟩
  | .local _ .vmem, ⟨23, _⟩ => ⟨S1024x16, .f32⟩
  | .local _ .vmem, ⟨24, _⟩ => ⟨S1024x16, .f32⟩
  | .local _ .vmem, ⟨25, _⟩ => ⟨S1024x16, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_call0_v0 : Ref sig .tc := ⟨.hbm, 68, rfl⟩
abbrev main_call0_v1 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50_0 : Ref sig .tc := ⟨.hbm, 74, rfl⟩
abbrev main_v50_1 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  concatenates_S524288_S524288_S1048576_d0 : Shape.Concatenates [S524288, S524288] S1048576 0
  bcast_S_S16384x16384 : S_.BroadcastsInDim S16384x16384 (![] : Fin 0 → Fin S16384x16384.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S_S16384 : S_.BroadcastsInDim S16384 (![] : Fin 0 → Fin S16384.rank)
  bcast_S524288_S524288x1_0 : S524288.BroadcastsInDim S524288x1 (![0] : Fin 1 → Fin S524288x1.rank)
  shapeCasts_S16384_S16384x1 : S16384.ShapeCasts S16384x1
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  iota_S1024x2048_d0_w32 : S1024x2048.Iotas .tc 32 [0]
  iota_S1024x2048_d1_w32 : S1024x2048.Iotas .tc 32 [1]
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x64 : S2048x1.Broadcasts S2048x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x16 : S4096x1.Broadcasts S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  broadcasts_S1024x1_S1024x16 : S1024x1.Broadcasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  scatter_S16384x16384_S1048576x2_S1048576_n_01_01_1_wf : ScatterDims.WF S16384x16384 S1048576x2 S1048576 [] [0, 1] [0, 1] 1
  scatter_S16384_S524288x1_S524288_n_0_0_1_wf : ScatterDims.WF S16384 S524288x1 S524288 [] [0] [0] 1
  dot_S16384x64_S64x64_S16384x64_1_0_0_1_n_n_wf : DotDims.WF S16384x64 S64x64 S16384x64 [1] [0] [0] [1] [] []
  dot_S1024x2048_S2048x64_S1024x64_1_0_0_1_n_n_wf : DotDims.WF S1024x2048 S2048x64 S1024x64 [1] [0] [0] [1] [] []
  dot_S16384x64_S64x16_S16384x16_1_0_0_1_n_n_wf : DotDims.WF S16384x64 S64x16 S16384x16 [1] [0] [0] [1] [] []
  dot_S1024x4096_S4096x16_S1024x16_1_0_0_1_n_n_wf : DotDims.WF S1024x4096 S4096x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S16384x1.size a
  hwx0_3 : ∀ i : grid0.Coords, EltTy.bits .f32 = 32 ∨ (Rect.block (s := S16384x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .f32 = 32 ∨ (Rect.block (s := S16384x64) S1024x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S16384x16384.size a
  hwx0_6 : ∀ i : grid0.Coords, EltTy.bits .bf16 = 32 ∨ (Rect.block (s := S16384x16384) S1024x2048.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .bf16 = 32 ∨ (Rect.block (s := S16384x16384) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S16384x16.size a
  hwx1_1 : ∀ i : grid1.Coords, EltTy.bits .f32 = 32 ∨ (Rect.block (s := S16384x16) S4096x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S16384x1.size a
  hwx1_3 : ∀ i : grid1.Coords, EltTy.bits .f32 = 32 ∨ (Rect.block (s := S16384x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x16.size a ≤ S16384x16.size a
  hwx1_5 : ∀ i : grid1.Coords, EltTy.bits .f32 = 32 ∨ (Rect.block (s := S16384x16) S1024x16.size (cc1_transform_5 i) (hinb1_5 i)).WholeWords (EltTy.packing .f32)

variable [Facts₀]

def scatter_S16384x16384_S1048576x2_S1048576_n_01_01_1 : ScatterDims S16384x16384 S1048576x2 S1048576 where
  updateWindowDims := []
  insertedWindowDims := [0, 1]
  scatterDimsToOperandDims := [0, 1]
  indexVectorDim := 1
  wf := scatter_S16384x16384_S1048576x2_S1048576_n_01_01_1_wf
def scatter_S16384_S524288x1_S524288_n_0_0_1 : ScatterDims S16384 S524288x1 S524288 where
  updateWindowDims := []
  insertedWindowDims := [0]
  scatterDimsToOperandDims := [0]
  indexVectorDim := 1
  wf := scatter_S16384_S524288x1_S524288_n_0_0_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf

abbrev win0_0 : Pipeline.Window sig grid0 :=
  Pipeline.Window.ofSpec (Memref.whole main_v23) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v48) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v49) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v50_0) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50_1) S1024x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun _ => false | ⟨_ + 7, h⟩ => absurd h (Nat.not_lt.2 (Nat.le_add_left _ _))

abbrev win1_0 : Pipeline.Window sig grid1 :=
  Pipeline.Window.ofSpec (Memref.whole main_v50_1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1024x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384 : Shape := ⟨1, ![16384]⟩
abbrev S16384x1 : Shape := ⟨2, ![16384, 1]⟩
abbrev S1x16384 : Shape := ⟨2, ![1, 16384]⟩
abbrev S1x64 : Shape := ⟨2, ![1, 64]⟩
abbrev S16384x16 : Shape := ⟨2, ![16384, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S524288, .f32⟩
  | .hbm, ⟨6, _⟩ => ⟨S2x524288, .i32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .f32⟩
  | .hbm, ⟨12, _⟩ => ⟨S524288, .f32⟩
  | .hbm, ⟨13, _⟩ => ⟨S524288, .f32⟩
  | .hbm, ⟨14, _⟩ => ⟨S_, .f32⟩
  | .hbm, ⟨15, _⟩ => ⟨S16384x16384, .f32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288x1, .i32⟩
  | .hbm, ⟨32, _⟩ => ⟨S524288x2, .i32⟩
  | .hbm, ⟨33, _⟩ => ⟨S16384x16384, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288x1, .i32⟩
  | .hbm, ⟨50, _⟩ => ⟨S524288x2, .i32⟩
  | .hbm, ⟨51, _⟩ => ⟨S16384x16384, .f32⟩
  | .hbm, ⟨52, _⟩ => ⟨S16384x16384, .i32⟩
  | .hbm, ⟨53, _⟩ => ⟨S16384x16384, .i32⟩
  | .hbm, ⟨54, _⟩ => ⟨S_, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S16384x16384, .f32⟩
  | .hbm, ⟨59, _⟩ => ⟨S16384x16384, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .i1⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1, .f32⟩
  | .hbm, ⟨71, _⟩ => ⟨S16384x16384, .f32⟩
  | .hbm, ⟨72, _⟩ => ⟨S16384x16384, .f32⟩
  | .hbm, ⟨73, _⟩ => ⟨S1x16384, .f32⟩
  | .hbm, ⟨74, _⟩ => ⟨S16384x16384, .f32⟩
  | .hbm, ⟨75, _⟩ => ⟨S16384x16384, .f32⟩
  | .hbm, ⟨76, _⟩ => ⟨S16384x64, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S16384x16, .f32⟩
  | .hbm, ⟨85, _⟩ => ⟨S16384x16, .f32⟩
  | .hbm, ⟨86, _⟩ => ⟨S1x16, .f32⟩
  | .hbm, ⟨87, _⟩ => ⟨S16384x16, .f32⟩
  | .hbm, ⟨88, _⟩ => ⟨S16384x16, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_call0_v0 : Ref sig .tc := ⟨.hbm, 67, rfl⟩
abbrev main_call0_v1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384x16384 : S_.BroadcastsInDim S16384x16384 (![] : Fin 0 → Fin S16384x16384.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  scatter_S16384x16384_S524288x2_S524288_n_01_01_1_wf : ScatterDims.WF S16384x16384 S524288x2 S524288 [] [0, 1] [0, 1] 1
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S16384x64_S64x16_S16384x16_1_0_0_1_n_n_wf : DotDims.WF S16384x64 S64x16 S16384x16 [1] [0] [0] [1] [] []
  dot_S16384x16384_S16384x16_S16384x16_1_0_0_1_n_n_wf : DotDims.WF S16384x16384 S16384x16 S16384x16 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.K.Common.lean ====
/-
  What the two kernel regions' modules share: the contents a region is entered with, as a function of the core and the buffer, and the two
  halves of the full share. In each region ONE array (the column of reciprocal square roots of the degrees) is handed to two input windows,
  one reading it by row blocks and one by column-tile blocks; an input window only reads, so the array's ownership is split in two halves,
  one per window, and joined again when the region ends.
-/
import proofs.«135561_j38560216383500_2_alg».proof.Proof.Gen.Kernel.Launch
import proofs.«135561_j38560216383500_2_alg».proof.Proof.Gen.Kernel.Points
import proofs.«135561_j38560216383500_2_alg».proof.Proof.Gen.Kernel.Skeleton
import Idealize.ShloMosaic.Lib.Pipeline.FrameBody

noncomputable section

namespace Cert.Kernel.Hand

open Idealize.ShloMosaic Idealize.ShloMosaic.TcCoe Idealize.SL Idealize.SL.RA Idealize.SL.Sem
open scoped Idealize.SL.RA.PCS
open Cert.Kernel Cert.Kernel.Gen

variable {F : FTy → Type} [FloatOps F]

/-- Core `c`'s unscoped buffers when a region is entered. -/
abbrev EntryV (F : FTy → Type) [FloatOps F] : Type :=
  (c : Dev nD) → (b : Ref sig .tc) → Buf (Elt F) ((c : Thread nD τ).loc b)

/-- The left half of the full share: the row-block window's part of the shared column. -/
def qL : PosShare TreeShare := (fullShare : PosShare TreeShare).left
/-- The right half: the column-tile window's part. -/
def qR : PosShare TreeShare := (fullShare : PosShare TreeShare).right

/-- The two halves make the full share. -/
theorem qL_op_qR : (fullShare : PosShare TreeShare) ∈ qL ·? qR := PosShare.mem_left_op_right fullShare

end Cert.Kernel.Hand

end
-- ==== Proof.K.R0Runs.lean ====
/-
  What the three cases of the first region's body share: the two conditions of the body's branches in closed form over the grid (the first
  holds at the first column tile of a row block, the second at the last), where the first output's window is idle, the windows' staging
  memrefs at a point, and three facts about a whole-buffer access: a load through the whole rectangle reads the contents, a store through
  it leaves its payload.
-/
import proofs.«135561_j38560216383500_2_alg».proof.Proof.K.Common
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer accesses -/

section Whole

variable {sg : RefSig} {κ : Kind} {sp : Space} {s : Shape} {e : EltTy} {Val : EltTy → Type}

/-- The rectangle of all of a shape, written with explicit offsets (necessarily zero), places each index at itself. -/
theorem unit_whole_emb (off : Fin s.rank → Nat) (inb : ∀ a, off a + s.size a ≤ s.size a) (x : s.Idx) :
    (Rect.unit (s := s) off s.size inb).emb x = x := by
  funext a; apply Fin.ext
  show off a + 1 * (x a : Nat) = x a
  have := inb a; omega

/-- A store through the whole rectangle leaves its payload, whatever was there and whatever was stored before. -/
theorem read_writes_whole (v : View sg κ sp s e) (f : v.ty.Contents Val) (off : Fin s.rank → Nat) (inb : ∀ a, off a + s.size a ≤ s.size a)
    (w : s.Idx → Val e) (L : List (View.Piece Val s e)) :
    v.read Val (v.writes Val f (⟨Rect.unit (s := s) off s.size inb, w⟩ :: L)) = w := by
  funext y
  have h := View.read_writes_cons_emb (v := v) (f := f) (Rect.unit (s := s) off s.size inb) w L y
  rw [unit_whole_emb] at h
  exact h

/-- A load through the whole rectangle of contents that read X reads X. -/
theorem ld_whole (X : s.Idx → Val e) (off : Fin s.rank → Nat) (inb : ∀ a, off a + s.size a ≤ s.size a) :
    View.ld X (Rect.unit (s := s) off s.size inb) = X := by
  funext y
  show X ((Rect.unit (s := s) off s.size inb).emb y) = X y
  rw [unit_whole_emb]

end Whole

/-! ## The body's branch conditions -/

/-- The condition of the body's first branch (the accumulator's reset), from the grid coordinates. -/
abbrev cond0_0 (i : grid0.Coords) : Prop := (Scalar.cmpi .ne (Scalar.extui (Scalar.cmpi .eq (BitVec.ofNat 32 (i 1).val) 0#32)) 0#32) = 1#1
/-- It holds at the first column tile of each row block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second branch (the write-out of the finished row block). -/
abbrev cond0_1 (i : grid0.Coords) : Prop := k0_cond2 i = 1#1
/-- It holds at the last column tile of each row block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
/-- Away from the last column tile the first output's window is idle: the body stores nothing into it, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last column tile it is live. -/
theorem liveAt0_5 : ∀ t : Fin cfg0.N, cond0_1 (grid0.coords t) → cfg0.idle 5 (grid0.coords t) = false := by decide +kernel

/-! ## The staging memrefs at a point, spelled as the pipeline passes them -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)

/-- The accumulator as a memref: the kernel's own whole scoped buffer. -/
abbrev scM0 : Memref sig .tc .vmem S1024x64 .f32 := Memref.whole cc0_scratch0

/-- The core's scoped buffers that region 0 does not use (they are region 1's), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is entered with, the accumulator as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.Kernel.Hand

end
-- ==== Proof.K.R0RunA.lean ====
/-
  The first region's body at the first column tile of a row block: the accumulator is reset, the adjacency block with the identity added is
  written out rounded, and the block's product with the scaled feature tile is added to the (zero) accumulator. Nothing is stored into the
  first output's buffer.
-/
import proofs.«135561_j38560216383500_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the five input blocks, the first output's buffer at contents handed back untouched, the second output's
    and the accumulator at anything: the body runs to the inputs as they were, the second output's buffer at the rounded block, and the
    accumulator at the point's product added to zero. -/
theorem kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : cond0_0 i) (hc1 : ¬cond0_1 i)
    (x0 : Vec F S1024x2048 .f32) (x1 : Vec F S2048x64 .f32) (x2 : Vec F S1024x1 .f32) (x3 : Vec F S2048x1 .f32) (x4 : Vec F S1x64 .f32) (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare (k0_pay3 i x0) ∗ owns (c : Thread nD τ) arg9 fullShare (k0_pay4 i x0 x1 x3 k0_pay2)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole]
    sl_unfold_run_names
    rw [View.readCov_cons_toLoadRect]

end Cert.Kernel.Hand

end
-- ==== Proof.K.R0RunB.lean ====
/-
  The first region's body at a middle column tile of a row block: the adjacency block with the identity added is written out rounded, and
  the block's product with the scaled feature tile is added to the accumulator the point before left. Nothing is stored into the first
  output's buffer.
-/
import proofs.«135561_j38560216383500_2_alg».proof.Proof.K.R0RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the five input blocks, the first output's buffer at contents handed back untouched, the second output's at
    anything and the accumulator at the contents xs the point before left: the body runs to the inputs as they were, the second output's buffer
    at the rounded block, and the accumulator at the point's product added to xs. -/
theorem kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : ¬cond0_0 i) (hc1 : ¬cond0_1 i)
    (x0 : Vec F S1024x2048 .f32) (x1 : Vec F S2048x64 .f32) (x2 : Vec F S1024x1 .f32) (x3 : Vec F S2048x1 .f32) (x4 : Vec F S1x64 .f32) (xi5 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xi5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare (k0_pay3 i x0) ∗ owns (c : Thread nD τ) arg9 fullShare (k0_pay4 i x0 x1 x3 xs)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole, View.readAt_eq_ld, harg9.read_unread, ld_whole]

end Cert.Kernel.Hand

end
-- ==== Proof.K.R0RunC.lean ====
/-
  The first region's body at the last column tile of a row block: the adjacency block with the identity added is written out rounded, the
  block's product with the scaled feature tile is added to the accumulator the point before left, and the finished sum — scaled by the row
  block's column of factors, the bias added, negative entries replaced by zero — is stored into the first output's buffer.
-/
import proofs.«135561_j38560216383500_2_alg».proof.Proof.K.R0RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging memrefs holding the five input blocks, both outputs' buffers at anything and the accumulator at the contents xs the point
    before left: the body runs to the inputs as they were, the second output's buffer at the rounded block, the accumulator at the point's
    product added to xs, and the first output's buffer at the finished sum scaled, biased and rectified. -/
theorem kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : ¬cond0_0 i) (hc1 : cond0_1 i)
    (x0 : Vec F S1024x2048 .f32) (x1 : Vec F S2048x64 .f32) (x2 : Vec F S1024x1 .f32) (x3 : Vec F S2048x1 .f32) (x4 : Vec F S1x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay4 i x0 x1 x3 xs) x2 x4) ∗ owns (c : Thread nD τ) arg8 fullShare (k0_pay3 i x0) ∗ owns (c : Thread nD τ) arg9 fullShare (k0_pay4 i x0 x1 x3 xs)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole _ _ _ _ _ _).trans ?_
    sl_unfold_run_names
    rw [View.readCov_cons_toLoadRect, View.readAt_eq_ld, harg2.read_unread, ld_whole, View.readAt_eq_ld, harg3.read_unread, ld_whole, View.readAt_eq_ld, harg5.read_unread, ld_whole, View.readAt_eq_ld, harg9.read_unread, ld_whole, View.readAt_eq_ld, harg4.read_unread, ld_whole, View.readAt_eq_ld, harg6.read_unread, ld_whole]
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole, View.readAt_eq_ld, harg9.read_unread, ld_whole]

end Cert.Kernel.Hand

end
-- ==== Proof.K.R0Frame.lean ====
/-
  The first kernel region (the first graph-convolution layer) on one core, point by point. The grid is 16 row blocks by 8 column
  tiles; point t works on row block t / 8 and column tile t % 8. A scratch accumulator is carried from point to point: it is reset
  at the first tile of a row block, each point adds the product of the point's adjacency block (with the identity added) and the scaled
  feature tile, and the last tile of the row block writes the scaled, biased, rectified sum out. This module states what the two outputs'
  buffers and the accumulator hold after each point, the region's proof data at any entry contents, and proves the body's obligation at
  every point from the three cases' runs.
-/
import proofs.«135561_j38560216383500_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The windows' blocks and what each point leaves -/

/-- Input window w's block at point t, read off the window's array as the region finds it. -/
def iblk0 (V : EntryV F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The accumulator after point n: the point's product added to zero at the first tile of a row block, to what the point before left otherwise. -/
def acc0 (V : EntryV F) (c : Dev nD) : (n : ℕ) → n < cfg0.N → Vec F S1024x64 .f32
  | 0, hn => k0_pay4 (grid0.coords ⟨0, hn⟩) (iblk0 V c 0 ⟨0, hn⟩) (iblk0 V c 1 ⟨0, hn⟩) (iblk0 V c 3 ⟨0, hn⟩) k0_pay2
  | n + 1, hn => k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn))

/-- What the two outputs' buffers and the accumulator hold after point n (the outputs in window order, then the accumulator). The first
    output's component is what its store WOULD write from the accumulator; the body performs that store at the last tile of a row block only,
    and elsewhere the component is not consulted. -/
def outsAt0 (V : EntryV F) (c : Dev nD) (n : ℕ) (hn : n < cfg0.N) : Vec F S1024x64 .f32 × Vec F S1024x2048 .bf16 × Vec F S1024x64 .f32 :=
  (k0_pay1 (acc0 V c n hn) (iblk0 V c 2 ⟨n, hn⟩) (iblk0 V c 4 ⟨n, hn⟩), k0_pay3 (grid0.coords ⟨n, hn⟩) (iblk0 V c 0 ⟨n, hn⟩), acc0 V c n hn)

/-- The accumulator at the first tile of a row block. -/
theorem acc0_first (V : EntryV F) (c : Dev nD) (t : Fin cfg0.N) (h0 : t.val % 8 = 0) :
    acc0 V c t.val t.isLt = k0_pay4 (grid0.coords t) (iblk0 V c 0 t) (iblk0 V c 1 t) (iblk0 V c 3 t) k0_pay2 := by
  obtain ⟨n, hn⟩ := t
  cases n with
  | zero => rfl
  | succ n =>
    show k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn)) = _
    rw [if_pos h0]

/-- The accumulator at a later tile: over what the point before left. -/
theorem acc0_later (V : EntryV F) (c : Dev nD) (t : Fin cfg0.N) (h0 : ¬t.val % 8 = 0) :
    acc0 V c t.val t.isLt = k0_pay4 (grid0.coords t) (iblk0 V c 0 t) (iblk0 V c 1 t) (iblk0 V c 3 t)
      (acc0 V c (t.val - 1) (Nat.lt_of_le_of_lt (Nat.sub_le _ _) t.isLt)) := by
  obtain ⟨n, hn⟩ := t
  cases n with
  | zero => exact absurd (Nat.zero_mod 8) h0
  | succ n =>
    show k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn)) = _
    rw [if_neg h0]; rfl

/-- The components of outsAt0 at a point, by name. -/
theorem outsAt0_out5 (V : EntryV F) (c : Dev nD) (t : Fin cfg0.N) :
    (outsAt0 V c t.val t.isLt).1 = k0_pay1 (acc0 V c t.val t.isLt) (iblk0 V c 2 t) (iblk0 V c 4 t) := rfl
theorem outsAt0_out6 (V : EntryV F) (c : Dev nD) (t : Fin cfg0.N) :
    (outsAt0 V c t.val t.isLt).2.1 = k0_pay3 (grid0.coords t) (iblk0 V c 0 t) := rfl
theorem outsAt0_acc (V : EntryV F) (c : Dev nD) (n : ℕ) (hn : n < cfg0.N) : (outsAt0 V c n hn).2.2 = acc0 V c n hn := rfl

/-- outsAt0 at the first tile of a row block (case A): the accumulator starts from zero. -/
theorem outsAt0_A (V : EntryV F) (c : Dev nD) (t : Fin cfg0.N) (h0 : t.val % 8 = 0) :
    outsAt0 V c t.val t.isLt =
      (k0_pay1 (k0_pay4 (grid0.coords t) (iblk0 V c 0 t) (iblk0 V c 1 t) (iblk0 V c 3 t) k0_pay2) (iblk0 V c 2 t) (iblk0 V c 4 t),
       k0_pay3 (grid0.coords t) (iblk0 V c 0 t),
       k0_pay4 (grid0.coords t) (iblk0 V c 0 t) (iblk0 V c 1 t) (iblk0 V c 3 t) k0_pay2) := by
  have h := acc0_first V c t h0
  show (k0_pay1 (acc0 V c t.val t.isLt) (iblk0 V c 2 t) (iblk0 V c 4 t), k0_pay3 (grid0.coords t) (iblk0 V c 0 t), acc0 V c t.val t.isLt) = _
  rw [h]

/-- outsAt0 at a later tile (cases B and C: a middle tile, the last tile): over the accumulator the point before left. The first component
    is consulted at the last tile only. -/
theorem outsAt0_BC (V : EntryV F) (c : Dev nD) (t : Fin cfg0.N) (h0 : ¬t.val % 8 = 0) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) := by
  have h := acc0_later V c t h0
  show (k0_pay1 (acc0 V c t.val t.isLt) (iblk0 V c 2 t) (iblk0 V c 4 t), k0_pay3 (grid0.coords t) (iblk0 V c 0 t), acc0 V c t.val t.isLt) = _
  rw [h]; rfl

theorem outsAt0_B (V : EntryV F) (c : Dev nD) (t : Fin cfg0.N) (h0 : ¬t.val % 8 = 0) (h1 : ¬t.val % 8 = 7) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) :=
  outsAt0_BC V c t h0

theorem outsAt0_C (V : EntryV F) (c : Dev nD) (t : Fin cfg0.N) (h0 : ¬t.val % 8 = 0) (h1 : t.val % 8 = 7) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) :=
  outsAt0_BC V c t h0

/-! ## The invariant -/

/-- The region invariant before position n: before the first point every scoped buffer at anything; afterwards the accumulator at what the
    point before left, the other scoped buffers at anything; the generator register at some state throughout. -/
def PhiS0 (V : EntryV F) (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 (F := F) c) ∗ (∃ r, prngReg c r))

theorem PhiS0_zero (V : EntryV F) (c : Dev nD) (n : ℕ) (h : n ≤ cfg0.N) (hz : n = 0) : PhiS0 V c n h = Pipeline.ΦA spec0 c := by
  subst hz; rfl

theorem PhiS0_succ (V : EntryV F) (c : Dev nD) (n : ℕ) (hn : n < cfg0.N) :
    PhiS0 V c (n + 1) hn = iprop(iprop(owns (c : Thread nD τ) scM0 fullShare ((outsAt0 V c n hn).2.2) ∗ others0 (F := F) c) ∗ (∃ r, prngReg c r)) := rfl

theorem PhiS0_pos (V : EntryV F) (c : Dev nD) (n : ℕ) (h : n ≤ cfg0.N) (hz : n ≠ 0) :
    PhiS0 V c n h = iprop(iprop(owns (c : Thread nD τ) scM0 fullShare ((outsAt0 V c (n - 1) (by omega)).2.2) ∗ others0 (F := F) c) ∗ (∃ r, prngReg c r)) := by
  cases n with
  | zero => exact absurd rfl hz
  | succ n => rfl

/-! ## The proof data -/

/-- The proof data of region 0 on core c, at entry contents V: the arrays as the region finds them; after the body at point t each input's
    buffer at its block, the outputs' at what outsAt0 says; the shared column's ownership split between its two windows, every other window's
    array held whole; nothing owed. -/
def dat0 (V : EntryV F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q w := match w with
    | ⟨2, _⟩ => qL
    | ⟨3, _⟩ => qR
    | _ => fullShare
  owed _ := 0

theorem A_eq0 (V : EntryV F) (c : Dev nD) (w : Fin cfg0.W) : (dat0 V c).A w = V c (Pipeline.arrRef spec0 w) := by
  dsimp only [dat0]

theorem q0_2 (V : EntryV F) (c : Dev nD) : (dat0 V c).q 2 = qL := rfl
theorem q0_3 (V : EntryV F) (c : Dev nD) : (dat0 V c).q 3 = qR := rfl
theorem q0_full (V : EntryV F) (c : Dev nD) (w : Fin cfg0.W) (h2 : w ≠ 2) (h3 : w ≠ 3) : (dat0 V c).q w = fullShare := by
  have hw : ∀ w : Fin 7, w ≠ 2 → w ≠ 3 → (dat0 V c).q w = fullShare := by
    intro w
    match w with
    | ⟨0, _⟩ => exact fun _ _ => rfl
    | ⟨1, _⟩ => exact fun _ _ => rfl
    | ⟨2, _⟩ => exact fun h _ => absurd rfl h
    | ⟨3, _⟩ => exact fun _ h => absurd rfl h
    | ⟨4, _⟩ => exact fun _ _ => rfl
    | ⟨5, _⟩ => exact fun _ _ => rfl
    | ⟨6, _⟩ => exact fun _ _ => rfl
  exact hw w h2 h3
theorem owed0 (V : EntryV F) (c : Dev nD) (t : Fin (cfg0.N + 1)) : (dat0 V c).owed t = 0 := rfl

theorem Phi0_first (V : EntryV F) (c : Dev nD) : (dat0 V c).Φ 0 = Pipeline.ΦA spec0 c := rfl

/-- After any point the invariant gives the entry's back: the accumulator's named contents are forgotten. -/
theorem Phi0_out (V : EntryV F) (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Ho⟩, Hg⟩
  isplitl [HS Ho]
  · isplitl [HS]
    · iexists _; iexact HS
    iexact Ho
  iexact Hg

theorem Phi0_last (V : EntryV F) (c : Dev nD) : (dat0 V c).Φ (Fin.last cfg0.N) ⊢ Pipeline.ΦA spec0 c :=
  Phi0_out V c _ (by rw [Fin.val_last]; have : cfg0.N = 128 := N_0; omega)

theorem Phi0_castSucc (V : EntryV F) (c : Dev nD) (t : Fin cfg0.N) :
    (dat0 V c).Φ t.castSucc = PhiS0 V c t.val (Nat.le_of_lt t.isLt) := by
  dsimp only [dat0]; simp only [Fin.coe_castSucc]

theorem after0_0 (V : EntryV F) (c : Dev nD) (t : Fin cfg0.N) : (dat0 V c).after 0 t = iblk0 V c 0 t := by dsimp only [dat0]
theorem after0_1 (V : EntryV F) (c : Dev nD) (t : Fin cfg0.N) : (dat0 V c).after 1 t = iblk0 V c 1 t := by dsimp only [dat0]
theorem after0_2 (V : EntryV F) (c : Dev nD) (t : Fin cfg0.N) : (dat0 V c).after 2 t = iblk0 V c 2 t := by dsimp only [dat0]
theorem after0_3 (V : EntryV F) (c : Dev nD) (t : Fin cfg0.N) : (dat0 V c).after 3 t = iblk0 V c 3 t := by dsimp only [dat0]
theorem after0_4 (V : EntryV F) (c : Dev nD) (t : Fin cfg0.N) : (dat0 V c).after 4 t = iblk0 V c 4 t := by dsimp only [dat0]
theorem after0_out5 (V : EntryV F) (c : Dev nD) (t : Fin cfg0.N) : (dat0 V c).after 5 t = (outsAt0 V c t.val t.isLt).1 := by dsimp only [dat0]
theorem after0_out6 (V : EntryV F) (c : Dev nD) (t : Fin cfg0.N) : (dat0 V c).after 6 t = (outsAt0 V c t.val t.isLt).2.1 := by dsimp only [dat0]

/-- Each input's current staging buffer holds its block at every point, fetched there or not: where the pipeline does not fetch, the block's
    index has not moved. -/
theorem before0_0 (V : EntryV F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : EntryV F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : EntryV F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (V : EntryV F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (V : EntryV F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (V : EntryV F) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (V : EntryV F) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks; the closed forms of the two conditions say which case the point is in, and
    that case's run applies; the invariant hands the body the accumulator at what the point before left (at anything at the first point) and
    takes it back at this point's contents; the first output's buffer is handed back untouched away from the last tile of a row block, where
    its window is idle and not written back; the core owes nothing throughout. -/
theorem sound_body0 (V : EntryV F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 6 t = owns (c : Thread nD τ) (ms0_6 t) fullShare ((dat0 V c).after 6 t) from by
    unfold Dat.leavesExact; rw [liveAt0_6 t], after0_out6, outsAt0_out6]
  rw [outsAt0_acc]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 5 t (idleAt0_5 t hc1) (noFlush0_5 t hc1)]
    rw [acc0_first V c t h0]
    by_cases hz : t.val = 0
    · rw [Phi0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_A c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6
    · rw [Phi0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_A c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6
  · have hz : t.val ≠ 0 := by intro e; apply h0; rw [e]
    have hc0 : ¬cond0_0 (grid0.coords t) := fun h => h0 ((hcond0_0 t).mp h)
    rw [acc0_later V c t h0]
    by_cases h1 : t.val % 8 = 7
    · have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_out5, outsAt0_out5, acc0_later V c t h0]
      rw [Phi0_castSucc V c t, PhiS0_pos V c _ _ hz, outsAt0_acc]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_C c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dat0 V c) 5 t (idleAt0_5 t hc1) (noFlush0_5 t hc1)]
      rw [Phi0_castSucc V c t, PhiS0_pos V c _ _ hz, outsAt0_acc]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_B c (grid0.coords t) _ _ _ _ _ _ _ _ _ _ _ _ _ _ _ _ hc0 hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6

/-- The body's obligation, at every point. -/
theorem body_obligation0 (V : EntryV F) (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
/-
  The second layer's region: a grid of 16 row blocks by 4 column tiles, point t in row block t / 4 at column tile k = t % 4.
  At each point the body adds to an accumulator the product of the point's block of the normalised adjacency with the point's
  tile of the scaled features; the accumulator is reset at k = 0 and, at k = 3, scaled by the row block of the column of
  reciprocal square roots, shifted by the bias and stored as the row block of the result. This module holds what the three
  cases of a point share: the windows' blocks, one step of the accumulation and the finishing step as values, the two branch
  conditions in closed form over the grid, where the output window is idle, and the invariant's split at the accumulator.
-/
import proofs.«135561_j38560216383500_2_alg».proof.Proof.K.Common
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The windows' blocks and the accumulator -/

/-- Window w's block at point t, read off its array as the region finds it. -/
def iblk1 (V : EntryV F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The accumulator: a whole buffer of the region's own, beside the windows. -/
abbrev scM1 : Memref sig .tc .vmem S1024x16 .f32 := Memref.whole cc1_scratch0

/-- One step of the accumulation at point t: the previous sum plus the point's adjacency block times its scaled feature tile. -/
def acc1 (V : EntryV F) (c : Dev nD) (t : Fin cfg1.N) (prev : Vec F S1024x16 .f32) : Vec F S1024x16 .f32 :=
  k1_pay2 (iblk1 V c 1 t) (iblk1 V c 3 t) prev (iblk1 V c 0 t)

/-- The row block of the result from a finished sum: scaled by the row block of the column, shifted by the bias. -/
def fin1 (V : EntryV F) (c : Dev nD) (t : Fin cfg1.N) (s : Vec F S1024x16 .f32) : Vec F S1024x16 .f32 :=
  k1_pay3 s (iblk1 V c 2 t) (iblk1 V c 4 t)

/-! ## The body's two conditions -/

/-- The first conditional's condition (the column tile is 0), from the grid coordinates. -/
abbrev cond1_0 (i : grid1.Coords) : Prop :=
  (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the column tile is the last). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column tile the output window is idle: nothing is stored into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x16 .f32 := win1_5.stage (cfg1.slots t 5)
abbrev hs1_5 (t : Fin cfg1.N) : (ms1_5 t).IsWhole := hstage1_5 ((cfg1.slots t 5).cast nbuf1_5)

/-! ## The invariant split at the accumulator -/

/-- Every scoped buffer of the core that is neither a staging buffer of this region nor its accumulator, at some contents:
    carried unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator named: the accumulator at some contents, the other scoped
    buffers, the generator register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-! ## Loads and stores through a whole buffer -/

/-- The zero offsets of a rank-2 rectangle, as the constant function. -/
theorem zero2 : (![0, 0] : Fin 2 → ℕ) = fun _ => 0 := by funext a; fin_cases a <;> rfl

/-- A load of the whole of a buffer held at the contents that read X reads X. -/
theorem readAt_unit_zero_unread {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A store of the whole of a buffer, the newest, reads back as what it stored, whatever the buffer held and whatever
    was stored before. -/
theorem read_writes_unit_zero {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w :=
  (View.read_writes_eq_canon m.view f _ (fun y => ⟨_, List.mem_cons_self, View.mem_set_unit_zero hz inb y⟩)).trans
    (View.canon_cons_unit_zero hz inb w L)

end Cert.Kernel.Hand

end
-- ==== Proof.K.R1RunA.lean ====
/-
  The body at a point of column tile 0, on any whole staging buffers: the accumulator, whatever it held, is reset to zero
  and then holds the first term of the sum; every input buffer is left as found; the output buffer is not stored into.
-/
import proofs.«135561_j38560216383500_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Column tile 0: from the inputs at their contents, the output at xi and the accumulator at anything, the body runs to the
    continuation holding the inputs as they were, the output still at xi, and the accumulator at zero plus the point's product. -/
theorem run1_A (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : cond1_0 i) (hc1 : ¬cond1_1 i)
    (x0 : Vec F S1024x4096 .bf16) (x1 : Vec F S4096x16 .f32) (x2 : Vec F S1024x1 .f32) (x3 : Vec F S4096x1 .f32) (x4 : Vec F S1x16 .f32) (xi : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi
            ∗ owns (c : Thread nD τ) arg8 fullShare (k1_pay2 x1 x3 (k1_pay1 (F := F)) x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  iexists _; isplitr
  swap; · iexact HS
  ipureintro
  rw [read_writes_unit_zero arg8 _ zero2]
  sl_unfold_run_names
  rw [readAt_unit_zero_unread arg3 harg3 zero2, readAt_unit_zero_unread arg5 harg5 zero2,
    readAt_unit_zero_unread arg2 harg2 zero2, View.readCov_unit_zero arg8.view zero2]

end Cert.Kernel.Hand

end
-- ==== Proof.K.R1RunB.lean ====
/-
  The body at a point of a middle column tile, on any whole staging buffers: the accumulator gains the point's product;
  every input buffer is left as found; the output buffer is not stored into.
-/
import proofs.«135561_j38560216383500_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle column tile: from the inputs at their contents, the output at xi and the accumulator at prev, the body runs
    to the continuation holding the inputs as they were, the output still at xi, and the accumulator at prev plus the product. -/
theorem run1_B (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : ¬cond1_0 i) (hc1 : ¬cond1_1 i)
    (x0 : Vec F S1024x4096 .bf16) (x1 : Vec F S4096x16 .f32) (x2 : Vec F S1024x1 .f32) (x3 : Vec F S4096x1 .f32) (x4 : Vec F S1x16 .f32) (xi : Vec F S1024x16 .f32) (prev : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi ∗ owns (c : Thread nD τ) arg8 fullShare prev
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi
            ∗ owns (c : Thread nD τ) arg8 fullShare (k1_pay2 x1 x3 prev x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  iexists _; isplitr
  swap; · iexact HS
  ipureintro
  rw [read_writes_unit_zero arg8 _ zero2]
  (try sl_unfold_run_names)
  simp only [readAt_unit_zero_unread arg3 harg3 zero2, readAt_unit_zero_unread arg5 harg5 zero2,
    readAt_unit_zero_unread arg2 harg2 zero2, readAt_unit_zero_unread arg8 harg8 zero2]

end Cert.Kernel.Hand

end
-- ==== Proof.K.R1RunC.lean ====
/-
  The body at a point of the last column tile, on any whole staging buffers: the accumulator gains the point's product,
  and the finished sum, scaled by the row block of the column and shifted by the bias, is stored as the output's block;
  every input buffer is left as found.
-/
import proofs.«135561_j38560216383500_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The last column tile: from the inputs at their contents, the output at anything and the accumulator at prev, the body runs
    to the continuation holding the inputs as they were, the accumulator at the finished sum, and the output at the result's block. -/
theorem run1_C (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : ¬cond1_0 i) (hc1 : cond1_1 i)
    (x0 : Vec F S1024x4096 .bf16) (x1 : Vec F S4096x16 .f32) (x2 : Vec F S1024x1 .f32) (x3 : Vec F S4096x1 .f32) (x4 : Vec F S1x16 .f32) (prev : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare prev
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay3 (k1_pay2 x1 x3 prev x0) x2 x4)
            ∗ owns (c : Thread nD τ) arg8 fullShare (k1_pay2 x1 x3 prev x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_writes_unit_zero arg7 _ zero2]
    (try sl_unfold_run_names)
    simp only [View.readCov_unit_zero arg8.view zero2, readAt_unit_zero_unread arg3 harg3 zero2, readAt_unit_zero_unread arg5 harg5 zero2,
      readAt_unit_zero_unread arg2 harg2 zero2, readAt_unit_zero_unread arg8 harg8 zero2,
      readAt_unit_zero_unread arg4 harg4 zero2, readAt_unit_zero_unread arg6 harg6 zero2]
  iexists _; isplitr
  swap; · iexact HS
  ipureintro
  (try sl_unfold_run_names)
  rw [read_writes_unit_zero arg8 _ zero2]
  simp only [readAt_unit_zero_unread arg3 harg3 zero2, readAt_unit_zero_unread arg5 harg5 zero2,
    readAt_unit_zero_unread arg2 harg2 zero2, readAt_unit_zero_unread arg8 harg8 zero2]

end Cert.Kernel.Hand

end
-- ==== Proof.K.R1Frame.lean ====
/-
  The second layer's region: what the output's staging buffer and the accumulator hold after each point, by recursion on the
  point; the invariant that carries the accumulator from point to point; the region's proof data; and the body obligation,
  a point being in one of three cases by its column tile k = t % 4 (0, a middle tile, the last).
-/
import proofs.«135561_j38560216383500_2_alg».proof.Proof.K.R1RunA
import proofs.«135561_j38560216383500_2_alg».proof.Proof.K.R1RunB
import proofs.«135561_j38560216383500_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the output and the accumulator hold after each point -/

/-- What the output's staging buffer and the accumulator hold after the body at position n (the output first). At a column
    tile other than the last the output is not stored and not written back: its component is a placeholder (zeros) that nothing
    consults. At tile 0 the sum restarts from zero; elsewhere it continues from what the point before left. -/
def outsAt1 (V : EntryV F) (c : Dev nD) : (n : ℕ) → n < cfg1.N → Vec F S1024x16 .f32 × Vec F S1024x16 .f32
  | 0, hn => (k1_pay1, acc1 V c ⟨0, hn⟩ k1_pay1)
  | n + 1, hn =>
    if (n + 1) % 4 = 0 then
      (k1_pay1, acc1 V c ⟨n + 1, hn⟩ k1_pay1)
    else if (n + 1) % 4 = 3 then
      (fin1 V c ⟨n + 1, hn⟩ (acc1 V c ⟨n + 1, hn⟩ (outsAt1 V c n (Nat.lt_of_succ_lt hn)).2),
        acc1 V c ⟨n + 1, hn⟩ (outsAt1 V c n (Nat.lt_of_succ_lt hn)).2)
    else
      (k1_pay1, acc1 V c ⟨n + 1, hn⟩ (outsAt1 V c n (Nat.lt_of_succ_lt hn)).2)

/-- At column tile 0: the sum restarts. -/
theorem outsAt1_A (V : EntryV F) (c : Dev nD) (t : Fin cfg1.N) (h0 : t.val % 4 = 0) :
    outsAt1 V c t.val t.isLt = (k1_pay1, acc1 V c t k1_pay1) := by
  obtain ⟨n, hn⟩ := t
  cases n with
  | zero => exact rfl
  | succ n => exact (if_pos h0).trans rfl

/-- At a middle column tile: the sum continues. -/
theorem outsAt1_B (V : EntryV F) (c : Dev nD) (t : Fin cfg1.N) (h0 : ¬t.val % 4 = 0) (h1 : ¬t.val % 4 = 3) :
    outsAt1 V c t.val t.isLt
      = (k1_pay1, acc1 V c t (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans ((if_neg h1).trans rfl)

/-- At the last column tile: the sum is finished and the result's row block stored. -/
theorem outsAt1_C (V : EntryV F) (c : Dev nD) (t : Fin cfg1.N) (h0 : ¬t.val % 4 = 0) (h1 : t.val % 4 = 3) :
    outsAt1 V c t.val t.isLt
      = (fin1 V c t (acc1 V c t (outsAt1 V c (t.val - 1) (Nat.lt_of_le_of_lt (Nat.sub_le _ _) t.isLt)).2),
          acc1 V c t (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans ((if_pos h1).trans rfl)

/-! ## The invariant -/

/-- The invariant before position n: before the first point what the launch hands the region; afterwards the accumulator at
    what the point before left, the core's other scoped buffers at anything, and the generator register at some state. -/
def PhiS1 (V : EntryV F) (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (V : EntryV F) (c : Dev nD) (n : ℕ) (h : n ≤ cfg1.N) (hz : n = 0) : PhiS1 V c n h = Pipeline.ΦA spec1 c := by
  subst hz; rfl

theorem PhiS1_succ (V : EntryV F) (c : Dev nD) (n : ℕ) (hn : n < cfg1.N) :
    PhiS1 V c (n + 1) hn
      = iprop(iprop(owns (c : Thread nD τ) scM1 fullShare ((outsAt1 V c n hn).2) ∗ rest1 (F := F) c) ∗ (∃ r, prngReg c r)) := rfl

theorem PhiS1_pos (V : EntryV F) (c : Dev nD) (n : ℕ) (h : n ≤ cfg1.N) (hz : n ≠ 0) :
    PhiS1 V c n h
      = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The region's proof data on core c, entered at contents V: the arrays as the region finds them; after the body at point t
    each input's buffer at its block and the output's at outsAt1; the invariant PhiS1; nothing owed; the column of reciprocal
    square roots, staged by windows 2 and 3, held by halves, every other array in full. -/
def dat1 (V : EntryV F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨2, _⟩ => qL
    | ⟨3, _⟩ => qR
    | _ => fullShare
  owed _ := 0

theorem A_eq1 (V : EntryV F) (c : Dev nD) (w : Fin cfg1.W) : (dat1 V c).A w = V c (Pipeline.arrRef spec1 w) := by
  dsimp only [dat1]

theorem q1_2 (V : EntryV F) (c : Dev nD) : (dat1 V c).q 2 = qL := rfl

theorem q1_3 (V : EntryV F) (c : Dev nD) : (dat1 V c).q 3 = qR := rfl

theorem q1_full (V : EntryV F) (c : Dev nD) (w : Fin cfg1.W) (h2 : w ≠ 2) (h3 : w ≠ 3) : (dat1 V c).q w = fullShare := by
  revert h2 h3
  fin_cases w <;> intro h2 h3 <;> first | rfl | exact absurd rfl h2 | exact absurd rfl h3

theorem owed1 (V : EntryV F) (c : Dev nD) (t : Fin (cfg1.N + 1)) : (dat1 V c).owed t = 0 := rfl

theorem Phi1_first (V : EntryV F) (c : Dev nD) : (dat1 V c).Φ 0 = Pipeline.ΦA spec1 c := by
  rw [show (dat1 V c).Φ 0 = PhiS1 V c 0 (Nat.zero_le _) from rfl, PhiS1_zero V c 0 _ rfl]

/-- After any point the invariant gives back what the launch handed over: the accumulator's contents are forgotten. -/
theorem Phi1_out (V : EntryV F) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

theorem Phi1_last (V : EntryV F) (c : Dev nD) : (dat1 V c).Φ (Fin.last cfg1.N) ⊢ Pipeline.ΦA spec1 c :=
  Phi1_out V c _ (by rw [Fin.val_last]; have : cfg1.N = 64 := N_1; omega)

/-- The invariant at a point's start, restated at the point's number. -/
theorem PhiS1_castSucc (V : EntryV F) (c : Dev nD) (t : Fin cfg1.N) :
    (dat1 V c).Φ t.castSucc = PhiS1 V c t.val (Nat.le_of_lt t.isLt) := by
  dsimp only [dat1]; simp only [Fin.coe_castSucc]

/-- The output's staging buffer after the body at point t. -/
theorem after1_out (V : EntryV F) (c : Dev nD) (t : Fin cfg1.N) :
    (dat1 V c).after 5 t = (outsAt1 V c t.val t.isLt).1 := by dsimp only [dat1]

/-- Each input's staging buffer after the body at point t: its block, untouched. -/
theorem after1_0 (V : EntryV F) (c : Dev nD) (t : Fin cfg1.N) : (dat1 V c).after 0 t = iblk1 V c 0 t := by dsimp only [dat1]
theorem after1_1 (V : EntryV F) (c : Dev nD) (t : Fin cfg1.N) : (dat1 V c).after 1 t = iblk1 V c 1 t := by dsimp only [dat1]
theorem after1_2 (V : EntryV F) (c : Dev nD) (t : Fin cfg1.N) : (dat1 V c).after 2 t = iblk1 V c 2 t := by dsimp only [dat1]
theorem after1_3 (V : EntryV F) (c : Dev nD) (t : Fin cfg1.N) : (dat1 V c).after 3 t = iblk1 V c 3 t := by dsimp only [dat1]
theorem after1_4 (V : EntryV F) (c : Dev nD) (t : Fin cfg1.N) : (dat1 V c).after 4 t = iblk1 V c 4 t := by dsimp only [dat1]

/-- Each input's current staging buffer holds its block at every point, fetched there or not. -/
theorem before1_0 (V : EntryV F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (V : EntryV F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (V : EntryV F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (V : EntryV F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (V : EntryV F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- An input's buffer is handed back at its block. -/
theorem leaves1_0 (V : EntryV F) (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (V : EntryV F) (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (V : EntryV F) (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (V : EntryV F) (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
theorem leaves1_4 (V : EntryV F) (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]

/-! ## The body obligation -/

/-- What the body is called with at point t, the windows one by one, -/
def bodyPre1 (V : EntryV F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (V : EntryV F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the column tile says which case the point is in; the
    invariant hands the body the accumulator at what the point before left (at anything, at the first point) and takes it
    back at this point's sum; away from the last tile the output's buffer goes back untouched, at the last it holds the
    result's row block; the core owes nothing throughout. -/
theorem sound_body1 (V : EntryV F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 4 = 0
  · by_cases h1 : t.val % 4 = 3
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0]
      unfold acc1; (try dsimp only)
      by_cases hz : t.val = 0
      ·
        rw [PhiS1_castSucc V c t, PhiS1_zero V c _ _ hz, PhiA1_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_out]
      rw [outsAt1_C V c t h0 h1]
      unfold fin1 acc1; (try dsimp only)
      by_cases hz : t.val = 0
      · exfalso; omega
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexact H5
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold acc1; (try dsimp only)
      by_cases hz : t.val = 0
      · exfalso; omega
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation1 (V : EntryV F) (c : Dev nD) :
    BodyObligation (dat1 (F := F) V c) (defs₀ (F := F)) Variants.none () Set.univ := fun t => by
  rw [bigSep_W1, bigSep_W1]
  exact sound_body1 V c t

end Cert.Kernel.Hand

end
-- ==== Proof.K.RunData.lean ====
/-
  The contents of a core's buffers at the boundaries of the two kernel regions, and each region's proof data at its entry contents. The
  first region is entered with what the host operations before it leave; it replaces its two result arrays. The second region is entered
  with those results in place after the host operations between the regions; it replaces its one result array. What a region leaves in
  an array it writes is what its write-backs leave there, point after point.
-/
import proofs.«135561_j38560216383500_2_alg».proof.Proof.K.R0Frame
import proofs.«135561_j38560216383500_2_alg».proof.Proof.K.R1Frame
import proofs.«135561_j38560216383500_2_alg».proof.Proof.Gen.Kernel.Regions

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

/-! ## The contents at the regions' boundaries -/

/-- What the first region is entered with: the launch contents after the host operations before it. -/
def entry0 (m : (ℓ : Loc nD τ sig) → Buf (Elt F) ℓ) : EntryV F := fun c b => Gen.V3 m c (Proc.devRef .tc b)

/-- What the first region leaves in a buffer: its two result arrays at what their write-backs leave, any other buffer as entered. -/
def outs0 (m : (ℓ : Loc nD τ sig) → Buf (Elt F) ℓ) (r : Ref sig .tc) (c : Dev nD) : Buf (Elt F) ((c : Thread nD τ).loc r) :=
  if h : r = main_v50_0 then h.symm ▸ (show Buf (Elt F) ((c : Thread nD τ).loc main_v50_0) from (dat0 (entry0 m) c).arrAt 5 cfg0.N)
  else if h : r = main_v50_1 then h.symm ▸ (show Buf (Elt F) ((c : Thread nD τ).loc main_v50_1) from (dat0 (entry0 m) c).arrAt 6 cfg0.N)
  else entry0 m c r

/-- What the second region is entered with, written over the first region's results alone. -/
def entry1' (m : (ℓ : Loc nD τ sig) → Buf (Elt F) ℓ) : EntryV F := fun c b => Gen.V5 m (fun _ => outs0 m) c (Proc.devRef .tc b)

/-- What the second region leaves in a buffer: its result array at what its write-backs leave, any other buffer as entered. -/
def outs1 (m : (ℓ : Loc nD τ sig) → Buf (Elt F) ℓ) (r : Ref sig .tc) (c : Dev nD) : Buf (Elt F) ((c : Thread nD τ).loc r) :=
  if h : r = main_v53 then h.symm ▸ (show Buf (Elt F) ((c : Thread nD τ).loc main_v53) from (dat1 (entry1' m) c).arrAt 5 cfg1.N)
  else entry1' m c r

/-- The contents the regions leave: after the first region (position 4) its results, after the second its result. -/
def outs (m : (ℓ : Loc nD τ sig) → Buf (Elt F) ℓ) : Gen.Outs (F := F) := fun J r c => if J = 4 then outs0 m r c else outs1 m r c

/-- What the second region is entered with: the first region's results in place, then the host operations between the regions. -/
def entry1 (m : (ℓ : Loc nD τ sig) → Buf (Elt F) ℓ) : EntryV F := fun c b => Gen.V5 m (outs m) c (Proc.devRef .tc b)

/-- The two spellings of the second region's entry contents agree: only the first region's results are read. -/
theorem entry1_eq (m : (ℓ : Loc nD τ sig) → Buf (Elt F) ℓ) : entry1 m = entry1' m := rfl

theorem outs_h (m : (ℓ : Loc nD τ sig) → Buf (Elt F) ℓ) (c : Dev nD) : outs m 4 main_v50_0 c = (dat0 (entry0 m) c).arrAt 5 cfg0.N := by
  show outs0 m main_v50_0 c = _
  unfold outs0; rw [dif_pos rfl]
theorem outs_S (m : (ℓ : Loc nD τ sig) → Buf (Elt F) ℓ) (c : Dev nD) : outs m 4 main_v50_1 c = (dat0 (entry0 m) c).arrAt 6 cfg0.N := by
  show outs0 m main_v50_1 c = _
  unfold outs0; rw [dif_neg (by decide), dif_pos rfl]
theorem outs_out (m : (ℓ : Loc nD τ sig) → Buf (Elt F) ℓ) (c : Dev nD) : outs m 6 main_v53 c = (dat1 (entry1 m) c).arrAt 5 cfg1.N := by
  show outs1 m main_v53 c = _
  unfold outs1; rw [dif_pos rfl, entry1_eq]

/-- Each region's proof data at its entry contents. -/
def pdats (m : (ℓ : Loc nD τ sig) → Buf (Elt F) ℓ) : (p : Fin 2) → (c : Dev nD) → Dat τ (Elt F) Unit ℕ (UR sig nD τ) ℕ (cfgs p) c
  | ⟨0, _⟩ => fun c => dat0 (entry0 m) c
  | ⟨1, _⟩ => fun c => dat1 (entry1 m) c

end Cert.Kernel.Hand

end
-- ==== Proof.K.Assemble.lean ====
/-
  From the two kernel regions to the whole program. The host operations around the regions only write buffers of their own, so once each
  region is known to run from the buffers as the operations before it left them to the buffers with its result arrays replaced, the whole
  program runs to the end and every argument array ends as it started. What each core carries beside its buffers from one step to the next
  is small: its random-generator register at some state, and the fact that it owes no other core anything. Nothing here looks inside a region.
-/
import proofs.«135561_j38560216383500_2_alg».proof.Proof.Gen.Kernel.Regions
import proofs.«135561_j38560216383500_2_alg».proof.Proof.K.Common

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

/-- No core waits on another: no level is assigned. -/
abbrev Lv0 : GSem nD τ sig → Finset Unit := fun _ => ∅
abbrev lv0 : GSem nD τ sig → Unit → ℕ := fun _ _ => 0

/-- What a core carries beside its buffers between two steps of the program: its generator register at some state, and owing nothing. -/
abbrev Rst (c : Dev nD) : sProp 𝕄 :=
  iprop((∃ r, prngReg c r) ∗ ∃ W, owes (c : Thread nD τ) (0 : CellTallies nD τ sig Unit) W)

/-- The whole program's frame from the two regions' records. -/
theorem frame_of (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (Gen.V3 m c) ∗ Rst (F := F) c) ⊢ R0.pre c)
    (hpost0 : ∀ c : Dev nD, R0.post c ⊢ iprop(StableHlo.held (c : Thread nD τ) (Pipeline.ucRefs τ sig) (Gen.V4 m outs c) ∗ Rst (F := F) c))
    (R1 : RegionSeg (pcfgs (F := F)) Gen.adm pdats () defs₀ Variants.none Lv0 lv0 1)
    (hpre1 : ∀ c : Dev nD, iprop(StableHlo.held (c : Thread nD τ) (Pipeline.ucRefs τ sig) (Gen.V5 m outs c) ∗ Rst (F := F) c) ⊢ R1.pre c)
    (hpost1 : ∀ c : Dev nD, R1.post c ⊢ iprop(StableHlo.held (c : Thread nD τ) (Pipeline.ucRefs τ sig) (Gen.V6 m outs c) ∗ Rst (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (emb₁ : Emb (UR sig nD τ) 𝕄) () Variants.none Lv0 lv0 (fun _ _ => rfl) ρ outs pdats
    (O₀ := 0) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (E := fun _ c => Rst (F := F) c)
    (hE0 := by
      have h : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ Rst (F := F) c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp))
          ⊢ (bigSep Finset.univ (fun c : Dev nD => Rst (F := F) c) : sProp 𝕄) := bigSep_mono fun c _ => h c
      iintro ⟨H, -⟩
      ihave H' := hm $$ H
      imodintro
      iexact H')
    (hE2 := fun c => by
      iintro ⟨-, HO⟩
      iexact HO)
    R0 hpre0 hpost0 R1 hpre1 hpost1

/-- The buffer of the program's result after the last region is what that region left there. -/
theorem V6_main_v53 (m : (ℓ : Loc nD τ sig) → Buf (Elt F) ℓ) (outs : Gen.Outs (F := F)) (c : Dev nD) :
    Gen.V6 m outs c main_v53 = outs 6 main_v53 c := by
  simp only [Gen.V6, Function.update_self]

set_option backward.isDefEq.respectTransparency.types false in
/-- The same run with the result named: the program ends with its result array holding what the second region left in it, and every
    argument array as it started. The steps are those of the whole-program frame over the same list of host stretches and regions; only
    what is read off the last buffer contents differs: the result's buffer is read too. -/
theorem run_out_of (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (Gen.V3 m c) ∗ Rst (F := F) c) ⊢ R0.pre c)
    (hpost0 : ∀ c : Dev nD, R0.post c ⊢ iprop(StableHlo.held (c : Thread nD τ) (Pipeline.ucRefs τ sig) (Gen.V4 m outs c) ∗ Rst (F := F) c))
    (R1 : RegionSeg (pcfgs (F := F)) Gen.adm pdats () defs₀ Variants.none Lv0 lv0 1)
    (hpre1 : ∀ c : Dev nD, iprop(StableHlo.held (c : Thread nD τ) (Pipeline.ucRefs τ sig) (Gen.V5 m outs c) ∗ Rst (F := F) c) ⊢ R1.pre c)
    (hpost1 : ∀ c : Dev nD, R1.post c ⊢ iprop(StableHlo.held (c : Thread nD τ) (Pipeline.ucRefs τ sig) (Gen.V6 m outs c) ∗ Rst (F := F) c)) :
    θ_run defs (onTc (τ := τ) (main (F := F))) ⟨m, fun _ => 0, ρ⟩ (fun r => ∀ c : Dev nD,
      r.2.mem ((c.tc : Thread nD τ).loc main_v53) = outs 6 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm pdats () cellOf_inj (emb₁ : Emb (UR sig nD τ) 𝕄) defs₀ Variants.none Lv0 lv0 m ρ main
    (Gen.segs m outs Variants.none Lv0 lv0 (fun _ c => Rst (F := F) c) () pdats R0 R1)
    (fun c Q => by
      rewrite [main_chain c, Seg.run_eq_chain,
        show (Gen.segs m outs Variants.none Lv0 lv0 (fun _ c => Rst (F := F) c) () pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst (F := F) c))
    (Tₙ := fun c => StableHlo.held (c : Thread nD τ) (Pipeline.ucRefs τ sig) (Gen.V6 m outs c))
    (hch := fun c => ⟨.rfl, .rfl, .rfl, hpre0 c, hpost0 c, hpre1 c, (hpost1 c).trans (sep_mono .rfl (by iintro ⟨-, HO⟩; iexact HO))⟩)
    (hinit := ?_) (QY := fun c s => s.mem ((c.tc : Thread nD τ).loc main_v53) = outs 6 main_v53 c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes the carried state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have h : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ emp) : sProp 𝕄) ⊢ Rst (F := F) c := fun c => by
      iintro ⟨-, HO, -, Hp, -⟩
      isplitl [Hp]; · iexists _; iexact Hp
      iexists ∅; iexact HO
    have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ emp))
        ⊢ (bigSep Finset.univ (fun c : Dev nD => Rst (F := F) c) : sProp 𝕄) := bigSep_mono fun c _ => h c
    iintro ⟨H, Hla⟩
    ihave H' := hsplit $$ H
    icases H' with ⟨Hh, Hr⟩
    ihave HE := hm $$ Hr
    have hjoin : (iprop((bigSep Finset.univ fun c : Dev nD => StableHlo.held (c : Thread nD τ) (Pipeline.ucRefs τ sig) (Gen.V0 m c))
          ∗ bigSep Finset.univ (fun c : Dev nD => Rst (F := F) c)) : sProp 𝕄)
        ⊢ bigSep Finset.univ fun c : Dev nD => iprop(StableHlo.held (c : Thread nD τ) (Pipeline.ucRefs τ sig) (Gen.V0 m c) ∗ Rst (F := F) c) :=
      Entails.of_eq (bigSep_sep' Finset.univ (fun c : Dev nD => StableHlo.held (c : Thread nD τ) (Pipeline.ucRefs τ sig) (Gen.V0 m c))
        (fun c : Dev nD => Rst (F := F) c)).symm
    ihave HJ := hjoin $$ [Hh HE]
    · isplitl [Hh]; · iexact Hh
      iexact HE
    imodintro
    iexact HJ
  · -- the end: the result's buffer and each argument's read off the last buffer contents
    unfold StableHlo.held
    iintro ⟨Hh, HSI⟩
    ihave Hr := (pointsTo_read_all (Pipeline.ucRefs τ sig) (fun b => ((c : Thread nD τ).1, b)) (Gen.V6 m outs c) s') $$ [Hh HSI]
    · isplitl [Hh] <;> iassumption
    icases Hr with ⟨%h, HSI⟩
    imodintro
    isplitr
    · ipureintro
      exact ⟨(h (Proc.devRef .tc main_v53) (Finset.mem_filter.mpr ⟨StableHlo.devRef_mem_tcRefs main_v53, by decide⟩)).trans (V6_main_v53 m outs c),
        (h (Proc.devRef .tc main_arg0) (Finset.mem_filter.mpr ⟨StableHlo.devRef_mem_tcRefs main_arg0, by decide⟩)).trans (Gen.V6_main_arg0 m outs c),
        (h (Proc.devRef .tc main_arg1) (Finset.mem_filter.mpr ⟨StableHlo.devRef_mem_tcRefs main_arg1, by decide⟩)).trans (Gen.V6_main_arg1 m outs c),
        (h (Proc.devRef .tc main_arg2) (Finset.mem_filter.mpr ⟨StableHlo.devRef_mem_tcRefs main_arg2, by decide⟩)).trans (Gen.V6_main_arg2 m outs c),
        (h (Proc.devRef .tc main_arg3) (Finset.mem_filter.mpr ⟨StableHlo.devRef_mem_tcRefs main_arg3, by decide⟩)).trans (Gen.V6_main_arg3 m outs c),
        (h (Proc.devRef .tc main_arg4) (Finset.mem_filter.mpr ⟨StableHlo.devRef_mem_tcRefs main_arg4, by decide⟩)).trans (Gen.V6_main_arg4 m outs c),
        (h (Proc.devRef .tc main_arg5) (Finset.mem_filter.mpr ⟨StableHlo.devRef_mem_tcRefs main_arg5, by decide⟩)).trans (Gen.V6_main_arg5 m outs c),
        (h (Proc.devRef .tc main_arg6) (Finset.mem_filter.mpr ⟨StableHlo.devRef_mem_tcRefs main_arg6, by decide⟩)).trans (Gen.V6_main_arg6 m outs c)⟩
    · iexact HSI

end Cert.Kernel.Hand

end
-- ==== Proof.K.Reg0.lean ====
/-
  The first kernel region as a step of the whole program. Between two steps a core holds every unscoped buffer whole. The region takes the
  arrays its windows stage out of them: six distinct buffers for seven windows, the column of reciprocal square roots of the degrees being
  read through two windows (by row blocks and by column tiles). That column's ownership is split in its two halves when the region is
  entered, one per window, and the halves are joined again when the region ends, both windows having only read. The two arrays the region
  writes end holding what its write-backs leave; every other buffer ends as it was entered.
-/
import proofs.«135561_j38560216383500_2_alg».proof.Proof.K.RunData
import proofs.«135561_j38560216383500_2_alg».proof.Proof.K.Assemble

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

/-! ## The arrays of the first region -/

theorem image_arrRef0 : Finset.univ.image (Pipeline.arrRef spec0) = [main_v23, main_v48, main_v47, main_v49, main_v50_0, main_v50_1].toFinset := by decide

/-- The distinct buffers behind the first region's windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v23) ↦{fullShare} V main_v23) ∗ (((c : Thread nD τ).loc main_v48) ↦{fullShare} V main_v48)
          ∗ (((c : Thread nD τ).loc main_v47) ↦{fullShare} V main_v47) ∗ (((c : Thread nD τ).loc main_v49) ↦{fullShare} V main_v49)
          ∗ (((c : Thread nD τ).loc main_v50_0) ↦{fullShare} V main_v50_0) ∗ (((c : Thread nD τ).loc main_v50_1) ↦{fullShare} V main_v50_1)) := by
  unfold Pipeline.arrBufs
  exact bigSep_eq_bigSepL_of_eq [main_v23, main_v48, main_v47, main_v49, main_v50_0, main_v50_1] image_arrRef0 (by decide) _

/-- The share each window of the first region holds its array at: the shared column by halves, every other array in full. -/
def sh0 : Fin cfg0.W → PosShare TreeShare
  | ⟨2, _⟩ => qL
  | ⟨3, _⟩ => qR
  | _ => fullShare

theorem share0_0 (V : EntryV F) (c : Dev nD) : (dat0 V c).share 0 = fullShare := by
  unfold Dat.share; rw [if_neg (by decide)]; exact q0_full V c 0 (by decide) (by decide)
theorem share0_1 (V : EntryV F) (c : Dev nD) : (dat0 V c).share 1 = fullShare := by
  unfold Dat.share; rw [if_neg (by decide)]; exact q0_full V c 1 (by decide) (by decide)
theorem share0_2 (V : EntryV F) (c : Dev nD) : (dat0 V c).share 2 = qL := by
  unfold Dat.share; rw [if_neg (by decide)]; exact q0_2 V c
theorem share0_3 (V : EntryV F) (c : Dev nD) : (dat0 V c).share 3 = qR := by
  unfold Dat.share; rw [if_neg (by decide)]; exact q0_3 V c
theorem share0_4 (V : EntryV F) (c : Dev nD) : (dat0 V c).share 4 = fullShare := by
  unfold Dat.share; rw [if_neg (by decide)]; exact q0_full V c 4 (by decide) (by decide)
theorem share0_5 (V : EntryV F) (c : Dev nD) : (dat0 V c).share 5 = fullShare := by
  unfold Dat.share; rw [if_pos (by decide)]
theorem share0_6 (V : EntryV F) (c : Dev nD) : (dat0 V c).share 6 = fullShare := by
  unfold Dat.share; rw [if_pos (by decide)]

theorem share0_eq (V : EntryV F) (c : Dev nD) : ∀ w : Fin cfg0.W, (dat0 V c).share w = sh0 w
  | ⟨0, _⟩ => share0_0 V c
  | ⟨1, _⟩ => share0_1 V c
  | ⟨2, _⟩ => share0_2 V c
  | ⟨3, _⟩ => share0_3 V c
  | ⟨4, _⟩ => share0_4 V c
  | ⟨5, _⟩ => share0_5 V c
  | ⟨6, _⟩ => share0_6 V c
  | ⟨_ + 7, h⟩ => absurd h (Nat.not_lt.2 (Nat.le_add_left _ _))

/-- The first region's arrays window by window, each a whole buffer held at its window's share. -/
theorem arrays0_eq (V : EntryV F) (c : Dev nD) (G : (w : Fin cfg0.W) → Buf (Elt F) ((cfg0.win w).arr.view.loc (c : Thread nD τ))) :
    ((dat0 V c).arrays G : sProp 𝕄)
      = bigSep Finset.univ fun w : Fin cfg0.W => ((cfg0.win w).arr.view.loc (c : Thread nD τ) ↦{sh0 w} G w) := by
  unfold Dat.arrays
  exact bigSep_congr fun w _ => by rw [(arr_whole0 w).set_eq_univ, share0_eq]

/-- ENTRY: the buffers behind the windows, each whole, make the first region's arrays at their entry contents, the shared column's
    ownership split in its two halves. -/
theorem arrays0_entry (V : EntryV F) (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [show ((dat0 V c).arrAt · 0) = (fun w => V c (Pipeline.arrRef spec0 w)) from funext fun w => A_eq0 V c w]
  rw [arrBufs0_eq, arrays0_eq, bigSep_W0]
  iintro ⟨H0, H1, H2, H4, H5, H6⟩
  ihave H2' := (pointsTo_share qL_op_qR).1 $$ H2
  icases H2' with ⟨H2, H3⟩
  isplitl [H0]; · iexact H0
  isplitl [H1]; · iexact H1
  isplitl [H2]; · iexact H2
  isplitl [H3]; · iexact H3
  isplitl [H4]; · iexact H4
  isplitl [H5]; · iexact H5
  iexact H6

/-- What an input window's array holds at the end: what it held at entry. -/
theorem arrAt0_in (V : EntryV F) (c : Dev nD) (w : Fin cfg0.W) (hin : (cfg0.win w).isOut = false) (n : ℕ) :
    (dat0 V c).arrAt w n = V c (Pipeline.arrRef spec0 w) :=
  ((dat0 V c).arrAt_in w hin n).trans (A_eq0 V c w)

set_option maxHeartbeats 1000000 in
/-- EXIT: the first region's arrays at their final contents make the buffers behind the windows, each whole, at any contents that agree
    with the entry contents on the arrays read and with the write-backs' result on the arrays written: the shared column's halves joined. -/
theorem arrays0_exit (V : EntryV F) (c : Dev nD) (V' : (b : Ref sig .tc) → Buf (Elt F) ((c : Thread nD τ).loc b))
    (h23 : V' main_v23 = V c main_v23) (h48 : V' main_v48 = V c main_v48) (h47 : V' main_v47 = V c main_v47) (h49 : V' main_v49 = V c main_v49)
    (h500 : V' main_v50_0 = (dat0 V c).arrAt 5 cfg0.N) (h501 : V' main_v50_1 = (dat0 V c).arrAt 6 cfg0.N) :
    ((dat0 V c).arrays ((dat0 V c).arrAt · cfg0.N) : sProp 𝕄)
      ⊢ Pipeline.arrBufs (Ix := Unit) (Name := ℕ) (U := UR sig nD τ) (Lvl := ℕ) spec0 c V' := by
  have e0 : (((cfg0.win 0).arr.view.loc (c : Thread nD τ) ↦{sh0 0} (dat0 V c).arrAt 0 cfg0.N) : sProp 𝕄)
      = (((c : Thread nD τ).loc main_v23) ↦{fullShare} V' main_v23) := by rw [arrAt0_in V c 0 rfl, h23]; rfl
  have e1 : (((cfg0.win 1).arr.view.loc (c : Thread nD τ) ↦{sh0 1} (dat0 V c).arrAt 1 cfg0.N) : sProp 𝕄)
      = (((c : Thread nD τ).loc main_v48) ↦{fullShare} V' main_v48) := by rw [arrAt0_in V c 1 rfl, h48]; rfl
  have e2 : (((cfg0.win 2).arr.view.loc (c : Thread nD τ) ↦{sh0 2} (dat0 V c).arrAt 2 cfg0.N) : sProp 𝕄)
      = (((c : Thread nD τ).loc main_v47) ↦{qL} V' main_v47) := by rw [arrAt0_in V c 2 rfl, h47]; rfl
  have e3 : (((cfg0.win 3).arr.view.loc (c : Thread nD τ) ↦{sh0 3} (dat0 V c).arrAt 3 cfg0.N) : sProp 𝕄)
      = (((c : Thread nD τ).loc main_v47) ↦{qR} V' main_v47) := by rw [arrAt0_in V c 3 rfl, h47]; rfl
  have e4 : (((cfg0.win 4).arr.view.loc (c : Thread nD τ) ↦{sh0 4} (dat0 V c).arrAt 4 cfg0.N) : sProp 𝕄)
      = (((c : Thread nD τ).loc main_v49) ↦{fullShare} V' main_v49) := by rw [arrAt0_in V c 4 rfl, h49]; rfl
  have e5 : (((cfg0.win 5).arr.view.loc (c : Thread nD τ) ↦{sh0 5} (dat0 V c).arrAt 5 cfg0.N) : sProp 𝕄)
      = (((c : Thread nD τ).loc main_v50_0) ↦{fullShare} V' main_v50_0) := by rw [h500]; rfl
  have e6 : (((cfg0.win 6).arr.view.loc (c : Thread nD τ) ↦{sh0 6} (dat0 V c).arrAt 6 cfg0.N) : sProp 𝕄)
      = (((c : Thread nD τ).loc main_v50_1) ↦{fullShare} V' main_v50_1) := by rw [h501]; rfl
  rw [arrBufs0_eq, arrays0_eq, bigSep_W0]
  iintro ⟨H0, H1, H2, H3, H4, H5, H6⟩
  isplitl [H0]; · iapply (Entails.of_eq e0); iexact H0
  isplitl [H1]; · iapply (Entails.of_eq e1); iexact H1
  isplitl [H2 H3]
  · iapply (pointsTo_share qL_op_qR).2
    isplitl [H2]; · iapply (Entails.of_eq e2); iexact H2
    iapply (Entails.of_eq e3); iexact H3
  isplitl [H4]; · iapply (Entails.of_eq e4); iexact H4
  isplitl [H5]; · iapply (Entails.of_eq e5); iexact H5
  iapply (Entails.of_eq e6); iexact H6

/-- A core's unscoped buffers are the buffers behind the first region's windows and the rest. -/
theorem ub_split0 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec0 c V
          ∗ Pipeline.unscopedRest (Ix := Unit) (Name := ℕ) (U := UR sig nD τ) (Lvl := ℕ) spec0 c V) :=
  Pipeline.unscopedBufs_split₀ (fun _ : Unit => cfg0) () winFacts₀0.arr_unscoped c V

/-- The buffers no window of the first region stages, at two contents that agree on them. -/
theorem unscopedRest0_congr (c : Dev nD) (V V' : (b : Ref sig .tc) → Buf (Elt F) ((c : Thread nD τ).loc b))
    (h : ∀ b, b ∉ Finset.univ.image (Pipeline.arrRef spec0) → V' b = V b) :
    (Pipeline.unscopedRest (Ix := Unit) (Name := ℕ) (U := UR sig nD τ) (Lvl := ℕ) spec0 c V : sProp 𝕄)
      = Pipeline.unscopedRest (Ix := Unit) (Name := ℕ) (U := UR sig nD τ) (Lvl := ℕ) spec0 c V' := by
  unfold Pipeline.unscopedRest
  exact bigSep_congr fun b hb => by rw [h b (Finset.mem_sdiff.mp hb).2]

/-! ## The first region as a step of the program -/

/-- The second result array's buffer is not the first's. -/
theorem devRef_500_ne_501 : (Proc.devRef .tc main_v50_0 : DevRef τ sig) ≠ Proc.devRef .tc main_v50_1 :=
  StableHlo.devRef_ne_of_ne (by decide)

/-- After the first region its result arrays hold the results. -/
theorem V4_v50_0 (m : (ℓ : Loc nD τ sig) → Buf (Elt F) ℓ) (c : Dev nD) :
    Gen.V4 m (outs m) c (Proc.devRef .tc main_v50_0) = outs m 4 main_v50_0 c := by
  simp only [Gen.V4, Function.update_of_ne devRef_500_ne_501, Function.update_self]
theorem V4_v50_1 (m : (ℓ : Loc nD τ sig) → Buf (Elt F) ℓ) (c : Dev nD) :
    Gen.V4 m (outs m) c (Proc.devRef .tc main_v50_1) = outs m 4 main_v50_1 c := by
  simp only [Gen.V4, Function.update_self]

/-- A result array of the first region is one of its windows' arrays. -/
theorem mem_image0_of_out (b : Ref sig .tc) (hb : b ∈ ([main_v50_0, main_v50_1] : List (Ref sig .tc))) :
    b ∈ Finset.univ.image (Pipeline.arrRef spec0) := by
  rw [image_arrRef0]
  rcases List.mem_cons.mp hb with rfl | hb
  · decide
  · rcases List.mem_cons.mp hb with rfl | hb
    · decide
    · cases hb

/-- ENTRY of the first region: every unscoped buffer whole at the entry contents is the region's arrays at their entry contents and the
    buffers no window stages. -/
theorem reg0_split (m : (ℓ : Loc nD τ sig) → Buf (Elt F) ℓ) (c : Dev nD) :
    (StableHlo.held (c : Thread nD τ) (Pipeline.ucRefs τ sig) (Gen.V3 m c) : sProp 𝕄)
      ⊢ iprop((dat0 (entry0 m) c).arrays ((dat0 (entry0 m) c).arrAt · 0)
          ∗ Pipeline.unscopedRest (Ix := Unit) (Name := ℕ) (U := UR sig nD τ) (Lvl := ℕ) spec0 c (entry0 m c)) := by
  rw [← Pipeline.unscopedBufs_held (Ix := Unit) (Name := ℕ) (U := UR sig nD τ) (Lvl := ℕ) c (Gen.V3 m c)]
  refine BI.Entails.trans (Entails.of_eq (ub_split0 c (entry0 m c))) ?_
  exact BI.sep_mono (arrays0_entry (entry0 m) c) (BI.Entails.refl _)

set_option maxHeartbeats 1000000 in
/-- EXIT of the first region: its arrays at their final contents and the buffers no window stages are every unscoped buffer whole at the
    contents after the region. -/
theorem reg0_join (m : (ℓ : Loc nD τ sig) → Buf (Elt F) ℓ) (c : Dev nD) :
    iprop((dat0 (entry0 m) c).arrays ((dat0 (entry0 m) c).arrAt · cfg0.N)
        ∗ Pipeline.unscopedRest (Ix := Unit) (Name := ℕ) (U := UR sig nD τ) (Lvl := ℕ) spec0 c (entry0 m c))
      ⊢ (StableHlo.held (c : Thread nD τ) (Pipeline.ucRefs τ sig) (Gen.V4 m (outs m) c) : sProp 𝕄) := by
  rw [← Pipeline.unscopedBufs_held (Ix := Unit) (Name := ℕ) (U := UR sig nD τ) (Lvl := ℕ) c (Gen.V4 m (outs m) c)]
  have h23 : (fun b : Ref sig .tc => Gen.V4 m (outs m) c (Proc.devRef .tc b)) main_v23 = entry0 m c main_v23 := Gen.V4_of m (outs m) c main_v23 (by decide)
  have h48 : (fun b : Ref sig .tc => Gen.V4 m (outs m) c (Proc.devRef .tc b)) main_v48 = entry0 m c main_v48 := Gen.V4_of m (outs m) c main_v48 (by decide)
  have h47 : (fun b : Ref sig .tc => Gen.V4 m (outs m) c (Proc.devRef .tc b)) main_v47 = entry0 m c main_v47 := Gen.V4_of m (outs m) c main_v47 (by decide)
  have h49 : (fun b : Ref sig .tc => Gen.V4 m (outs m) c (Proc.devRef .tc b)) main_v49 = entry0 m c main_v49 := Gen.V4_of m (outs m) c main_v49 (by decide)
  have h500 : (fun b : Ref sig .tc => Gen.V4 m (outs m) c (Proc.devRef .tc b)) main_v50_0 = (dat0 (entry0 m) c).arrAt 5 cfg0.N := (V4_v50_0 m c).trans (outs_h m c)
  have h501 : (fun b : Ref sig .tc => Gen.V4 m (outs m) c (Proc.devRef .tc b)) main_v50_1 = (dat0 (entry0 m) c).arrAt 6 cfg0.N := (V4_v50_1 m c).trans (outs_S m c)
  refine BI.Entails.trans ?_ (Entails.of_eq (ub_split0 c (fun b => Gen.V4 m (outs m) c (Proc.devRef .tc b))).symm)
  refine BI.sep_mono (arrays0_exit (entry0 m) c (fun b => Gen.V4 m (outs m) c (Proc.devRef .tc b)) h23 h48 h47 h49 h500 h501) ?_
  exact Entails.of_eq (unscopedRest0_congr c (entry0 m c) (fun b => Gen.V4 m (outs m) c (Proc.devRef .tc b)) fun b hb =>
    Gen.V4_of m (outs m) c b fun hmem => hb (mem_image0_of_out b hmem))

set_option backward.isDefEq.respectTransparency.types false in
set_option maxHeartbeats 1000000 in
/-- The first region: entered from every unscoped buffer at the contents the host operations before it leave, left with its two result
    arrays replaced by what the write-backs leave. Its arrays are split out of the unscoped buffers, the shared column by halves, and put
    back joined; the generator register goes into the region's invariant and comes back; nothing is owed. -/
def reg0 (m : (ℓ : Loc nD τ sig) → Buf (Elt F) ℓ) : RegionSeg (pcfgs (F := F)) Gen.adm (pdats m) () defs₀ Variants.none Lv0 lv0 0 where
  win := winFacts₀0
  block_pos := block_pos0
  stage_whole := stage_whole0
  K := PEmpty
  osem k := k.elim
  ho := Pipeline.OwnSemFacts.none _
  hbody c := (body_obligation0 (entry0 m) c).loose
  hwaits := Pipeline.hwaits_of_owed_zero _ _ _ _ Lv0 lv0 0 fun c t => owed0 (entry0 m) c t
  pre c := iprop(StableHlo.held (c : Thread nD τ) (Pipeline.ucRefs τ sig) (Gen.V3 m c) ∗ Rst (F := F) c)
  post c := iprop(StableHlo.held (c : Thread nD τ) (Pipeline.ucRefs τ sig) (Gen.V4 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    iintro ⟨⟨Hub, Hp, HO⟩, -, -⟩
    ihave H := (reg0_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (entry0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (entry0 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (reg0_join m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Split1.lean ====
/-
  The second kernel region's arrays and the buffers behind them. The region's six windows stage five arrays: the matrix the first region
  wrote, the second layer's features, the column of reciprocal square roots of the degrees (read through two windows, by row blocks and by
  column tiles), the bias row, and the result. Between two steps of the program a core holds each of the five buffers whole. When the region
  is entered the column's ownership is split in two halves, one per window that reads it; when the region ends, both windows having only
  read, the halves are joined again; the result's buffer ends at what the write-backs leave, the four arrays read end as they were entered.
-/
import proofs.«135561_j38560216383500_2_alg».proof.Proof.K.R1Frame
import proofs.«135561_j38560216383500_2_alg».proof.Proof.K.Common

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

/-! ## The arrays of the second region -/

/-- The five distinct arrays behind the region's six windows. -/
theorem image_arrRef1 : Finset.univ.image (Pipeline.arrRef spec1) = [main_v50_1, main_v51, main_v47, main_v52, main_v53].toFinset := by decide

/-- The distinct buffers behind the second region's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v50_1) ↦{fullShare} V main_v50_1) ∗ (((c : Thread nD τ).loc main_v51) ↦{fullShare} V main_v51)
          ∗ (((c : Thread nD τ).loc main_v47) ↦{fullShare} V main_v47) ∗ (((c : Thread nD τ).loc main_v52) ↦{fullShare} V main_v52)
          ∗ (((c : Thread nD τ).loc main_v53) ↦{fullShare} V main_v53)) := by
  unfold Pipeline.arrBufs
  exact bigSep_eq_bigSepL_of_eq [main_v50_1, main_v51, main_v47, main_v52, main_v53] image_arrRef1 (by decide) _

/-- The share each window of the second region holds its array at: the shared column by halves, every other array in full. -/
def sh1 : Fin cfg1.W → PosShare TreeShare
  | ⟨2, _⟩ => qL
  | ⟨3, _⟩ => qR
  | _ => fullShare

theorem share1_0 (V : EntryV F) (c : Dev nD) : (dat1 V c).share 0 = fullShare := by
  unfold Dat.share; rw [if_neg (by decide)]; exact q1_full V c 0 (by decide) (by decide)
theorem share1_1 (V : EntryV F) (c : Dev nD) : (dat1 V c).share 1 = fullShare := by
  unfold Dat.share; rw [if_neg (by decide)]; exact q1_full V c 1 (by decide) (by decide)
theorem share1_2 (V : EntryV F) (c : Dev nD) : (dat1 V c).share 2 = qL := by
  unfold Dat.share; rw [if_neg (by decide)]; exact q1_2 V c
theorem share1_3 (V : EntryV F) (c : Dev nD) : (dat1 V c).share 3 = qR := by
  unfold Dat.share; rw [if_neg (by decide)]; exact q1_3 V c
theorem share1_4 (V : EntryV F) (c : Dev nD) : (dat1 V c).share 4 = fullShare := by
  unfold Dat.share; rw [if_neg (by decide)]; exact q1_full V c 4 (by decide) (by decide)
theorem share1_5 (V : EntryV F) (c : Dev nD) : (dat1 V c).share 5 = fullShare := by
  unfold Dat.share; rw [if_pos (by decide)]

theorem share1_eq (V : EntryV F) (c : Dev nD) : ∀ w : Fin cfg1.W, (dat1 V c).share w = sh1 w
  | ⟨0, _⟩ => share1_0 V c
  | ⟨1, _⟩ => share1_1 V c
  | ⟨2, _⟩ => share1_2 V c
  | ⟨3, _⟩ => share1_3 V c
  | ⟨4, _⟩ => share1_4 V c
  | ⟨5, _⟩ => share1_5 V c
  | ⟨_ + 6, h⟩ => absurd h (Nat.not_lt.2 (Nat.le_add_left _ _))

/-- The second region's arrays window by window, each a whole buffer held at its window's share. -/
theorem arrays1_eq (V : EntryV F) (c : Dev nD) (G : (w : Fin cfg1.W) → Buf (Elt F) ((cfg1.win w).arr.view.loc (c : Thread nD τ))) :
    ((dat1 V c).arrays G : sProp 𝕄)
      = bigSep Finset.univ fun w : Fin cfg1.W => ((cfg1.win w).arr.view.loc (c : Thread nD τ) ↦{sh1 w} G w) := by
  unfold Dat.arrays
  exact bigSep_congr fun w _ => by rw [(arr_whole1 w).set_eq_univ, share1_eq]

/-- ENTRY: the buffers behind the windows, each whole, make the second region's arrays at their entry contents, the shared column's
    ownership split in its two halves. -/
theorem arrays1_entry (V : EntryV F) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [show ((dat1 V c).arrAt · 0) = (fun w => V c (Pipeline.arrRef spec1 w)) from funext fun w => A_eq1 V c w]
  rw [arrBufs1_eq, arrays1_eq, bigSep_W1]
  iintro ⟨H0, H1, H2, H4, H5⟩
  ihave H2' := (pointsTo_share qL_op_qR).1 $$ H2
  icases H2' with ⟨H2, H3⟩
  isplitl [H0]; · iexact H0
  isplitl [H1]; · iexact H1
  isplitl [H2]; · iexact H2
  isplitl [H3]; · iexact H3
  isplitl [H4]; · iexact H4
  iexact H5

/-- What an input window's array holds after any number of points: what it held at entry. -/
theorem arrAt1_in (V : EntryV F) (c : Dev nD) (w : Fin cfg1.W) (hin : (cfg1.win w).isOut = false) (n : ℕ) :
    (dat1 V c).arrAt w n = V c (Pipeline.arrRef spec1 w) :=
  ((dat1 V c).arrAt_in w hin n).trans (A_eq1 V c w)

set_option maxHeartbeats 1000000 in
/-- EXIT: the second region's arrays at their final contents make the buffers behind the windows, each whole, at any contents that agree
    with the entry contents on the four arrays read and with the write-backs' result on the array written: the shared column's halves joined. -/
theorem arrays1_exit (V : EntryV F) (c : Dev nD) (V' : (b : Ref sig .tc) → Buf (Elt F) ((c : Thread nD τ).loc b))
    (h501 : V' main_v50_1 = V c main_v50_1) (h51 : V' main_v51 = V c main_v51) (h47 : V' main_v47 = V c main_v47) (h52 : V' main_v52 = V c main_v52)
    (h53 : V' main_v53 = (dat1 V c).arrAt 5 cfg1.N) :
    ((dat1 V c).arrays ((dat1 V c).arrAt · cfg1.N) : sProp 𝕄)
      ⊢ Pipeline.arrBufs (Ix := Unit) (Name := ℕ) (U := UR sig nD τ) (Lvl := ℕ) spec1 c V' := by
  have e0 : (((cfg1.win 0).arr.view.loc (c : Thread nD τ) ↦{sh1 0} (dat1 V c).arrAt 0 cfg1.N) : sProp 𝕄)
      = (((c : Thread nD τ).loc main_v50_1) ↦{fullShare} V' main_v50_1) := by rw [arrAt1_in V c 0 rfl, h501]; rfl
  have e1 : (((cfg1.win 1).arr.view.loc (c : Thread nD τ) ↦{sh1 1} (dat1 V c).arrAt 1 cfg1.N) : sProp 𝕄)
      = (((c : Thread nD τ).loc main_v51) ↦{fullShare} V' main_v51) := by rw [arrAt1_in V c 1 rfl, h51]; rfl
  have e2 : (((cfg1.win 2).arr.view.loc (c : Thread nD τ) ↦{sh1 2} (dat1 V c).arrAt 2 cfg1.N) : sProp 𝕄)
      = (((c : Thread nD τ).loc main_v47) ↦{qL} V' main_v47) := by rw [arrAt1_in V c 2 rfl, h47]; rfl
  have e3 : (((cfg1.win 3).arr.view.loc (c : Thread nD τ) ↦{sh1 3} (dat1 V c).arrAt 3 cfg1.N) : sProp 𝕄)
      = (((c : Thread nD τ).loc main_v47) ↦{qR} V' main_v47) := by rw [arrAt1_in V c 3 rfl, h47]; rfl
  have e4 : (((cfg1.win 4).arr.view.loc (c : Thread nD τ) ↦{sh1 4} (dat1 V c).arrAt 4 cfg1.N) : sProp 𝕄)
      = (((c : Thread nD τ).loc main_v52) ↦{fullShare} V' main_v52) := by rw [arrAt1_in V c 4 rfl, h52]; rfl
  have e5 : (((cfg1.win 5).arr.view.loc (c : Thread nD τ) ↦{sh1 5} (dat1 V c).arrAt 5 cfg1.N) : sProp 𝕄)
      = (((c : Thread nD τ).loc main_v53) ↦{fullShare} V' main_v53) := by rw [h53]; rfl
  rw [arrBufs1_eq, arrays1_eq, bigSep_W1]
  iintro ⟨H0, H1, H2, H3, H4, H5⟩
  isplitl [H0]; · iapply (Entails.of_eq e0); iexact H0
  isplitl [H1]; · iapply (Entails.of_eq e1); iexact H1
  isplitl [H2 H3]
  · iapply (pointsTo_share qL_op_qR).2
    isplitl [H2]; · iapply (Entails.of_eq e2); iexact H2
    iapply (Entails.of_eq e3); iexact H3
  isplitl [H4]; · iapply (Entails.of_eq e4); iexact H4
  iapply (Entails.of_eq e5); iexact H5

/-- A core's unscoped buffers are the buffers behind the second region's windows and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ (fun _ : Unit => cfg1) () winFacts₀1.arr_unscoped c V

/-- The buffers no window of the second region stages, at two contents that agree on them. -/
theorem unscopedRest1_congr (c : Dev nD) (V V' : (b : Ref sig .tc) → Buf (Elt F) ((c : Thread nD τ).loc b))
    (h : ∀ b, b ∉ Finset.univ.image (Pipeline.arrRef spec1) → V' b = V b) :
    (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
  unfold Pipeline.unscopedRest
  exact bigSep_congr fun b hb => by rw [h b (Finset.mem_sdiff.mp hb).2]

/-- The result array of the second region is one of its windows' arrays. -/
theorem mem_image1_of_out (b : Ref sig .tc) (hb : b ∈ ([main_v53] : List (Ref sig .tc))) :
    b ∈ Finset.univ.image (Pipeline.arrRef spec1) := by
  rw [image_arrRef1]
  rcases List.mem_cons.mp hb with rfl | hb
  · decide
  · cases hb

end Cert.Kernel.Hand

end
-- ==== Proof.K.Reg1.lean ====
/-
  The second kernel region as a step of the whole program: the same routing as the first region's. Its six windows stage five distinct
  buffers, the column of reciprocal square roots being read through two of them; the column's ownership is split in halves at the entry
  and joined at the exit. The one array the region writes ends holding what its write-backs leave; every other buffer ends as entered.
-/
import proofs.«135561_j38560216383500_2_alg».proof.Proof.K.RunData
import proofs.«135561_j38560216383500_2_alg».proof.Proof.K.Split1
import proofs.«135561_j38560216383500_2_alg».proof.Proof.K.Assemble

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

/-! ## The second region as a step of the program -/

/-- After the second region its result array holds the result. -/
theorem V6_v53 (m : (ℓ : Loc nD τ sig) → Buf (Elt F) ℓ) (c : Dev nD) :
    Gen.V6 m (outs m) c (Proc.devRef .tc main_v53) = outs m 6 main_v53 c := by
  simp only [Gen.V6, Function.update_self]

/-- ENTRY of the second region: every unscoped buffer whole at the entry contents is the region's arrays at their entry contents and the
    buffers no window stages. -/
theorem reg1_split (m : (ℓ : Loc nD τ sig) → Buf (Elt F) ℓ) (c : Dev nD) :
    (StableHlo.held (c : Thread nD τ) (Pipeline.ucRefs τ sig) (Gen.V5 m (outs m) c) : sProp 𝕄)
      ⊢ iprop((dat1 (entry1 m) c).arrays ((dat1 (entry1 m) c).arrAt · 0)
          ∗ Pipeline.unscopedRest (Ix := Unit) (Name := ℕ) (U := UR sig nD τ) (Lvl := ℕ) spec1 c (entry1 m c)) := by
  rw [← Pipeline.unscopedBufs_held (Ix := Unit) (Name := ℕ) (U := UR sig nD τ) (Lvl := ℕ) c (Gen.V5 m (outs m) c)]
  refine BI.Entails.trans (Entails.of_eq (ub_split1 c (entry1 m c))) ?_
  exact BI.sep_mono (arrays1_entry (entry1 m) c) (BI.Entails.refl _)

set_option maxHeartbeats 1000000 in
/-- EXIT of the second region: its arrays at their final contents and the buffers no window stages are every unscoped buffer whole at the
    contents after the region. -/
theorem reg1_join (m : (ℓ : Loc nD τ sig) → Buf (Elt F) ℓ) (c : Dev nD) :
    iprop((dat1 (entry1 m) c).arrays ((dat1 (entry1 m) c).arrAt · cfg1.N)
        ∗ Pipeline.unscopedRest (Ix := Unit) (Name := ℕ) (U := UR sig nD τ) (Lvl := ℕ) spec1 c (entry1 m c))
      ⊢ (StableHlo.held (c : Thread nD τ) (Pipeline.ucRefs τ sig) (Gen.V6 m (outs m) c) : sProp 𝕄) := by
  rw [← Pipeline.unscopedBufs_held (Ix := Unit) (Name := ℕ) (U := UR sig nD τ) (Lvl := ℕ) c (Gen.V6 m (outs m) c)]
  have h501 : (fun b : Ref sig .tc => Gen.V6 m (outs m) c (Proc.devRef .tc b)) main_v50_1 = entry1 m c main_v50_1 := Gen.V6_of m (outs m) c main_v50_1 (by decide)
  have h51 : (fun b : Ref sig .tc => Gen.V6 m (outs m) c (Proc.devRef .tc b)) main_v51 = entry1 m c main_v51 := Gen.V6_of m (outs m) c main_v51 (by decide)
  have h47 : (fun b : Ref sig .tc => Gen.V6 m (outs m) c (Proc.devRef .tc b)) main_v47 = entry1 m c main_v47 := Gen.V6_of m (outs m) c main_v47 (by decide)
  have h52 : (fun b : Ref sig .tc => Gen.V6 m (outs m) c (Proc.devRef .tc b)) main_v52 = entry1 m c main_v52 := Gen.V6_of m (outs m) c main_v52 (by decide)
  have h53 : (fun b : Ref sig .tc => Gen.V6 m (outs m) c (Proc.devRef .tc b)) main_v53 = (dat1 (entry1 m) c).arrAt 5 cfg1.N := (V6_v53 m c).trans (outs_out m c)
  refine BI.Entails.trans ?_ (Entails.of_eq (ub_split1 c (fun b => Gen.V6 m (outs m) c (Proc.devRef .tc b))).symm)
  refine BI.sep_mono (arrays1_exit (entry1 m) c (fun b => Gen.V6 m (outs m) c (Proc.devRef .tc b)) h501 h51 h47 h52 h53) ?_
  exact Entails.of_eq (unscopedRest1_congr c (entry1 m c) (fun b => Gen.V6 m (outs m) c (Proc.devRef .tc b)) fun b hb =>
    Gen.V6_of m (outs m) c b fun hmem => hb (mem_image1_of_out b hmem))

set_option backward.isDefEq.respectTransparency.types false in
set_option maxHeartbeats 1000000 in
/-- The second region: entered from every unscoped buffer at the contents the host operations between the regions leave, left with its
    result array replaced by what the write-backs leave. Its arrays are split out of the unscoped buffers, the shared column by halves,
    and put back joined; the generator register goes into the region's invariant and comes back; nothing is owed. -/
def reg1 (m : (ℓ : Loc nD τ sig) → Buf (Elt F) ℓ) : RegionSeg (pcfgs (F := F)) Gen.adm (pdats m) () defs₀ Variants.none Lv0 lv0 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ Lv0 lv0 1 fun c t => owed1 (entry1 m) c t
  pre c := iprop(StableHlo.held (c : Thread nD τ) (Pipeline.ucRefs τ sig) (Gen.V5 m (outs m) c) ∗ Rst (F := F) c)
  post c := iprop(StableHlo.held (c : Thread nD τ) (Pipeline.ucRefs τ sig) (Gen.V6 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    iintro ⟨⟨Hub, Hp, HO⟩, -, -⟩
    ihave H := (reg1_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (entry1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (entry1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (reg1_join m c)
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/-
  The whole program's run from the two kernel regions: every argument array ends as it started, and the result array ends holding what the
  second region's write-backs leave in it.
-/
import proofs.«135561_j38560216383500_2_alg».proof.Proof.K.RunData
import proofs.«135561_j38560216383500_2_alg».proof.Proof.K.Reg0
import proofs.«135561_j38560216383500_2_alg».proof.Proof.K.Reg1
import proofs.«135561_j38560216383500_2_alg».proof.Proof.K.Assemble

noncomputable section

namespace Cert.Kernel.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.Kernel Cert.Kernel.Gen

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (outs m) (pdats m) (reg0 m) (fun _ => .rfl) (fun _ => .rfl) (reg1 m) (fun _ => .rfl) (fun _ => .rfl)

theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v53) = outs m 6 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_out_of m ρ (outs m) (pdats m) (reg0 m) (fun _ => .rfl) (fun _ => .rfl) (reg1 m) (fun _ => .rfl) (fun _ => .rfl)

end Cert.Kernel.Hand

end
-- ==== Proof.KI.Common.lean ====
/-
  What the two kernel regions' modules share: the contents a region is entered with, as a function of the core and the buffer, and the two
  halves of the full share. In each region ONE array (the column of reciprocal square roots of the degrees) is handed to two input windows,
  one reading it by row blocks and one by column-tile blocks; an input window only reads, so the array's ownership is split in two halves,
  one per window, and joined again when the region ends.
-/
import proofs.«135561_j38560216383500_2_alg».proof.Proof.Gen.KernelIdeal.Launch
import proofs.«135561_j38560216383500_2_alg».proof.Proof.Gen.KernelIdeal.Points
import proofs.«135561_j38560216383500_2_alg».proof.Proof.Gen.KernelIdeal.Skeleton
import Idealize.ShloMosaic.Lib.Pipeline.FrameBody

noncomputable section

namespace Cert.KernelIdeal.Hand

open Idealize.ShloMosaic Idealize.ShloMosaic.TcCoe Idealize.SL Idealize.SL.RA Idealize.SL.Sem
open scoped Idealize.SL.RA.PCS
open Cert.KernelIdeal Cert.KernelIdeal.Gen

variable {F : FTy → Type} [FloatOps F]

/-- Core `c`'s unscoped buffers when a region is entered. -/
abbrev EntryV (F : FTy → Type) [FloatOps F] : Type :=
  (c : Dev nD) → (b : Ref sig .tc) → Buf (Elt F) ((c : Thread nD τ).loc b)

/-- The left half of the full share: the row-block window's part of the shared column. -/
def qL : PosShare TreeShare := (fullShare : PosShare TreeShare).left
/-- The right half: the column-tile window's part. -/
def qR : PosShare TreeShare := (fullShare : PosShare TreeShare).right

/-- The two halves make the full share. -/
theorem qL_op_qR : (fullShare : PosShare TreeShare) ∈ qL ·? qR := PosShare.mem_left_op_right fullShare

end Cert.KernelIdeal.Hand

end
-- ==== Proof.KI.R0Runs.lean ====
/-
  What the three cases of the first region's body share: the two conditions of the body's branches in closed form over the grid (the first
  holds at the first column tile of a row block, the second at the last), where the first output's window is idle, the windows' staging
  memrefs at a point, and three facts about a whole-buffer access: a load through the whole rectangle reads the contents, a store through
  it leaves its payload.
-/
import proofs.«135561_j38560216383500_2_alg».proof.Proof.KI.Common
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer accesses -/

section Whole

variable {sg : RefSig} {κ : Kind} {sp : Space} {s : Shape} {e : EltTy} {Val : EltTy → Type}

/-- The rectangle of all of a shape, written with explicit offsets (necessarily zero), places each index at itself. -/
theorem unit_whole_emb (off : Fin s.rank → Nat) (inb : ∀ a, off a + s.size a ≤ s.size a) (x : s.Idx) :
    (Rect.unit (s := s) off s.size inb).emb x = x := by
  funext a; apply Fin.ext
  show off a + 1 * (x a : Nat) = x a
  have := inb a; omega

/-- A store through the whole rectangle leaves its payload, whatever was there and whatever was stored before. -/
theorem read_writes_whole (v : View sg κ sp s e) (f : v.ty.Contents Val) (off : Fin s.rank → Nat) (inb : ∀ a, off a + s.size a ≤ s.size a)
    (w : s.Idx → Val e) (L : List (View.Piece Val s e)) :
    v.read Val (v.writes Val f (⟨Rect.unit (s := s) off s.size inb, w⟩ :: L)) = w := by
  funext y
  have h := View.read_writes_cons_emb (v := v) (f := f) (Rect.unit (s := s) off s.size inb) w L y
  rw [unit_whole_emb] at h
  exact h

/-- A load through the whole rectangle of contents that read X reads X. -/
theorem ld_whole (X : s.Idx → Val e) (off : Fin s.rank → Nat) (inb : ∀ a, off a + s.size a ≤ s.size a) :
    View.ld X (Rect.unit (s := s) off s.size inb) = X := by
  funext y
  show X ((Rect.unit (s := s) off s.size inb).emb y) = X y
  rw [unit_whole_emb]

end Whole

/-! ## The body's branch conditions -/

/-- The condition of the body's first branch (the accumulator's reset), from the grid coordinates. -/
abbrev cond0_0 (i : grid0.Coords) : Prop := (Scalar.cmpi .ne (Scalar.extui (Scalar.cmpi .eq (BitVec.ofNat 32 (i 1).val) 0#32)) 0#32) = 1#1
/-- It holds at the first column tile of each row block. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second branch (the write-out of the finished row block). -/
abbrev cond0_1 (i : grid0.Coords) : Prop := k0_cond2 i = 1#1
/-- It holds at the last column tile of each row block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_6 : ∀ t : Fin cfg0.N, cfg0.idle 6 (grid0.coords t) = false := fun _ => rfl
/-- Away from the last column tile the first output's window is idle: the body stores nothing into it, -/
theorem idleAt0_5 : ∀ t : Fin cfg0.N, ¬cond0_1 (grid0.coords t) → cfg0.idle 5 (grid0.coords t) = true := by decide +kernel
/-- and the pipeline does not write its block back. -/
theorem noFlush0_5 : ∀ t : Fin cfg0.N, ¬cond0_1 (grid0.coords t) → (cfg0.win 5).flush t = false := by decide +kernel
/-- At the last column tile it is live. -/
theorem liveAt0_5 : ∀ t : Fin cfg0.N, cond0_1 (grid0.coords t) → cfg0.idle 5 (grid0.coords t) = false := by decide +kernel

/-! ## The staging memrefs at a point, spelled as the pipeline passes them -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2048 .bf16 := win0_6.stage (cfg0.slots t 6)
abbrev hs0_6 (t : Fin cfg0.N) : (ms0_6 t).IsWhole := hstage0_6 ((cfg0.slots t 6).cast nbuf0_6)

/-- The accumulator as a memref: the kernel's own whole scoped buffer. -/
abbrev scM0 : Memref sig .tc .vmem S1024x64 .f32 := Memref.whole cc0_scratch0

/-- The core's scoped buffers that region 0 does not use (they are region 1's), each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region is entered with, the accumulator as a memref owned at some contents. -/
theorem PhiA0_eq (c : Dev nD) :
    (Pipeline.ΦA spec0 c : sProp 𝕄)
      = iprop(iprop((∃ d, owns (c : Thread nD τ) scM0 fullShare d) ∗ others0 (F := F) c) ∗ (∃ r, prngReg c r)) := by
  unfold Pipeline.ΦA others0; rw [scopedRest0_eq]; simp only [scM0, owns_whole]; try rfl

end Cert.KernelIdeal.Hand

end
-- ==== Proof.KI.R0RunA.lean ====
/-
  The first region's body at the first column tile of a row block: the accumulator is reset, the adjacency block with the identity added is
  written out rounded, and the block's product with the scaled feature tile is added to the (zero) accumulator. Nothing is stored into the
  first output's buffer.
-/
import proofs.«135561_j38560216383500_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the five input blocks, the first output's buffer at contents handed back untouched, the second output's
    and the accumulator at anything: the body runs to the inputs as they were, the second output's buffer at the rounded block, and the
    accumulator at the point's product added to zero. -/
theorem kernelRun0_A (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : cond0_0 i) (hc1 : ¬cond0_1 i)
    (x0 : Vec F S1024x2048 .f32) (x1 : Vec F S2048x64 .f32) (x2 : Vec F S1024x1 .f32) (x3 : Vec F S2048x1 .f32) (x4 : Vec F S1x64 .f32) (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare (k0_pay3 i x0) ∗ owns (c : Thread nD τ) arg9 fullShare (k0_pay4 i x0 x1 x3 k0_pay2)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole]
    sl_unfold_run_names
    rw [View.readCov_cons_toLoadRect]

end Cert.KernelIdeal.Hand

end
-- ==== Proof.KI.R0RunB.lean ====
/-
  The first region's body at a middle column tile of a row block: the adjacency block with the identity added is written out rounded, and
  the block's product with the scaled feature tile is added to the accumulator the point before left. Nothing is stored into the first
  output's buffer.
-/
import proofs.«135561_j38560216383500_2_alg».proof.Proof.KI.R0RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the five input blocks, the first output's buffer at contents handed back untouched, the second output's at
    anything and the accumulator at the contents xs the point before left: the body runs to the inputs as they were, the second output's buffer
    at the rounded block, and the accumulator at the point's product added to xs. -/
theorem kernelRun0_B (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : ¬cond0_0 i) (hc1 : ¬cond0_1 i)
    (x0 : Vec F S1024x2048 .f32) (x1 : Vec F S2048x64 .f32) (x2 : Vec F S1024x1 .f32) (x3 : Vec F S2048x1 .f32) (x4 : Vec F S1x64 .f32) (xi5 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg7 fullShare xi5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare xi5 ∗ owns (c : Thread nD τ) arg8 fullShare (k0_pay3 i x0) ∗ owns (c : Thread nD τ) arg9 fullShare (k0_pay4 i x0 x1 x3 xs)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole, View.readAt_eq_ld, harg9.read_unread, ld_whole]

end Cert.KernelIdeal.Hand

end
-- ==== Proof.KI.R0RunC.lean ====
/-
  The first region's body at the last column tile of a row block: the adjacency block with the identity added is written out rounded, the
  block's product with the scaled feature tile is added to the accumulator the point before left, and the finished sum — scaled by the row
  block's column of factors, the bias added, negative entries replaced by zero — is stored into the first output's buffer.
-/
import proofs.«135561_j38560216383500_2_alg».proof.Proof.KI.R0RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging memrefs holding the five input blocks, both outputs' buffers at anything and the accumulator at the contents xs the point
    before left: the body runs to the inputs as they were, the second output's buffer at the rounded block, the accumulator at the point's
    product added to xs, and the first output's buffer at the finished sum scaled, biased and rectified. -/
theorem kernelRun0_C (c : Dev nD) (i : grid0.Coords) (arg2 : Memref sig .tc .vmem S1024x2048 .f32) (harg2 : arg2.IsWhole) (arg3 : Memref sig .tc .vmem S2048x64 .f32) (harg3 : arg3.IsWhole) (arg4 : Memref sig .tc .vmem S1024x1 .f32) (harg4 : arg4.IsWhole) (arg5 : Memref sig .tc .vmem S2048x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x2048 .bf16) (harg8 : arg8.IsWhole) (arg9 : Memref sig .tc .vmem S1024x64 .f32) (harg9 : arg9.IsWhole) (hc0 : ¬cond0_0 i) (hc1 : cond0_1 i)
    (x0 : Vec F S1024x2048 .f32) (x1 : Vec F S2048x64 .f32) (x2 : Vec F S1024x1 .f32) (x3 : Vec F S2048x1 .f32) (x4 : Vec F S1x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay1 (k0_pay4 i x0 x1 x3 xs) x2 x4) ∗ owns (c : Thread nD τ) arg8 fullShare (k0_pay3 i x0) ∗ owns (c : Thread nD τ) arg9 fullShare (k0_pay4 i x0 x1 x3 xs)) -∗ K ⟨⟩))
      ⊢ wp frame (wpE (defs₀ (F := F)) Variants.none c none) E (cc0__layer1_kernel i arg2 harg2 arg3 harg3 arg4 harg4 arg5 harg5 arg6 harg6 arg7 harg7 arg8 harg8 arg9 harg9) K := by
  simp only [cc0__layer1_kernel_eq_skeleton]; unfold cc0__layer1_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg9.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    refine (read_writes_whole _ _ _ _ _ _).trans ?_
    sl_unfold_run_names
    rw [View.readCov_cons_toLoadRect, View.readAt_eq_ld, harg2.read_unread, ld_whole, View.readAt_eq_ld, harg3.read_unread, ld_whole, View.readAt_eq_ld, harg5.read_unread, ld_whole, View.readAt_eq_ld, harg9.read_unread, ld_whole, View.readAt_eq_ld, harg4.read_unread, ld_whole, View.readAt_eq_ld, harg6.read_unread, ld_whole]
  isplitl [H6]
  · iexists _; isplitr
    swap; · iexact H6
    ipureintro
    refine (read_writes_whole _ _ _ _ _ _).trans ?_
    rw [View.readAt_eq_ld, harg2.read_unread, ld_whole]
  · iexists _; isplitr
    swap; · iexact HS
    ipureintro
    refine (read_writes_whole _ _ _ _ _ _).trans ?_
    rw [View.readAt_eq_ld, harg2.read_unread, ld_whole, View.readAt_eq_ld, harg3.read_unread, ld_whole, View.readAt_eq_ld, harg5.read_unread, ld_whole, View.readAt_eq_ld, harg9.read_unread, ld_whole]

end Cert.KernelIdeal.Hand

end
-- ==== Proof.KI.R0Frame.lean ====
/-
  The first kernel region (the first graph-convolution layer) on one core, point by point. The grid is 16 row blocks by 8 column
  tiles; point t works on row block t / 8 and column tile t % 8. A scratch accumulator is carried from point to point: it is reset
  at the first tile of a row block, each point adds the product of the point's adjacency block (with the identity added) and the scaled
  feature tile, and the last tile of the row block writes the scaled, biased, rectified sum out. This module states what the two outputs'
  buffers and the accumulator hold after each point, the region's proof data at any entry contents, and proves the body's obligation at
  every point from the three cases' runs.
-/
import proofs.«135561_j38560216383500_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The windows' blocks and what each point leaves -/

/-- Input window w's block at point t, read off the window's array as the region finds it. -/
def iblk0 (V : EntryV F) (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The accumulator after point n: the point's product added to zero at the first tile of a row block, to what the point before left otherwise. -/
def acc0 (V : EntryV F) (c : Dev nD) : (n : ℕ) → n < cfg0.N → Vec F S1024x64 .f32
  | 0, hn => k0_pay4 (grid0.coords ⟨0, hn⟩) (iblk0 V c 0 ⟨0, hn⟩) (iblk0 V c 1 ⟨0, hn⟩) (iblk0 V c 3 ⟨0, hn⟩) k0_pay2
  | n + 1, hn => k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn))

/-- What the two outputs' buffers and the accumulator hold after point n (the outputs in window order, then the accumulator). The first
    output's component is what its store WOULD write from the accumulator; the body performs that store at the last tile of a row block only,
    and elsewhere the component is not consulted. -/
def outsAt0 (V : EntryV F) (c : Dev nD) (n : ℕ) (hn : n < cfg0.N) : Vec F S1024x64 .f32 × Vec F S1024x2048 .bf16 × Vec F S1024x64 .f32 :=
  (k0_pay1 (acc0 V c n hn) (iblk0 V c 2 ⟨n, hn⟩) (iblk0 V c 4 ⟨n, hn⟩), k0_pay3 (grid0.coords ⟨n, hn⟩) (iblk0 V c 0 ⟨n, hn⟩), acc0 V c n hn)

/-- The accumulator at the first tile of a row block. -/
theorem acc0_first (V : EntryV F) (c : Dev nD) (t : Fin cfg0.N) (h0 : t.val % 8 = 0) :
    acc0 V c t.val t.isLt = k0_pay4 (grid0.coords t) (iblk0 V c 0 t) (iblk0 V c 1 t) (iblk0 V c 3 t) k0_pay2 := by
  obtain ⟨n, hn⟩ := t
  cases n with
  | zero => rfl
  | succ n =>
    show k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn)) = _
    rw [if_pos h0]

/-- The accumulator at a later tile: over what the point before left. -/
theorem acc0_later (V : EntryV F) (c : Dev nD) (t : Fin cfg0.N) (h0 : ¬t.val % 8 = 0) :
    acc0 V c t.val t.isLt = k0_pay4 (grid0.coords t) (iblk0 V c 0 t) (iblk0 V c 1 t) (iblk0 V c 3 t)
      (acc0 V c (t.val - 1) (Nat.lt_of_le_of_lt (Nat.sub_le _ _) t.isLt)) := by
  obtain ⟨n, hn⟩ := t
  cases n with
  | zero => exact absurd (Nat.zero_mod 8) h0
  | succ n =>
    show k0_pay4 (grid0.coords ⟨n + 1, hn⟩) (iblk0 V c 0 ⟨n + 1, hn⟩) (iblk0 V c 1 ⟨n + 1, hn⟩) (iblk0 V c 3 ⟨n + 1, hn⟩)
      (if (n + 1) % 8 = 0 then k0_pay2 else acc0 V c n (Nat.lt_of_succ_lt hn)) = _
    rw [if_neg h0]; rfl

/-- The components of outsAt0 at a point, by name. -/
theorem outsAt0_out5 (V : EntryV F) (c : Dev nD) (t : Fin cfg0.N) :
    (outsAt0 V c t.val t.isLt).1 = k0_pay1 (acc0 V c t.val t.isLt) (iblk0 V c 2 t) (iblk0 V c 4 t) := rfl
theorem outsAt0_out6 (V : EntryV F) (c : Dev nD) (t : Fin cfg0.N) :
    (outsAt0 V c t.val t.isLt).2.1 = k0_pay3 (grid0.coords t) (iblk0 V c 0 t) := rfl
theorem outsAt0_acc (V : EntryV F) (c : Dev nD) (n : ℕ) (hn : n < cfg0.N) : (outsAt0 V c n hn).2.2 = acc0 V c n hn := rfl

/-- outsAt0 at the first tile of a row block (case A): the accumulator starts from zero. -/
theorem outsAt0_A (V : EntryV F) (c : Dev nD) (t : Fin cfg0.N) (h0 : t.val % 8 = 0) :
    outsAt0 V c t.val t.isLt =
      (k0_pay1 (k0_pay4 (grid0.coords t) (iblk0 V c 0 t) (iblk0 V c 1 t) (iblk0 V c 3 t) k0_pay2) (iblk0 V c 2 t) (iblk0 V c 4 t),
       k0_pay3 (grid0.coords t) (iblk0 V c 0 t),
       k0_pay4 (grid0.coords t) (iblk0 V c 0 t) (iblk0 V c 1 t) (iblk0 V c 3 t) k0_pay2) := by
  have h := acc0_first V c t h0
  show (k0_pay1 (acc0 V c t.val t.isLt) (iblk0 V c 2 t) (iblk0 V c 4 t), k0_pay3 (grid0.coords t) (iblk0 V c 0 t), acc0 V c t.val t.isLt) = _
  rw [h]

/-- outsAt0 at a later tile (cases B and C: a middle tile, the last tile): over the accumulator the point before left. The first component
    is consulted at the last tile only. -/
theorem outsAt0_BC (V : EntryV F) (c : Dev nD) (t : Fin cfg0.N) (h0 : ¬t.val % 8 = 0) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) := by
  have h := acc0_later V c t h0
  show (k0_pay1 (acc0 V c t.val t.isLt) (iblk0 V c 2 t) (iblk0 V c 4 t), k0_pay3 (grid0.coords t) (iblk0 V c 0 t), acc0 V c t.val t.isLt) = _
  rw [h]; rfl

theorem outsAt0_B (V : EntryV F) (c : Dev nD) (t : Fin cfg0.N) (h0 : ¬t.val % 8 = 0) (h1 : ¬t.val % 8 = 7) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) :=
  outsAt0_BC V c t h0

theorem outsAt0_C (V : EntryV F) (c : Dev nD) (t : Fin cfg0.N) (h0 : ¬t.val % 8 = 0) (h1 : t.val % 8 = 7) :
    outsAt0 V c t.val t.isLt =
      (k0_pay1 (k0_pay4 (grid0.coords t) (iblk0 V c 0 t) (iblk0 V c 1 t) (iblk0 V c 3 t) (outsAt0 V c (t.val - 1) (Nat.lt_of_le_of_lt (Nat.sub_le _ _) t.isLt)).2.2) (iblk0 V c 2 t) (iblk0 V c 4 t),
       k0_pay3 (grid0.coords t) (iblk0 V c 0 t),
       k0_pay4 (grid0.coords t) (iblk0 V c 0 t) (iblk0 V c 1 t) (iblk0 V c 3 t) (outsAt0 V c (t.val - 1) (Nat.lt_of_le_of_lt (Nat.sub_le _ _) t.isLt)).2.2) :=
  outsAt0_BC V c t h0

/-! ## The invariant -/

/-- The region invariant before position n: before the first point every scoped buffer at anything; afterwards the accumulator at what the
    point before left, the other scoped buffers at anything; the generator register at some state throughout. -/
def PhiS0 (V : EntryV F) (c : Dev nD) : (n : ℕ) → n ≤ cfg0.N → sProp 𝕄
  | 0, _ => Pipeline.ΦA spec0 c
  | n + 1, hn => iprop(iprop(owns (c : Thread nD τ) scM0 fullShare ((outsAt0 V c n hn).2.2) ∗ others0 (F := F) c) ∗ (∃ r, prngReg c r))

theorem PhiS0_zero (V : EntryV F) (c : Dev nD) (n : ℕ) (h : n ≤ cfg0.N) (hz : n = 0) : PhiS0 V c n h = Pipeline.ΦA spec0 c := by
  subst hz; rfl

theorem PhiS0_succ (V : EntryV F) (c : Dev nD) (n : ℕ) (hn : n < cfg0.N) :
    PhiS0 V c (n + 1) hn = iprop(iprop(owns (c : Thread nD τ) scM0 fullShare ((outsAt0 V c n hn).2.2) ∗ others0 (F := F) c) ∗ (∃ r, prngReg c r)) := rfl

theorem PhiS0_pos (V : EntryV F) (c : Dev nD) (n : ℕ) (h : n ≤ cfg0.N) (hz : n ≠ 0) :
    PhiS0 V c n h = iprop(iprop(owns (c : Thread nD τ) scM0 fullShare ((outsAt0 V c (n - 1) (by omega)).2.2) ∗ others0 (F := F) c) ∗ (∃ r, prngReg c r)) := by
  cases n with
  | zero => exact absurd rfl hz
  | succ n => rfl

/-! ## The proof data -/

/-- The proof data of region 0 on core c, at entry contents V: the arrays as the region finds them; after the body at point t each input's
    buffer at its block, the outputs' at what outsAt0 says; the shared column's ownership split between its two windows, every other window's
    array held whole; nothing owed. -/
def dat0 (V : EntryV F) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
  Φ t := PhiS0 V c t.val (Nat.le_of_lt_succ t.isLt)
  q w := match w with
    | ⟨2, _⟩ => qL
    | ⟨3, _⟩ => qR
    | _ => fullShare
  owed _ := 0

theorem A_eq0 (V : EntryV F) (c : Dev nD) (w : Fin cfg0.W) : (dat0 V c).A w = V c (Pipeline.arrRef spec0 w) := by
  dsimp only [dat0]

theorem q0_2 (V : EntryV F) (c : Dev nD) : (dat0 V c).q 2 = qL := rfl
theorem q0_3 (V : EntryV F) (c : Dev nD) : (dat0 V c).q 3 = qR := rfl
theorem q0_full (V : EntryV F) (c : Dev nD) (w : Fin cfg0.W) (h2 : w ≠ 2) (h3 : w ≠ 3) : (dat0 V c).q w = fullShare := by
  have hw : ∀ w : Fin 7, w ≠ 2 → w ≠ 3 → (dat0 V c).q w = fullShare := by
    intro w
    match w with
    | ⟨0, _⟩ => exact fun _ _ => rfl
    | ⟨1, _⟩ => exact fun _ _ => rfl
    | ⟨2, _⟩ => exact fun h _ => absurd rfl h
    | ⟨3, _⟩ => exact fun _ h => absurd rfl h
    | ⟨4, _⟩ => exact fun _ _ => rfl
    | ⟨5, _⟩ => exact fun _ _ => rfl
    | ⟨6, _⟩ => exact fun _ _ => rfl
  exact hw w h2 h3
theorem owed0 (V : EntryV F) (c : Dev nD) (t : Fin (cfg0.N + 1)) : (dat0 V c).owed t = 0 := rfl

theorem Phi0_first (V : EntryV F) (c : Dev nD) : (dat0 V c).Φ 0 = Pipeline.ΦA spec0 c := rfl

/-- After any point the invariant gives the entry's back: the accumulator's named contents are forgotten. -/
theorem Phi0_out (V : EntryV F) (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Ho⟩, Hg⟩
  isplitl [HS Ho]
  · isplitl [HS]
    · iexists _; iexact HS
    iexact Ho
  iexact Hg

theorem Phi0_last (V : EntryV F) (c : Dev nD) : (dat0 V c).Φ (Fin.last cfg0.N) ⊢ Pipeline.ΦA spec0 c :=
  Phi0_out V c _ (by rw [Fin.val_last]; have : cfg0.N = 128 := N_0; omega)

theorem Phi0_castSucc (V : EntryV F) (c : Dev nD) (t : Fin cfg0.N) :
    (dat0 V c).Φ t.castSucc = PhiS0 V c t.val (Nat.le_of_lt t.isLt) := by
  dsimp only [dat0]; simp only [Fin.coe_castSucc]

theorem after0_0 (V : EntryV F) (c : Dev nD) (t : Fin cfg0.N) : (dat0 V c).after 0 t = iblk0 V c 0 t := by dsimp only [dat0]
theorem after0_1 (V : EntryV F) (c : Dev nD) (t : Fin cfg0.N) : (dat0 V c).after 1 t = iblk0 V c 1 t := by dsimp only [dat0]
theorem after0_2 (V : EntryV F) (c : Dev nD) (t : Fin cfg0.N) : (dat0 V c).after 2 t = iblk0 V c 2 t := by dsimp only [dat0]
theorem after0_3 (V : EntryV F) (c : Dev nD) (t : Fin cfg0.N) : (dat0 V c).after 3 t = iblk0 V c 3 t := by dsimp only [dat0]
theorem after0_4 (V : EntryV F) (c : Dev nD) (t : Fin cfg0.N) : (dat0 V c).after 4 t = iblk0 V c 4 t := by dsimp only [dat0]
theorem after0_out5 (V : EntryV F) (c : Dev nD) (t : Fin cfg0.N) : (dat0 V c).after 5 t = (outsAt0 V c t.val t.isLt).1 := by dsimp only [dat0]
theorem after0_out6 (V : EntryV F) (c : Dev nD) (t : Fin cfg0.N) : (dat0 V c).after 6 t = (outsAt0 V c t.val t.isLt).2.1 := by dsimp only [dat0]

/-- Each input's current staging buffer holds its block at every point, fetched there or not: where the pipeline does not fetch, the block's
    index has not moved. -/
theorem before0_0 (V : EntryV F) (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (V : EntryV F) (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (V : EntryV F) (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (V : EntryV F) (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (V : EntryV F) (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (V : EntryV F) (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (V : EntryV F) (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 4800000 in
/-- The body at any point. The inputs' memrefs hold their blocks; the closed forms of the two conditions say which case the point is in, and
    that case's run applies; the invariant hands the body the accumulator at what the point before left (at anything at the first point) and
    takes it back at this point's contents; the first output's buffer is handed back untouched away from the last tile of a row block, where
    its window is idle and not written back; the core owes nothing throughout. -/
theorem sound_body0 (V : EntryV F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 6 t = owns (c : Thread nD τ) (ms0_6 t) fullShare ((dat0 V c).after 6 t) from by
    unfold Dat.leavesExact; rw [liveAt0_6 t], after0_out6, outsAt0_out6]
  rw [outsAt0_acc]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 5 t (idleAt0_5 t hc1) (noFlush0_5 t hc1)]
    rw [acc0_first V c t h0]
    by_cases hz : t.val = 0
    · rw [Phi0_castSucc V c t, PhiS0_zero V c _ _ hz, PhiA0_eq]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_A c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6
    · rw [Phi0_castSucc V c t, PhiS0_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_A c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexists _; iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6
  · have hz : t.val ≠ 0 := by intro e; apply h0; rw [e]
    have hc0 : ¬cond0_0 (grid0.coords t) := fun h => h0 ((hcond0_0 t).mp h)
    rw [acc0_later V c t h0]
    by_cases h1 : t.val % 8 = 7
    · have hc1 : cond0_1 (grid0.coords t) := (hcond0_1 t).mpr h1
      rw [show (dat0 V c).leavesExact 5 t = owns (c : Thread nD τ) (ms0_5 t) fullShare ((dat0 V c).after 5 t) from by
        unfold Dat.leavesExact; rw [liveAt0_5 t hc1], after0_out5, outsAt0_out5, acc0_later V c t h0]
      rw [Phi0_castSucc V c t, PhiS0_pos V c _ _ hz, outsAt0_acc]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_C c (grid0.coords t) _ _ _ _ _ _ _ _ _ _ _ _ _ _ _ _ hc0 hc1 (iblk0 V c 0 t) (iblk0 V c 1 t) (iblk0 V c 2 t) (iblk0 V c 3 t) (iblk0 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dat0 V c) 5 t (idleAt0_5 t hc1) (noFlush0_5 t hc1)]
      rw [Phi0_castSucc V c t, PhiS0_pos V c _ _ hz, outsAt0_acc]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun0_B c (grid0.coords t) _ _ _ _ _ _ _ _ _ _ _ _ _ _ _ _ hc0 hc1 (iblk0 V c 0 t) (iblk0 V c 1 t) (iblk0 V c 2 t) (iblk0 V c 3 t) (iblk0 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexact H6

/-- The body's obligation, at every point. -/
theorem body_obligation0 (V : EntryV F) (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
/-
  The second layer's region: a grid of 16 row blocks by 4 column tiles, point t in row block t / 4 at column tile k = t % 4.
  At each point the body adds to an accumulator the product of the point's block of the normalised adjacency with the point's
  tile of the scaled features; the accumulator is reset at k = 0 and, at k = 3, scaled by the row block of the column of
  reciprocal square roots, shifted by the bias and stored as the row block of the result. This module holds what the three
  cases of a point share: the windows' blocks, one step of the accumulation and the finishing step as values, the two branch
  conditions in closed form over the grid, where the output window is idle, and the invariant's split at the accumulator.
-/
import proofs.«135561_j38560216383500_2_alg».proof.Proof.KI.Common
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The windows' blocks and the accumulator -/

/-- Window w's block at point t, read off its array as the region finds it. -/
def iblk1 (V : EntryV F) (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The accumulator: a whole buffer of the region's own, beside the windows. -/
abbrev scM1 : Memref sig .tc .vmem S1024x16 .f32 := Memref.whole cc1_scratch0

/-- One step of the accumulation at point t: the previous sum plus the point's adjacency block times its scaled feature tile. -/
def acc1 (V : EntryV F) (c : Dev nD) (t : Fin cfg1.N) (prev : Vec F S1024x16 .f32) : Vec F S1024x16 .f32 :=
  k1_pay2 (iblk1 V c 1 t) (iblk1 V c 3 t) prev (iblk1 V c 0 t)

/-- The row block of the result from a finished sum: scaled by the row block of the column, shifted by the bias. -/
def fin1 (V : EntryV F) (c : Dev nD) (t : Fin cfg1.N) (s : Vec F S1024x16 .f32) : Vec F S1024x16 .f32 :=
  k1_pay3 s (iblk1 V c 2 t) (iblk1 V c 4 t)

/-! ## The body's two conditions -/

/-- The first conditional's condition (the column tile is 0), from the grid coordinates. -/
abbrev cond1_0 (i : grid1.Coords) : Prop :=
  (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition (the column tile is the last). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last column tile the output window is idle: nothing is stored into it, -/
theorem idleAt1_5 : ∀ t : Fin cfg1.N, ¬cond1_1 (grid1.coords t) → cfg1.idle 5 (grid1.coords t) = true := by decide +kernel
/-- and its block is not written back there. -/
theorem noFlush1_5 : ∀ t : Fin cfg1.N, ¬cond1_1 (grid1.coords t) → (cfg1.win 5).flush t = false := by decide +kernel
/-- At the last column tile it is live. -/
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x16 .f32 := win1_5.stage (cfg1.slots t 5)
abbrev hs1_5 (t : Fin cfg1.N) : (ms1_5 t).IsWhole := hstage1_5 ((cfg1.slots t 5).cast nbuf1_5)

/-! ## The invariant split at the accumulator -/

/-- Every scoped buffer of the core that is neither a staging buffer of this region nor its accumulator, at some contents:
    carried unopened. -/
abbrev rest1 (c : Dev nD) : sProp 𝕄 :=
  Pipeline.scopedRestBut (Ix := Unit) (Name := ℕ) (U := UR sig nD τ) (Lvl := ℕ) (Val := Elt F) spec1 c [cc1_scratch0]

/-- What the launch hands the region, with the accumulator named: the accumulator at some contents, the other scoped
    buffers, the generator register at some state. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [scM1, owns_whole]; try rfl

/-! ## Loads and stores through a whole buffer -/

/-- The zero offsets of a rank-2 rectangle, as the constant function. -/
theorem zero2 : (![0, 0] : Fin 2 → ℕ) = fun _ => 0 := by funext a; fin_cases a <;> rfl

/-- A load of the whole of a buffer held at the contents that read X reads X. -/
theorem readAt_unit_zero_unread {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A store of the whole of a buffer, the newest, reads back as what it stored, whatever the buffer held and whatever
    was stored before. -/
theorem read_writes_unit_zero {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w :=
  (View.read_writes_eq_canon m.view f _ (fun y => ⟨_, List.mem_cons_self, View.mem_set_unit_zero hz inb y⟩)).trans
    (View.canon_cons_unit_zero hz inb w L)

end Cert.KernelIdeal.Hand

end
-- ==== Proof.KI.R1RunA.lean ====
/-
  The body at a point of column tile 0, on any whole staging buffers: the accumulator, whatever it held, is reset to zero
  and then holds the first term of the sum; every input buffer is left as found; the output buffer is not stored into.
-/
import proofs.«135561_j38560216383500_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Column tile 0: from the inputs at their contents, the output at xi and the accumulator at anything, the body runs to the
    continuation holding the inputs as they were, the output still at xi, and the accumulator at zero plus the point's product. -/
theorem run1_A (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : cond1_0 i) (hc1 : ¬cond1_1 i)
    (x0 : Vec F S1024x4096 .bf16) (x1 : Vec F S4096x16 .f32) (x2 : Vec F S1024x1 .f32) (x3 : Vec F S4096x1 .f32) (x4 : Vec F S1x16 .f32) (xi : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi
            ∗ owns (c : Thread nD τ) arg8 fullShare (k1_pay2 x1 x3 (k1_pay1 (F := F)) x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  iexists _; isplitr
  swap; · iexact HS
  ipureintro
  rw [read_writes_unit_zero arg8 _ zero2]
  sl_unfold_run_names
  rw [readAt_unit_zero_unread arg3 harg3 zero2, readAt_unit_zero_unread arg5 harg5 zero2,
    readAt_unit_zero_unread arg2 harg2 zero2, View.readCov_unit_zero arg8.view zero2]

end Cert.KernelIdeal.Hand

end
-- ==== Proof.KI.R1RunB.lean ====
/-
  The body at a point of a middle column tile, on any whole staging buffers: the accumulator gains the point's product;
  every input buffer is left as found; the output buffer is not stored into.
-/
import proofs.«135561_j38560216383500_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle column tile: from the inputs at their contents, the output at xi and the accumulator at prev, the body runs
    to the continuation holding the inputs as they were, the output still at xi, and the accumulator at prev plus the product. -/
theorem run1_B (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : ¬cond1_0 i) (hc1 : ¬cond1_1 i)
    (x0 : Vec F S1024x4096 .bf16) (x1 : Vec F S4096x16 .f32) (x2 : Vec F S1024x1 .f32) (x3 : Vec F S4096x1 .f32) (x4 : Vec F S1x16 .f32) (xi : Vec F S1024x16 .f32) (prev : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xi ∗ owns (c : Thread nD τ) arg8 fullShare prev
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xi
            ∗ owns (c : Thread nD τ) arg8 fullShare (k1_pay2 x1 x3 prev x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists f5; isplitr; · ipureintro; exact hf5
    iexact H5
  iexists _; isplitr
  swap; · iexact HS
  ipureintro
  rw [read_writes_unit_zero arg8 _ zero2]
  (try sl_unfold_run_names)
  simp only [readAt_unit_zero_unread arg3 harg3 zero2, readAt_unit_zero_unread arg5 harg5 zero2,
    readAt_unit_zero_unread arg2 harg2 zero2, readAt_unit_zero_unread arg8 harg8 zero2]

end Cert.KernelIdeal.Hand

end
-- ==== Proof.KI.R1RunC.lean ====
/-
  The body at a point of the last column tile, on any whole staging buffers: the accumulator gains the point's product,
  and the finished sum, scaled by the row block of the column and shifted by the bias, is stored as the output's block;
  every input buffer is left as found.
-/
import proofs.«135561_j38560216383500_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The last column tile: from the inputs at their contents, the output at anything and the accumulator at prev, the body runs
    to the continuation holding the inputs as they were, the accumulator at the finished sum, and the output at the result's block. -/
theorem run1_C (c : Dev nD) (i : grid1.Coords)
    (arg2 : Memref sig .tc .vmem S1024x4096 .bf16) (harg2 : arg2.IsWhole) (arg3 : Memref sig .tc .vmem S4096x16 .f32) (harg3 : arg3.IsWhole)
    (arg4 : Memref sig .tc .vmem S1024x1 .f32) (harg4 : arg4.IsWhole) (arg5 : Memref sig .tc .vmem S4096x1 .f32) (harg5 : arg5.IsWhole)
    (arg6 : Memref sig .tc .vmem S1x16 .f32) (harg6 : arg6.IsWhole) (arg7 : Memref sig .tc .vmem S1024x16 .f32) (harg7 : arg7.IsWhole)
    (arg8 : Memref sig .tc .vmem S1024x16 .f32) (harg8 : arg8.IsWhole) (hc0 : ¬cond1_0 i) (hc1 : cond1_1 i)
    (x0 : Vec F S1024x4096 .bf16) (x1 : Vec F S4096x16 .f32) (x2 : Vec F S1024x1 .f32) (x3 : Vec F S4096x1 .f32) (x4 : Vec F S1x16 .f32) (prev : Vec F S1024x16 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare prev
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (k1_pay3 (k1_pay2 x1 x3 prev x0) x2 x4)
            ∗ owns (c : Thread nD τ) arg8 fullShare (k1_pay2 x1 x3 prev x0)) -∗ K ⟨⟩))
      ⊢ wp frame (wpE (defs₀ (F := F)) Variants.none c none) E
          (cc1__layer2_kernel i arg2 harg2 arg3 harg3 arg4 harg4 arg5 harg5 arg6 harg6 arg7 harg7 arg8 harg8) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4
  obtain rfl := harg8.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [read_writes_unit_zero arg7 _ zero2]
    (try sl_unfold_run_names)
    simp only [View.readCov_unit_zero arg8.view zero2, readAt_unit_zero_unread arg3 harg3 zero2, readAt_unit_zero_unread arg5 harg5 zero2,
      readAt_unit_zero_unread arg2 harg2 zero2, readAt_unit_zero_unread arg8 harg8 zero2,
      readAt_unit_zero_unread arg4 harg4 zero2, readAt_unit_zero_unread arg6 harg6 zero2]
  iexists _; isplitr
  swap; · iexact HS
  ipureintro
  (try sl_unfold_run_names)
  rw [read_writes_unit_zero arg8 _ zero2]
  simp only [readAt_unit_zero_unread arg3 harg3 zero2, readAt_unit_zero_unread arg5 harg5 zero2,
    readAt_unit_zero_unread arg2 harg2 zero2, readAt_unit_zero_unread arg8 harg8 zero2]

end Cert.KernelIdeal.Hand

end
-- ==== Proof.KI.R1Frame.lean ====
/-
  The second layer's region: what the output's staging buffer and the accumulator hold after each point, by recursion on the
  point; the invariant that carries the accumulator from point to point; the region's proof data; and the body obligation,
  a point being in one of three cases by its column tile k = t % 4 (0, a middle tile, the last).
-/
import proofs.«135561_j38560216383500_2_alg».proof.Proof.KI.R1RunA
import proofs.«135561_j38560216383500_2_alg».proof.Proof.KI.R1RunB
import proofs.«135561_j38560216383500_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the output and the accumulator hold after each point -/

/-- What the output's staging buffer and the accumulator hold after the body at position n (the output first). At a column
    tile other than the last the output is not stored and not written back: its component is a placeholder (zeros) that nothing
    consults. At tile 0 the sum restarts from zero; elsewhere it continues from what the point before left. -/
def outsAt1 (V : EntryV F) (c : Dev nD) : (n : ℕ) → n < cfg1.N → Vec F S1024x16 .f32 × Vec F S1024x16 .f32
  | 0, hn => (k1_pay1, acc1 V c ⟨0, hn⟩ k1_pay1)
  | n + 1, hn =>
    if (n + 1) % 4 = 0 then
      (k1_pay1, acc1 V c ⟨n + 1, hn⟩ k1_pay1)
    else if (n + 1) % 4 = 3 then
      (fin1 V c ⟨n + 1, hn⟩ (acc1 V c ⟨n + 1, hn⟩ (outsAt1 V c n (Nat.lt_of_succ_lt hn)).2),
        acc1 V c ⟨n + 1, hn⟩ (outsAt1 V c n (Nat.lt_of_succ_lt hn)).2)
    else
      (k1_pay1, acc1 V c ⟨n + 1, hn⟩ (outsAt1 V c n (Nat.lt_of_succ_lt hn)).2)

/-- At column tile 0: the sum restarts. -/
theorem outsAt1_A (V : EntryV F) (c : Dev nD) (t : Fin cfg1.N) (h0 : t.val % 4 = 0) :
    outsAt1 V c t.val t.isLt = (k1_pay1, acc1 V c t k1_pay1) := by
  obtain ⟨n, hn⟩ := t
  cases n with
  | zero => exact rfl
  | succ n => exact (if_pos h0).trans rfl

/-- At a middle column tile: the sum continues. -/
theorem outsAt1_B (V : EntryV F) (c : Dev nD) (t : Fin cfg1.N) (h0 : ¬t.val % 4 = 0) (h1 : ¬t.val % 4 = 3) :
    outsAt1 V c t.val t.isLt
      = (k1_pay1, acc1 V c t (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans ((if_neg h1).trans rfl)

/-- At the last column tile: the sum is finished and the result's row block stored. -/
theorem outsAt1_C (V : EntryV F) (c : Dev nD) (t : Fin cfg1.N) (h0 : ¬t.val % 4 = 0) (h1 : t.val % 4 = 3) :
    outsAt1 V c t.val t.isLt
      = (fin1 V c t (acc1 V c t (outsAt1 V c (t.val - 1) (Nat.lt_of_le_of_lt (Nat.sub_le _ _) t.isLt)).2),
          acc1 V c t (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (if_neg h0).trans ((if_pos h1).trans rfl)

/-! ## The invariant -/

/-- The invariant before position n: before the first point what the launch hands the region; afterwards the accumulator at
    what the point before left, the core's other scoped buffers at anything, and the generator register at some state. -/
def PhiS1 (V : EntryV F) (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (V : EntryV F) (c : Dev nD) (n : ℕ) (h : n ≤ cfg1.N) (hz : n = 0) : PhiS1 V c n h = Pipeline.ΦA spec1 c := by
  subst hz; rfl

theorem PhiS1_succ (V : EntryV F) (c : Dev nD) (n : ℕ) (hn : n < cfg1.N) :
    PhiS1 V c (n + 1) hn
      = iprop(iprop(owns (c : Thread nD τ) scM1 fullShare ((outsAt1 V c n hn).2) ∗ rest1 (F := F) c) ∗ (∃ r, prngReg c r)) := rfl

theorem PhiS1_pos (V : EntryV F) (c : Dev nD) (n : ℕ) (h : n ≤ cfg1.N) (hz : n ≠ 0) :
    PhiS1 V c n h
      = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The region's proof data on core c, entered at contents V: the arrays as the region finds them; after the body at point t
    each input's buffer at its block and the output's at outsAt1; the invariant PhiS1; nothing owed; the column of reciprocal
    square roots, staged by windows 2 and 3, held by halves, every other array in full. -/
def dat1 (V : EntryV F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨2, _⟩ => qL
    | ⟨3, _⟩ => qR
    | _ => fullShare
  owed _ := 0

theorem A_eq1 (V : EntryV F) (c : Dev nD) (w : Fin cfg1.W) : (dat1 V c).A w = V c (Pipeline.arrRef spec1 w) := by
  dsimp only [dat1]

theorem q1_2 (V : EntryV F) (c : Dev nD) : (dat1 V c).q 2 = qL := rfl

theorem q1_3 (V : EntryV F) (c : Dev nD) : (dat1 V c).q 3 = qR := rfl

theorem q1_full (V : EntryV F) (c : Dev nD) (w : Fin cfg1.W) (h2 : w ≠ 2) (h3 : w ≠ 3) : (dat1 V c).q w = fullShare := by
  revert h2 h3
  fin_cases w <;> intro h2 h3 <;> first | rfl | exact absurd rfl h2 | exact absurd rfl h3

theorem owed1 (V : EntryV F) (c : Dev nD) (t : Fin (cfg1.N + 1)) : (dat1 V c).owed t = 0 := rfl

theorem Phi1_first (V : EntryV F) (c : Dev nD) : (dat1 V c).Φ 0 = Pipeline.ΦA spec1 c := by
  rw [show (dat1 V c).Φ 0 = PhiS1 V c 0 (Nat.zero_le _) from rfl, PhiS1_zero V c 0 _ rfl]

/-- After any point the invariant gives back what the launch handed over: the accumulator's contents are forgotten. -/
theorem Phi1_out (V : EntryV F) (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hr⟩, Hg⟩
  isplitl [HS Hr]
  · isplitl [HS]
    · iexists _; iexact HS
    iexact Hr
  iexact Hg

theorem Phi1_last (V : EntryV F) (c : Dev nD) : (dat1 V c).Φ (Fin.last cfg1.N) ⊢ Pipeline.ΦA spec1 c :=
  Phi1_out V c _ (by rw [Fin.val_last]; have : cfg1.N = 64 := N_1; omega)

/-- The invariant at a point's start, restated at the point's number. -/
theorem PhiS1_castSucc (V : EntryV F) (c : Dev nD) (t : Fin cfg1.N) :
    (dat1 V c).Φ t.castSucc = PhiS1 V c t.val (Nat.le_of_lt t.isLt) := by
  dsimp only [dat1]; simp only [Fin.coe_castSucc]

/-- The output's staging buffer after the body at point t. -/
theorem after1_out (V : EntryV F) (c : Dev nD) (t : Fin cfg1.N) :
    (dat1 V c).after 5 t = (outsAt1 V c t.val t.isLt).1 := by dsimp only [dat1]

/-- Each input's staging buffer after the body at point t: its block, untouched. -/
theorem after1_0 (V : EntryV F) (c : Dev nD) (t : Fin cfg1.N) : (dat1 V c).after 0 t = iblk1 V c 0 t := by dsimp only [dat1]
theorem after1_1 (V : EntryV F) (c : Dev nD) (t : Fin cfg1.N) : (dat1 V c).after 1 t = iblk1 V c 1 t := by dsimp only [dat1]
theorem after1_2 (V : EntryV F) (c : Dev nD) (t : Fin cfg1.N) : (dat1 V c).after 2 t = iblk1 V c 2 t := by dsimp only [dat1]
theorem after1_3 (V : EntryV F) (c : Dev nD) (t : Fin cfg1.N) : (dat1 V c).after 3 t = iblk1 V c 3 t := by dsimp only [dat1]
theorem after1_4 (V : EntryV F) (c : Dev nD) (t : Fin cfg1.N) : (dat1 V c).after 4 t = iblk1 V c 4 t := by dsimp only [dat1]

/-- Each input's current staging buffer holds its block at every point, fetched there or not. -/
theorem before1_0 (V : EntryV F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (V : EntryV F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (V : EntryV F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (V : EntryV F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (V : EntryV F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- An input's buffer is handed back at its block. -/
theorem leaves1_0 (V : EntryV F) (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (V : EntryV F) (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (V : EntryV F) (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]
theorem leaves1_3 (V : EntryV F) (c : Dev nD) (t : Fin cfg1.N) :
    (dat1 V c).leavesExact 3 t = owns (c : Thread nD τ) (ms1_3 t) fullShare (iblk1 V c 3 t) := by
  rw [show (dat1 V c).leavesExact 3 t = owns (c : Thread nD τ) (ms1_3 t) fullShare ((dat1 V c).after 3 t) from by
    unfold Dat.leavesExact; rw [liveAt1_3 t], after1_3]
theorem leaves1_4 (V : EntryV F) (c : Dev nD) (t : Fin cfg1.N) :
    (dat1 V c).leavesExact 4 t = owns (c : Thread nD τ) (ms1_4 t) fullShare (iblk1 V c 4 t) := by
  rw [show (dat1 V c).leavesExact 4 t = owns (c : Thread nD τ) (ms1_4 t) fullShare ((dat1 V c).after 4 t) from by
    unfold Dat.leavesExact; rw [liveAt1_4 t], after1_4]

/-! ## The body obligation -/

/-- What the body is called with at point t, the windows one by one, -/
def bodyPre1 (V : EntryV F) (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (V : EntryV F) (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the column tile says which case the point is in; the
    invariant hands the body the accumulator at what the point before left (at anything, at the first point) and takes it
    back at this point's sum; away from the last tile the output's buffer goes back untouched, at the last it holds the
    result's row block; the core owes nothing throughout. -/
theorem sound_body1 (V : EntryV F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 4 = 0
  · by_cases h1 : t.val % 4 = 3
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0]
      unfold acc1; (try dsimp only)
      by_cases hz : t.val = 0
      ·
        rw [PhiS1_castSucc V c t, PhiS1_zero V c _ _ hz, PhiA1_eq]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 5 t = owns (c : Thread nD τ) (ms1_5 t) fullShare ((dat1 V c).after 5 t) from by
        unfold Dat.leavesExact; rw [liveAt1_5 t ((hcond1_1 t).mpr h1)], after1_out]
      rw [outsAt1_C V c t h0 h1]
      unfold fin1 acc1; (try dsimp only)
      by_cases hz : t.val = 0
      · exfalso; omega
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexact H5
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold acc1; (try dsimp only)
      by_cases hz : t.val = 0
      · exfalso; omega
      ·
        rw [PhiS1_castSucc V c t, PhiS1_pos V c _ _ hz]
        iintro ⟨⟨⟨HS, Hr⟩, Hg⟩, Ho, ⟨%d0, H0⟩, ⟨%d1, H1⟩, ⟨%d2, H2⟩, ⟨%d3, H3⟩, ⟨%d4, H4⟩, ⟨%d5, H5⟩⟩
        iapply (run1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        isplitl [HS Hr Hg]
        · isplitl [HS Hr]
          · isplitl [HS]; · iexact HS
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation1 (V : EntryV F) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.RunData.lean ====
/-
  The contents of a core's buffers at the boundaries of the two kernel regions, and each region's proof data at its entry contents. The
  first region is entered with what the host operations before it leave; it replaces its two result arrays. The second region is entered
  with those results in place after the host operations between the regions; it replaces its one result array. What a region leaves in
  an array it writes is what its write-backs leave there, point after point.
-/
import proofs.«135561_j38560216383500_2_alg».proof.Proof.KI.R0Frame
import proofs.«135561_j38560216383500_2_alg».proof.Proof.KI.R1Frame
import proofs.«135561_j38560216383500_2_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

/-! ## The contents at the regions' boundaries -/

/-- What the first region is entered with: the launch contents after the host operations before it. -/
def entry0 (m : (ℓ : Loc nD τ sig) → Buf (Elt F) ℓ) : EntryV F := fun c b => Gen.V3 m c (Proc.devRef .tc b)

/-- What the first region leaves in a buffer: its two result arrays at what their write-backs leave, any other buffer as entered. -/
def outs0 (m : (ℓ : Loc nD τ sig) → Buf (Elt F) ℓ) (r : Ref sig .tc) (c : Dev nD) : Buf (Elt F) ((c : Thread nD τ).loc r) :=
  if h : r = main_v50_0 then h.symm ▸ (show Buf (Elt F) ((c : Thread nD τ).loc main_v50_0) from (dat0 (entry0 m) c).arrAt 5 cfg0.N)
  else if h : r = main_v50_1 then h.symm ▸ (show Buf (Elt F) ((c : Thread nD τ).loc main_v50_1) from (dat0 (entry0 m) c).arrAt 6 cfg0.N)
  else entry0 m c r

/-- What the second region is entered with, written over the first region's results alone. -/
def entry1' (m : (ℓ : Loc nD τ sig) → Buf (Elt F) ℓ) : EntryV F := fun c b => Gen.V5 m (fun _ => outs0 m) c (Proc.devRef .tc b)

/-- What the second region leaves in a buffer: its result array at what its write-backs leave, any other buffer as entered. -/
def outs1 (m : (ℓ : Loc nD τ sig) → Buf (Elt F) ℓ) (r : Ref sig .tc) (c : Dev nD) : Buf (Elt F) ((c : Thread nD τ).loc r) :=
  if h : r = main_v53 then h.symm ▸ (show Buf (Elt F) ((c : Thread nD τ).loc main_v53) from (dat1 (entry1' m) c).arrAt 5 cfg1.N)
  else entry1' m c r

/-- The contents the regions leave: after the first region (position 4) its results, after the second its result. -/
def outs (m : (ℓ : Loc nD τ sig) → Buf (Elt F) ℓ) : Gen.Outs (F := F) := fun J r c => if J = 4 then outs0 m r c else outs1 m r c

/-- What the second region is entered with: the first region's results in place, then the host operations between the regions. -/
def entry1 (m : (ℓ : Loc nD τ sig) → Buf (Elt F) ℓ) : EntryV F := fun c b => Gen.V5 m (outs m) c (Proc.devRef .tc b)

/-- The two spellings of the second region's entry contents agree: only the first region's results are read. -/
theorem entry1_eq (m : (ℓ : Loc nD τ sig) → Buf (Elt F) ℓ) : entry1 m = entry1' m := rfl

theorem outs_h (m : (ℓ : Loc nD τ sig) → Buf (Elt F) ℓ) (c : Dev nD) : outs m 4 main_v50_0 c = (dat0 (entry0 m) c).arrAt 5 cfg0.N := by
  show outs0 m main_v50_0 c = _
  unfold outs0; rw [dif_pos rfl]
theorem outs_S (m : (ℓ : Loc nD τ sig) → Buf (Elt F) ℓ) (c : Dev nD) : outs m 4 main_v50_1 c = (dat0 (entry0 m) c).arrAt 6 cfg0.N := by
  show outs0 m main_v50_1 c = _
  unfold outs0; rw [dif_neg (by decide), dif_pos rfl]
theorem outs_out (m : (ℓ : Loc nD τ sig) → Buf (Elt F) ℓ) (c : Dev nD) : outs m 6 main_v53 c = (dat1 (entry1 m) c).arrAt 5 cfg1.N := by
  show outs1 m main_v53 c = _
  unfold outs1; rw [dif_pos rfl, entry1_eq]

/-- Each region's proof data at its entry contents. -/
def pdats (m : (ℓ : Loc nD τ sig) → Buf (Elt F) ℓ) : (p : Fin 2) → (c : Dev nD) → Dat τ (Elt F) Unit ℕ (UR sig nD τ) ℕ (cfgs p) c
  | ⟨0, _⟩ => fun c => dat0 (entry0 m) c
  | ⟨1, _⟩ => fun c => dat1 (entry1 m) c

end Cert.KernelIdeal.Hand

end
-- ==== Proof.KI.Assemble.lean ====
/-
  From the two kernel regions to the whole program. The host operations around the regions only write buffers of their own, so once each
  region is known to run from the buffers as the operations before it left them to the buffers with its result arrays replaced, the whole
  program runs to the end and every argument array ends as it started. What each core carries beside its buffers from one step to the next
  is small: its random-generator register at some state, and the fact that it owes no other core anything. Nothing here looks inside a region.
-/
import proofs.«135561_j38560216383500_2_alg».proof.Proof.Gen.KernelIdeal.Regions
import proofs.«135561_j38560216383500_2_alg».proof.Proof.KI.Common

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

/-- No core waits on another: no level is assigned. -/
abbrev Lv0 : GSem nD τ sig → Finset Unit := fun _ => ∅
abbrev lv0 : GSem nD τ sig → Unit → ℕ := fun _ _ => 0

/-- What a core carries beside its buffers between two steps of the program: its generator register at some state, and owing nothing. -/
abbrev Rst (c : Dev nD) : sProp 𝕄 :=
  iprop((∃ r, prngReg c r) ∗ ∃ W, owes (c : Thread nD τ) (0 : CellTallies nD τ sig Unit) W)

/-- The whole program's frame from the two regions' records. -/
theorem frame_of (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (Gen.V3 m c) ∗ Rst (F := F) c) ⊢ R0.pre c)
    (hpost0 : ∀ c : Dev nD, R0.post c ⊢ iprop(StableHlo.held (c : Thread nD τ) (Pipeline.ucRefs τ sig) (Gen.V4 m outs c) ∗ Rst (F := F) c))
    (R1 : RegionSeg (pcfgs (F := F)) Gen.adm pdats () defs₀ Variants.none Lv0 lv0 1)
    (hpre1 : ∀ c : Dev nD, iprop(StableHlo.held (c : Thread nD τ) (Pipeline.ucRefs τ sig) (Gen.V5 m outs c) ∗ Rst (F := F) c) ⊢ R1.pre c)
    (hpost1 : ∀ c : Dev nD, R1.post c ⊢ iprop(StableHlo.held (c : Thread nD τ) (Pipeline.ucRefs τ sig) (Gen.V6 m outs c) ∗ Rst (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Gen.frame_cond m (emb₁ : Emb (UR sig nD τ) 𝕄) () Variants.none Lv0 lv0 (fun _ _ => rfl) ρ outs pdats
    (O₀ := 0) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (E := fun _ c => Rst (F := F) c)
    (hE0 := by
      have h : ∀ c : Dev nD, (iprop(unscopedSems0 c ∗ owes (c : Thread nD τ) ((0 : Dev nD → CellTallies nD τ sig Unit) c) ∅
          ∗ Pipeline.launchCred (0 : Dev nD → CellTallies nD τ sig Unit) c ∗ prngReg c (ρ c) ∗ emp) : sProp 𝕄) ⊢ Rst (F := F) c := fun c => by
        iintro ⟨-, HO, -, Hp, -⟩
        isplitl [Hp]; · iexists _; iexact Hp
        iexists ∅; iexact HO
      have hm : (bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ emp))
          ⊢ (bigSep Finset.univ (fun c : Dev nD => Rst (F := F) c) : sProp 𝕄) := bigSep_mono fun c _ => h c
      iintro ⟨H, -⟩
      ihave H' := hm $$ H
      imodintro
      iexact H')
    (hE2 := fun c => by
      iintro ⟨-, HO⟩
      iexact HO)
    R0 hpre0 hpost0 R1 hpre1 hpost1

/-- The buffer of the program's result after the last region is what that region left there. -/
theorem V6_main_v53 (m : (ℓ : Loc nD τ sig) → Buf (Elt F) ℓ) (outs : Gen.Outs (F := F)) (c : Dev nD) :
    Gen.V6 m outs c main_v53 = outs 6 main_v53 c := by
  simp only [Gen.V6, Function.update_self]

set_option backward.isDefEq.respectTransparency.types false in
/-- The same run with the result named: the program ends with its result array holding what the second region left in it, and every
    argument array as it started. The steps are those of the whole-program frame over the same list of host stretches and regions; only
    what is read off the last buffer contents differs: the result's buffer is read too. -/
theorem run_out_of (m : (ℓ : Loc nD τ sig) → Buf (Elt F) ℓ) (ρ : Dev nD → PrngReg) (outs : Gen.Outs (F := F))
    (pdats : (p : Fin 2) → (c : Dev nD) → Dat τ (Elt F) Unit ℕ (UR sig nD τ) ℕ (cfgs p) c)
    (R0 : RegionSeg (pcfgs (F := F)) Gen.adm pdats () defs₀ Variants.none Lv0 lv0 0)
    (hpre0 : ∀ c : Dev nD, iprop(StableHlo.held (c : Thread nD τ) (Pipeline.ucRefs τ sig) (Gen.V3 m c) ∗ Rst (F := F) c) ⊢ R0.pre c)
    (hpost0 : ∀ c : Dev nD, R0.post c ⊢ iprop(StableHlo.held (c : Thread nD τ) (Pipeline.ucRefs τ sig) (Gen.V4 m outs c) ∗ Rst (F := F) c))
    (R1 : RegionSeg (pcfgs (F := F)) Gen.adm pdats () defs₀ Variants.none Lv0 lv0 1)
    (hpre1 : ∀ c : Dev nD, iprop(StableHlo.held (c : Thread nD τ) (Pipeline.ucRefs τ sig) (Gen.V5 m outs c) ∗ Rst (F := F) c) ⊢ R1.pre c)
    (hpost1 : ∀ c : Dev nD, R1.post c ⊢ iprop(StableHlo.held (c : Thread nD τ) (Pipeline.ucRefs τ sig) (Gen.V6 m outs c) ∗ Rst (F := F) c)) :
    θ_run defs (onTc (τ := τ) (main (F := F))) ⟨m, fun _ => 0, ρ⟩ (fun r => ∀ c : Dev nD,
      r.2.mem ((c.tc : Thread nD τ).loc main_v53) = outs 6 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm pdats () cellOf_inj (emb₁ : Emb (UR sig nD τ) 𝕄) defs₀ Variants.none Lv0 lv0 m ρ main
    (Gen.segs m outs Variants.none Lv0 lv0 (fun _ c => Rst (F := F) c) () pdats R0 R1)
    (fun c Q => by
      rewrite [main_chain c, Seg.run_eq_chain,
        show (Gen.segs m outs Variants.none Lv0 lv0 (fun _ c => Rst (F := F) c) () pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      exact .rfl)
    (fun c => by simp only [Gen.segs, Seg.pipes_host, Seg.pipes_region, Seg.pipes_nil]; decide) 0 (fun _ _ => rfl) (fun _ => iprop(emp))
    (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst (F := F) c))
    (Tₙ := fun c => StableHlo.held (c : Thread nD τ) (Pipeline.ucRefs τ sig) (Gen.V6 m outs c))
    (hch := fun c => ⟨.rfl, .rfl, .rfl, hpre0 c, hpost0 c, hpre1 c, (hpost1 c).trans (sep_mono .rfl (by iintro ⟨-, HO⟩; iexact HO))⟩)
    (hinit := ?_) (QY := fun c s => s.mem ((c.tc : Thread nD τ).loc main_v53) = outs 6 main_v53 c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes the carried state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    have h : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ emp) : sProp 𝕄) ⊢ Rst (F := F) c := fun c => by
      iintro ⟨-, HO, -, Hp, -⟩
      isplitl [Hp]; · iexists _; iexact Hp
      iexists ∅; iexact HO
    have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ emp))
        ⊢ (bigSep Finset.univ (fun c : Dev nD => Rst (F := F) c) : sProp 𝕄) := bigSep_mono fun c _ => h c
    iintro ⟨H, Hla⟩
    ihave H' := hsplit $$ H
    icases H' with ⟨Hh, Hr⟩
    ihave HE := hm $$ Hr
    have hjoin : (iprop((bigSep Finset.univ fun c : Dev nD => StableHlo.held (c : Thread nD τ) (Pipeline.ucRefs τ sig) (Gen.V0 m c))
          ∗ bigSep Finset.univ (fun c : Dev nD => Rst (F := F) c)) : sProp 𝕄)
        ⊢ bigSep Finset.univ fun c : Dev nD => iprop(StableHlo.held (c : Thread nD τ) (Pipeline.ucRefs τ sig) (Gen.V0 m c) ∗ Rst (F := F) c) :=
      Entails.of_eq (bigSep_sep' Finset.univ (fun c : Dev nD => StableHlo.held (c : Thread nD τ) (Pipeline.ucRefs τ sig) (Gen.V0 m c))
        (fun c : Dev nD => Rst (F := F) c)).symm
    ihave HJ := hjoin $$ [Hh HE]
    · isplitl [Hh]; · iexact Hh
      iexact HE
    imodintro
    iexact HJ
  · -- the end: the result's buffer and each argument's read off the last buffer contents
    unfold StableHlo.held
    iintro ⟨Hh, HSI⟩
    ihave Hr := (pointsTo_read_all (Pipeline.ucRefs τ sig) (fun b => ((c : Thread nD τ).1, b)) (Gen.V6 m outs c) s') $$ [Hh HSI]
    · isplitl [Hh] <;> iassumption
    icases Hr with ⟨%h, HSI⟩
    imodintro
    isplitr
    · ipureintro
      exact ⟨(h (Proc.devRef .tc main_v53) (Finset.mem_filter.mpr ⟨StableHlo.devRef_mem_tcRefs main_v53, by decide⟩)).trans (V6_main_v53 m outs c),
        (h (Proc.devRef .tc main_arg0) (Finset.mem_filter.mpr ⟨StableHlo.devRef_mem_tcRefs main_arg0, by decide⟩)).trans (Gen.V6_main_arg0 m outs c),
        (h (Proc.devRef .tc main_arg1) (Finset.mem_filter.mpr ⟨StableHlo.devRef_mem_tcRefs main_arg1, by decide⟩)).trans (Gen.V6_main_arg1 m outs c),
        (h (Proc.devRef .tc main_arg2) (Finset.mem_filter.mpr ⟨StableHlo.devRef_mem_tcRefs main_arg2, by decide⟩)).trans (Gen.V6_main_arg2 m outs c),
        (h (Proc.devRef .tc main_arg3) (Finset.mem_filter.mpr ⟨StableHlo.devRef_mem_tcRefs main_arg3, by decide⟩)).trans (Gen.V6_main_arg3 m outs c),
        (h (Proc.devRef .tc main_arg4) (Finset.mem_filter.mpr ⟨StableHlo.devRef_mem_tcRefs main_arg4, by decide⟩)).trans (Gen.V6_main_arg4 m outs c),
        (h (Proc.devRef .tc main_arg5) (Finset.mem_filter.mpr ⟨StableHlo.devRef_mem_tcRefs main_arg5, by decide⟩)).trans (Gen.V6_main_arg5 m outs c),
        (h (Proc.devRef .tc main_arg6) (Finset.mem_filter.mpr ⟨StableHlo.devRef_mem_tcRefs main_arg6, by decide⟩)).trans (Gen.V6_main_arg6 m outs c)⟩
    · iexact HSI

end Cert.KernelIdeal.Hand

end
-- ==== Proof.KI.Reg0.lean ====
/-
  The first kernel region as a step of the whole program. Between two steps a core holds every unscoped buffer whole. The region takes the
  arrays its windows stage out of them: six distinct buffers for seven windows, the column of reciprocal square roots of the degrees being
  read through two windows (by row blocks and by column tiles). That column's ownership is split in its two halves when the region is
  entered, one per window, and the halves are joined again when the region ends, both windows having only read. The two arrays the region
  writes end holding what its write-backs leave; every other buffer ends as it was entered.
-/
import proofs.«135561_j38560216383500_2_alg».proof.Proof.KI.RunData
import proofs.«135561_j38560216383500_2_alg».proof.Proof.KI.Assemble

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

/-! ## The arrays of the first region -/

theorem image_arrRef0 : Finset.univ.image (Pipeline.arrRef spec0) = [main_v23, main_v48, main_v47, main_v49, main_v50_0, main_v50_1].toFinset := by decide

/-- The distinct buffers behind the first region's windows, one by one. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v23) ↦{fullShare} V main_v23) ∗ (((c : Thread nD τ).loc main_v48) ↦{fullShare} V main_v48)
          ∗ (((c : Thread nD τ).loc main_v47) ↦{fullShare} V main_v47) ∗ (((c : Thread nD τ).loc main_v49) ↦{fullShare} V main_v49)
          ∗ (((c : Thread nD τ).loc main_v50_0) ↦{fullShare} V main_v50_0) ∗ (((c : Thread nD τ).loc main_v50_1) ↦{fullShare} V main_v50_1)) := by
  unfold Pipeline.arrBufs
  exact bigSep_eq_bigSepL_of_eq [main_v23, main_v48, main_v47, main_v49, main_v50_0, main_v50_1] image_arrRef0 (by decide) _

/-- The share each window of the first region holds its array at: the shared column by halves, every other array in full. -/
def sh0 : Fin cfg0.W → PosShare TreeShare
  | ⟨2, _⟩ => qL
  | ⟨3, _⟩ => qR
  | _ => fullShare

theorem share0_0 (V : EntryV F) (c : Dev nD) : (dat0 V c).share 0 = fullShare := by
  unfold Dat.share; rw [if_neg (by decide)]; exact q0_full V c 0 (by decide) (by decide)
theorem share0_1 (V : EntryV F) (c : Dev nD) : (dat0 V c).share 1 = fullShare := by
  unfold Dat.share; rw [if_neg (by decide)]; exact q0_full V c 1 (by decide) (by decide)
theorem share0_2 (V : EntryV F) (c : Dev nD) : (dat0 V c).share 2 = qL := by
  unfold Dat.share; rw [if_neg (by decide)]; exact q0_2 V c
theorem share0_3 (V : EntryV F) (c : Dev nD) : (dat0 V c).share 3 = qR := by
  unfold Dat.share; rw [if_neg (by decide)]; exact q0_3 V c
theorem share0_4 (V : EntryV F) (c : Dev nD) : (dat0 V c).share 4 = fullShare := by
  unfold Dat.share; rw [if_neg (by decide)]; exact q0_full V c 4 (by decide) (by decide)
theorem share0_5 (V : EntryV F) (c : Dev nD) : (dat0 V c).share 5 = fullShare := by
  unfold Dat.share; rw [if_pos (by decide)]
theorem share0_6 (V : EntryV F) (c : Dev nD) : (dat0 V c).share 6 = fullShare := by
  unfold Dat.share; rw [if_pos (by decide)]

theorem share0_eq (V : EntryV F) (c : Dev nD) : ∀ w : Fin cfg0.W, (dat0 V c).share w = sh0 w
  | ⟨0, _⟩ => share0_0 V c
  | ⟨1, _⟩ => share0_1 V c
  | ⟨2, _⟩ => share0_2 V c
  | ⟨3, _⟩ => share0_3 V c
  | ⟨4, _⟩ => share0_4 V c
  | ⟨5, _⟩ => share0_5 V c
  | ⟨6, _⟩ => share0_6 V c
  | ⟨_ + 7, h⟩ => absurd h (Nat.not_lt.2 (Nat.le_add_left _ _))

/-- The first region's arrays window by window, each a whole buffer held at its window's share. -/
theorem arrays0_eq (V : EntryV F) (c : Dev nD) (G : (w : Fin cfg0.W) → Buf (Elt F) ((cfg0.win w).arr.view.loc (c : Thread nD τ))) :
    ((dat0 V c).arrays G : sProp 𝕄)
      = bigSep Finset.univ fun w : Fin cfg0.W => ((cfg0.win w).arr.view.loc (c : Thread nD τ) ↦{sh0 w} G w) := by
  unfold Dat.arrays
  exact bigSep_congr fun w _ => by rw [(arr_whole0 w).set_eq_univ, share0_eq]

/-- ENTRY: the buffers behind the windows, each whole, make the first region's arrays at their entry contents, the shared column's
    ownership split in its two halves. -/
theorem arrays0_entry (V : EntryV F) (c : Dev nD) :
    (Pipeline.arrBufs (Ix := Unit) (Name := ℕ) (U := UR sig nD τ) (Lvl := ℕ) spec0 c (V c) : sProp 𝕄)
      ⊢ (dat0 V c).arrays ((dat0 V c).arrAt · 0) := by
  rw [show ((dat0 V c).arrAt · 0) = (fun w => V c (Pipeline.arrRef spec0 w)) from funext fun w => A_eq0 V c w]
  rw [arrBufs0_eq, arrays0_eq, bigSep_W0]
  iintro ⟨H0, H1, H2, H4, H5, H6⟩
  ihave H2' := (pointsTo_share qL_op_qR).1 $$ H2
  icases H2' with ⟨H2, H3⟩
  isplitl [H0]; · iexact H0
  isplitl [H1]; · iexact H1
  isplitl [H2]; · iexact H2
  isplitl [H3]; · iexact H3
  isplitl [H4]; · iexact H4
  isplitl [H5]; · iexact H5
  iexact H6

/-- What an input window's array holds at the end: what it held at entry. -/
theorem arrAt0_in (V : EntryV F) (c : Dev nD) (w : Fin cfg0.W) (hin : (cfg0.win w).isOut = false) (n : ℕ) :
    (dat0 V c).arrAt w n = V c (Pipeline.arrRef spec0 w) :=
  ((dat0 V c).arrAt_in w hin n).trans (A_eq0 V c w)

set_option maxHeartbeats 1000000 in
/-- EXIT: the first region's arrays at their final contents make the buffers behind the windows, each whole, at any contents that agree
    with the entry contents on the arrays read and with the write-backs' result on the arrays written: the shared column's halves joined. -/
theorem arrays0_exit (V : EntryV F) (c : Dev nD) (V' : (b : Ref sig .tc) → Buf (Elt F) ((c : Thread nD τ).loc b))
    (h23 : V' main_v23 = V c main_v23) (h48 : V' main_v48 = V c main_v48) (h47 : V' main_v47 = V c main_v47) (h49 : V' main_v49 = V c main_v49)
    (h500 : V' main_v50_0 = (dat0 V c).arrAt 5 cfg0.N) (h501 : V' main_v50_1 = (dat0 V c).arrAt 6 cfg0.N) :
    ((dat0 V c).arrays ((dat0 V c).arrAt · cfg0.N) : sProp 𝕄)
      ⊢ Pipeline.arrBufs (Ix := Unit) (Name := ℕ) (U := UR sig nD τ) (Lvl := ℕ) spec0 c V' := by
  have e0 : (((cfg0.win 0).arr.view.loc (c : Thread nD τ) ↦{sh0 0} (dat0 V c).arrAt 0 cfg0.N) : sProp 𝕄)
      = (((c : Thread nD τ).loc main_v23) ↦{fullShare} V' main_v23) := by rw [arrAt0_in V c 0 rfl, h23]; rfl
  have e1 : (((cfg0.win 1).arr.view.loc (c : Thread nD τ) ↦{sh0 1} (dat0 V c).arrAt 1 cfg0.N) : sProp 𝕄)
      = (((c : Thread nD τ).loc main_v48) ↦{fullShare} V' main_v48) := by rw [arrAt0_in V c 1 rfl, h48]; rfl
  have e2 : (((cfg0.win 2).arr.view.loc (c : Thread nD τ) ↦{sh0 2} (dat0 V c).arrAt 2 cfg0.N) : sProp 𝕄)
      = (((c : Thread nD τ).loc main_v47) ↦{qL} V' main_v47) := by rw [arrAt0_in V c 2 rfl, h47]; rfl
  have e3 : (((cfg0.win 3).arr.view.loc (c : Thread nD τ) ↦{sh0 3} (dat0 V c).arrAt 3 cfg0.N) : sProp 𝕄)
      = (((c : Thread nD τ).loc main_v47) ↦{qR} V' main_v47) := by rw [arrAt0_in V c 3 rfl, h47]; rfl
  have e4 : (((cfg0.win 4).arr.view.loc (c : Thread nD τ) ↦{sh0 4} (dat0 V c).arrAt 4 cfg0.N) : sProp 𝕄)
      = (((c : Thread nD τ).loc main_v49) ↦{fullShare} V' main_v49) := by rw [arrAt0_in V c 4 rfl, h49]; rfl
  have e5 : (((cfg0.win 5).arr.view.loc (c : Thread nD τ) ↦{sh0 5} (dat0 V c).arrAt 5 cfg0.N) : sProp 𝕄)
      = (((c : Thread nD τ).loc main_v50_0) ↦{fullShare} V' main_v50_0) := by rw [h500]; rfl
  have e6 : (((cfg0.win 6).arr.view.loc (c : Thread nD τ) ↦{sh0 6} (dat0 V c).arrAt 6 cfg0.N) : sProp 𝕄)
      = (((c : Thread nD τ).loc main_v50_1) ↦{fullShare} V' main_v50_1) := by rw [h501]; rfl
  rw [arrBufs0_eq, arrays0_eq, bigSep_W0]
  iintro ⟨H0, H1, H2, H3, H4, H5, H6⟩
  isplitl [H0]; · iapply (Entails.of_eq e0); iexact H0
  isplitl [H1]; · iapply (Entails.of_eq e1); iexact H1
  isplitl [H2 H3]
  · iapply (pointsTo_share qL_op_qR).2
    isplitl [H2]; · iapply (Entails.of_eq e2); iexact H2
    iapply (Entails.of_eq e3); iexact H3
  isplitl [H4]; · iapply (Entails.of_eq e4); iexact H4
  isplitl [H5]; · iapply (Entails.of_eq e5); iexact H5
  iapply (Entails.of_eq e6); iexact H6

/-- A core's unscoped buffers are the buffers behind the first region's windows and the rest. -/
theorem ub_split0 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec0 c V
          ∗ Pipeline.unscopedRest (Ix := Unit) (Name := ℕ) (U := UR sig nD τ) (Lvl := ℕ) spec0 c V) :=
  Pipeline.unscopedBufs_split₀ (fun _ : Unit => cfg0) () winFacts₀0.arr_unscoped c V

/-- The buffers no window of the first region stages, at two contents that agree on them. -/
theorem unscopedRest0_congr (c : Dev nD) (V V' : (b : Ref sig .tc) → Buf (Elt F) ((c : Thread nD τ).loc b))
    (h : ∀ b, b ∉ Finset.univ.image (Pipeline.arrRef spec0) → V' b = V b) :
    (Pipeline.unscopedRest (Ix := Unit) (Name := ℕ) (U := UR sig nD τ) (Lvl := ℕ) spec0 c V : sProp 𝕄)
      = Pipeline.unscopedRest (Ix := Unit) (Name := ℕ) (U := UR sig nD τ) (Lvl := ℕ) spec0 c V' := by
  unfold Pipeline.unscopedRest
  exact bigSep_congr fun b hb => by rw [h b (Finset.mem_sdiff.mp hb).2]

/-! ## The first region as a step of the program -/

/-- The second result array's buffer is not the first's. -/
theorem devRef_500_ne_501 : (Proc.devRef .tc main_v50_0 : DevRef τ sig) ≠ Proc.devRef .tc main_v50_1 :=
  StableHlo.devRef_ne_of_ne (by decide)

/-- After the first region its result arrays hold the results. -/
theorem V4_v50_0 (m : (ℓ : Loc nD τ sig) → Buf (Elt F) ℓ) (c : Dev nD) :
    Gen.V4 m (outs m) c (Proc.devRef .tc main_v50_0) = outs m 4 main_v50_0 c := by
  simp only [Gen.V4, Function.update_of_ne devRef_500_ne_501, Function.update_self]
theorem V4_v50_1 (m : (ℓ : Loc nD τ sig) → Buf (Elt F) ℓ) (c : Dev nD) :
    Gen.V4 m (outs m) c (Proc.devRef .tc main_v50_1) = outs m 4 main_v50_1 c := by
  simp only [Gen.V4, Function.update_self]

/-- A result array of the first region is one of its windows' arrays. -/
theorem mem_image0_of_out (b : Ref sig .tc) (hb : b ∈ ([main_v50_0, main_v50_1] : List (Ref sig .tc))) :
    b ∈ Finset.univ.image (Pipeline.arrRef spec0) := by
  rw [image_arrRef0]
  rcases List.mem_cons.mp hb with rfl | hb
  · decide
  · rcases List.mem_cons.mp hb with rfl | hb
    · decide
    · cases hb

/-- ENTRY of the first region: every unscoped buffer whole at the entry contents is the region's arrays at their entry contents and the
    buffers no window stages. -/
theorem reg0_split (m : (ℓ : Loc nD τ sig) → Buf (Elt F) ℓ) (c : Dev nD) :
    (StableHlo.held (c : Thread nD τ) (Pipeline.ucRefs τ sig) (Gen.V3 m c) : sProp 𝕄)
      ⊢ iprop((dat0 (entry0 m) c).arrays ((dat0 (entry0 m) c).arrAt · 0)
          ∗ Pipeline.unscopedRest (Ix := Unit) (Name := ℕ) (U := UR sig nD τ) (Lvl := ℕ) spec0 c (entry0 m c)) := by
  rw [← Pipeline.unscopedBufs_held (Ix := Unit) (Name := ℕ) (U := UR sig nD τ) (Lvl := ℕ) c (Gen.V3 m c)]
  refine BI.Entails.trans (Entails.of_eq (ub_split0 c (entry0 m c))) ?_
  exact BI.sep_mono (arrays0_entry (entry0 m) c) (BI.Entails.refl _)

set_option maxHeartbeats 1000000 in
/-- EXIT of the first region: its arrays at their final contents and the buffers no window stages are every unscoped buffer whole at the
    contents after the region. -/
theorem reg0_join (m : (ℓ : Loc nD τ sig) → Buf (Elt F) ℓ) (c : Dev nD) :
    iprop((dat0 (entry0 m) c).arrays ((dat0 (entry0 m) c).arrAt · cfg0.N)
        ∗ Pipeline.unscopedRest (Ix := Unit) (Name := ℕ) (U := UR sig nD τ) (Lvl := ℕ) spec0 c (entry0 m c))
      ⊢ (StableHlo.held (c : Thread nD τ) (Pipeline.ucRefs τ sig) (Gen.V4 m (outs m) c) : sProp 𝕄) := by
  rw [← Pipeline.unscopedBufs_held (Ix := Unit) (Name := ℕ) (U := UR sig nD τ) (Lvl := ℕ) c (Gen.V4 m (outs m) c)]
  have h23 : (fun b : Ref sig .tc => Gen.V4 m (outs m) c (Proc.devRef .tc b)) main_v23 = entry0 m c main_v23 := Gen.V4_of m (outs m) c main_v23 (by decide)
  have h48 : (fun b : Ref sig .tc => Gen.V4 m (outs m) c (Proc.devRef .tc b)) main_v48 = entry0 m c main_v48 := Gen.V4_of m (outs m) c main_v48 (by decide)
  have h47 : (fun b : Ref sig .tc => Gen.V4 m (outs m) c (Proc.devRef .tc b)) main_v47 = entry0 m c main_v47 := Gen.V4_of m (outs m) c main_v47 (by decide)
  have h49 : (fun b : Ref sig .tc => Gen.V4 m (outs m) c (Proc.devRef .tc b)) main_v49 = entry0 m c main_v49 := Gen.V4_of m (outs m) c main_v49 (by decide)
  have h500 : (fun b : Ref sig .tc => Gen.V4 m (outs m) c (Proc.devRef .tc b)) main_v50_0 = (dat0 (entry0 m) c).arrAt 5 cfg0.N := (V4_v50_0 m c).trans (outs_h m c)
  have h501 : (fun b : Ref sig .tc => Gen.V4 m (outs m) c (Proc.devRef .tc b)) main_v50_1 = (dat0 (entry0 m) c).arrAt 6 cfg0.N := (V4_v50_1 m c).trans (outs_S m c)
  refine BI.Entails.trans ?_ (Entails.of_eq (ub_split0 c (fun b => Gen.V4 m (outs m) c (Proc.devRef .tc b))).symm)
  refine BI.sep_mono (arrays0_exit (entry0 m) c (fun b => Gen.V4 m (outs m) c (Proc.devRef .tc b)) h23 h48 h47 h49 h500 h501) ?_
  exact Entails.of_eq (unscopedRest0_congr c (entry0 m c) (fun b => Gen.V4 m (outs m) c (Proc.devRef .tc b)) fun b hb =>
    Gen.V4_of m (outs m) c b fun hmem => hb (mem_image0_of_out b hmem))

set_option backward.isDefEq.respectTransparency.types false in
set_option maxHeartbeats 1000000 in
/-- The first region: entered from every unscoped buffer at the contents the host operations before it leave, left with its two result
    arrays replaced by what the write-backs leave. Its arrays are split out of the unscoped buffers, the shared column by halves, and put
    back joined; the generator register goes into the region's invariant and comes back; nothing is owed. -/
def reg0 (m : (ℓ : Loc nD τ sig) → Buf (Elt F) ℓ) : RegionSeg (pcfgs (F := F)) Gen.adm (pdats m) () defs₀ Variants.none Lv0 lv0 0 where
  win := winFacts₀0
  block_pos := block_pos0
  stage_whole := stage_whole0
  K := PEmpty
  osem k := k.elim
  ho := Pipeline.OwnSemFacts.none _
  hbody c := (body_obligation0 (entry0 m) c).loose
  hwaits := Pipeline.hwaits_of_owed_zero _ _ _ _ Lv0 lv0 0 fun c t => owed0 (entry0 m) c t
  pre c := iprop(StableHlo.held (c : Thread nD τ) (Pipeline.ucRefs τ sig) (Gen.V3 m c) ∗ Rst (F := F) c)
  post c := iprop(StableHlo.held (c : Thread nD τ) (Pipeline.ucRefs τ sig) (Gen.V4 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    iintro ⟨⟨Hub, Hp, HO⟩, -, -⟩
    ihave H := (reg0_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (entry0 m) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (entry0 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (reg0_join m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Split1.lean ====
/-
  The second kernel region's arrays and the buffers behind them. The region's six windows stage five arrays: the matrix the first region
  wrote, the second layer's features, the column of reciprocal square roots of the degrees (read through two windows, by row blocks and by
  column tiles), the bias row, and the result. Between two steps of the program a core holds each of the five buffers whole. When the region
  is entered the column's ownership is split in two halves, one per window that reads it; when the region ends, both windows having only
  read, the halves are joined again; the result's buffer ends at what the write-backs leave, the four arrays read end as they were entered.
-/
import proofs.«135561_j38560216383500_2_alg».proof.Proof.KI.R1Frame
import proofs.«135561_j38560216383500_2_alg».proof.Proof.KI.Common

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

/-! ## The arrays of the second region -/

/-- The five distinct arrays behind the region's six windows. -/
theorem image_arrRef1 : Finset.univ.image (Pipeline.arrRef spec1) = [main_v50_1, main_v51, main_v47, main_v52, main_v53].toFinset := by decide

/-- The distinct buffers behind the second region's windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v50_1) ↦{fullShare} V main_v50_1) ∗ (((c : Thread nD τ).loc main_v51) ↦{fullShare} V main_v51)
          ∗ (((c : Thread nD τ).loc main_v47) ↦{fullShare} V main_v47) ∗ (((c : Thread nD τ).loc main_v52) ↦{fullShare} V main_v52)
          ∗ (((c : Thread nD τ).loc main_v53) ↦{fullShare} V main_v53)) := by
  unfold Pipeline.arrBufs
  exact bigSep_eq_bigSepL_of_eq [main_v50_1, main_v51, main_v47, main_v52, main_v53] image_arrRef1 (by decide) _

/-- The share each window of the second region holds its array at: the shared column by halves, every other array in full. -/
def sh1 : Fin cfg1.W → PosShare TreeShare
  | ⟨2, _⟩ => qL
  | ⟨3, _⟩ => qR
  | _ => fullShare

theorem share1_0 (V : EntryV F) (c : Dev nD) : (dat1 V c).share 0 = fullShare := by
  unfold Dat.share; rw [if_neg (by decide)]; exact q1_full V c 0 (by decide) (by decide)
theorem share1_1 (V : EntryV F) (c : Dev nD) : (dat1 V c).share 1 = fullShare := by
  unfold Dat.share; rw [if_neg (by decide)]; exact q1_full V c 1 (by decide) (by decide)
theorem share1_2 (V : EntryV F) (c : Dev nD) : (dat1 V c).share 2 = qL := by
  unfold Dat.share; rw [if_neg (by decide)]; exact q1_2 V c
theorem share1_3 (V : EntryV F) (c : Dev nD) : (dat1 V c).share 3 = qR := by
  unfold Dat.share; rw [if_neg (by decide)]; exact q1_3 V c
theorem share1_4 (V : EntryV F) (c : Dev nD) : (dat1 V c).share 4 = fullShare := by
  unfold Dat.share; rw [if_neg (by decide)]; exact q1_full V c 4 (by decide) (by decide)
theorem share1_5 (V : EntryV F) (c : Dev nD) : (dat1 V c).share 5 = fullShare := by
  unfold Dat.share; rw [if_pos (by decide)]

theorem share1_eq (V : EntryV F) (c : Dev nD) : ∀ w : Fin cfg1.W, (dat1 V c).share w = sh1 w
  | ⟨0, _⟩ => share1_0 V c
  | ⟨1, _⟩ => share1_1 V c
  | ⟨2, _⟩ => share1_2 V c
  | ⟨3, _⟩ => share1_3 V c
  | ⟨4, _⟩ => share1_4 V c
  | ⟨5, _⟩ => share1_5 V c
  | ⟨_ + 6, h⟩ => absurd h (Nat.not_lt.2 (Nat.le_add_left _ _))

/-- The second region's arrays window by window, each a whole buffer held at its window's share. -/
theorem arrays1_eq (V : EntryV F) (c : Dev nD) (G : (w : Fin cfg1.W) → Buf (Elt F) ((cfg1.win w).arr.view.loc (c : Thread nD τ))) :
    ((dat1 V c).arrays G : sProp 𝕄)
      = bigSep Finset.univ fun w : Fin cfg1.W => ((cfg1.win w).arr.view.loc (c : Thread nD τ) ↦{sh1 w} G w) := by
  unfold Dat.arrays
  exact bigSep_congr fun w _ => by rw [(arr_whole1 w).set_eq_univ, share1_eq]

/-- ENTRY: the buffers behind the windows, each whole, make the second region's arrays at their entry contents, the shared column's
    ownership split in its two halves. -/
theorem arrays1_entry (V : EntryV F) (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [show ((dat1 V c).arrAt · 0) = (fun w => V c (Pipeline.arrRef spec1 w)) from funext fun w => A_eq1 V c w]
  rw [arrBufs1_eq, arrays1_eq, bigSep_W1]
  iintro ⟨H0, H1, H2, H4, H5⟩
  ihave H2' := (pointsTo_share qL_op_qR).1 $$ H2
  icases H2' with ⟨H2, H3⟩
  isplitl [H0]; · iexact H0
  isplitl [H1]; · iexact H1
  isplitl [H2]; · iexact H2
  isplitl [H3]; · iexact H3
  isplitl [H4]; · iexact H4
  iexact H5

/-- What an input window's array holds after any number of points: what it held at entry. -/
theorem arrAt1_in (V : EntryV F) (c : Dev nD) (w : Fin cfg1.W) (hin : (cfg1.win w).isOut = false) (n : ℕ) :
    (dat1 V c).arrAt w n = V c (Pipeline.arrRef spec1 w) :=
  ((dat1 V c).arrAt_in w hin n).trans (A_eq1 V c w)

set_option maxHeartbeats 1000000 in
/-- EXIT: the second region's arrays at their final contents make the buffers behind the windows, each whole, at any contents that agree
    with the entry contents on the four arrays read and with the write-backs' result on the array written: the shared column's halves joined. -/
theorem arrays1_exit (V : EntryV F) (c : Dev nD) (V' : (b : Ref sig .tc) → Buf (Elt F) ((c : Thread nD τ).loc b))
    (h501 : V' main_v50_1 = V c main_v50_1) (h51 : V' main_v51 = V c main_v51) (h47 : V' main_v47 = V c main_v47) (h52 : V' main_v52 = V c main_v52)
    (h53 : V' main_v53 = (dat1 V c).arrAt 5 cfg1.N) :
    ((dat1 V c).arrays ((dat1 V c).arrAt · cfg1.N) : sProp 𝕄)
      ⊢ Pipeline.arrBufs (Ix := Unit) (Name := ℕ) (U := UR sig nD τ) (Lvl := ℕ) spec1 c V' := by
  have e0 : (((cfg1.win 0).arr.view.loc (c : Thread nD τ) ↦{sh1 0} (dat1 V c).arrAt 0 cfg1.N) : sProp 𝕄)
      = (((c : Thread nD τ).loc main_v50_1) ↦{fullShare} V' main_v50_1) := by rw [arrAt1_in V c 0 rfl, h501]; rfl
  have e1 : (((cfg1.win 1).arr.view.loc (c : Thread nD τ) ↦{sh1 1} (dat1 V c).arrAt 1 cfg1.N) : sProp 𝕄)
      = (((c : Thread nD τ).loc main_v51) ↦{fullShare} V' main_v51) := by rw [arrAt1_in V c 1 rfl, h51]; rfl
  have e2 : (((cfg1.win 2).arr.view.loc (c : Thread nD τ) ↦{sh1 2} (dat1 V c).arrAt 2 cfg1.N) : sProp 𝕄)
      = (((c : Thread nD τ).loc main_v47) ↦{qL} V' main_v47) := by rw [arrAt1_in V c 2 rfl, h47]; rfl
  have e3 : (((cfg1.win 3).arr.view.loc (c : Thread nD τ) ↦{sh1 3} (dat1 V c).arrAt 3 cfg1.N) : sProp 𝕄)
      = (((c : Thread nD τ).loc main_v47) ↦{qR} V' main_v47) := by rw [arrAt1_in V c 3 rfl, h47]; rfl
  have e4 : (((cfg1.win 4).arr.view.loc (c : Thread nD τ) ↦{sh1 4} (dat1 V c).arrAt 4 cfg1.N) : sProp 𝕄)
      = (((c : Thread nD τ).loc main_v52) ↦{fullShare} V' main_v52) := by rw [arrAt1_in V c 4 rfl, h52]; rfl
  have e5 : (((cfg1.win 5).arr.view.loc (c : Thread nD τ) ↦{sh1 5} (dat1 V c).arrAt 5 cfg1.N) : sProp 𝕄)
      = (((c : Thread nD τ).loc main_v53) ↦{fullShare} V' main_v53) := by rw [h53]; rfl
  rw [arrBufs1_eq, arrays1_eq, bigSep_W1]
  iintro ⟨H0, H1, H2, H3, H4, H5⟩
  isplitl [H0]; · iapply (Entails.of_eq e0); iexact H0
  isplitl [H1]; · iapply (Entails.of_eq e1); iexact H1
  isplitl [H2 H3]
  · iapply (pointsTo_share qL_op_qR).2
    isplitl [H2]; · iapply (Entails.of_eq e2); iexact H2
    iapply (Entails.of_eq e3); iexact H3
  isplitl [H4]; · iapply (Entails.of_eq e4); iexact H4
  iapply (Entails.of_eq e5); iexact H5

/-- A core's unscoped buffers are the buffers behind the second region's windows and the rest. -/
theorem ub_split1 (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ (fun _ : Unit => cfg1) () winFacts₀1.arr_unscoped c V

/-- The buffers no window of the second region stages, at two contents that agree on them. -/
theorem unscopedRest1_congr (c : Dev nD) (V V' : (b : Ref sig .tc) → Buf (Elt F) ((c : Thread nD τ).loc b))
    (h : ∀ b, b ∉ Finset.univ.image (Pipeline.arrRef spec1) → V' b = V b) :
    (Pipeline.unscopedRest (Ix := Unit) (Name := ℕ) (U := UR sig nD τ) (Lvl := ℕ) spec1 c V : sProp 𝕄)
      = Pipeline.unscopedRest (Ix := Unit) (Name := ℕ) (U := UR sig nD τ) (Lvl := ℕ) spec1 c V' := by
  unfold Pipeline.unscopedRest
  exact bigSep_congr fun b hb => by rw [h b (Finset.mem_sdiff.mp hb).2]

/-- The result array of the second region is one of its windows' arrays. -/
theorem mem_image1_of_out (b : Ref sig .tc) (hb : b ∈ ([main_v53] : List (Ref sig .tc))) :
    b ∈ Finset.univ.image (Pipeline.arrRef spec1) := by
  rw [image_arrRef1]
  rcases List.mem_cons.mp hb with rfl | hb
  · decide
  · cases hb

end Cert.KernelIdeal.Hand

end
-- ==== Proof.KI.Reg1.lean ====
/-
  The second kernel region as a step of the whole program: the same routing as the first region's. Its six windows stage five distinct
  buffers, the column of reciprocal square roots being read through two of them; the column's ownership is split in halves at the entry
  and joined at the exit. The one array the region writes ends holding what its write-backs leave; every other buffer ends as entered.
-/
import proofs.«135561_j38560216383500_2_alg».proof.Proof.KI.RunData
import proofs.«135561_j38560216383500_2_alg».proof.Proof.KI.Split1
import proofs.«135561_j38560216383500_2_alg».proof.Proof.KI.Assemble

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

/-! ## The second region as a step of the program -/

/-- After the second region its result array holds the result. -/
theorem V6_v53 (m : (ℓ : Loc nD τ sig) → Buf (Elt F) ℓ) (c : Dev nD) :
    Gen.V6 m (outs m) c (Proc.devRef .tc main_v53) = outs m 6 main_v53 c := by
  simp only [Gen.V6, Function.update_self]

/-- ENTRY of the second region: every unscoped buffer whole at the entry contents is the region's arrays at their entry contents and the
    buffers no window stages. -/
theorem reg1_split (m : (ℓ : Loc nD τ sig) → Buf (Elt F) ℓ) (c : Dev nD) :
    (StableHlo.held (c : Thread nD τ) (Pipeline.ucRefs τ sig) (Gen.V5 m (outs m) c) : sProp 𝕄)
      ⊢ iprop((dat1 (entry1 m) c).arrays ((dat1 (entry1 m) c).arrAt · 0)
          ∗ Pipeline.unscopedRest (Ix := Unit) (Name := ℕ) (U := UR sig nD τ) (Lvl := ℕ) spec1 c (entry1 m c)) := by
  rw [← Pipeline.unscopedBufs_held (Ix := Unit) (Name := ℕ) (U := UR sig nD τ) (Lvl := ℕ) c (Gen.V5 m (outs m) c)]
  refine BI.Entails.trans (Entails.of_eq (ub_split1 c (entry1 m c))) ?_
  exact BI.sep_mono (arrays1_entry (entry1 m) c) (BI.Entails.refl _)

set_option maxHeartbeats 1000000 in
/-- EXIT of the second region: its arrays at their final contents and the buffers no window stages are every unscoped buffer whole at the
    contents after the region. -/
theorem reg1_join (m : (ℓ : Loc nD τ sig) → Buf (Elt F) ℓ) (c : Dev nD) :
    iprop((dat1 (entry1 m) c).arrays ((dat1 (entry1 m) c).arrAt · cfg1.N)
        ∗ Pipeline.unscopedRest (Ix := Unit) (Name := ℕ) (U := UR sig nD τ) (Lvl := ℕ) spec1 c (entry1 m c))
      ⊢ (StableHlo.held (c : Thread nD τ) (Pipeline.ucRefs τ sig) (Gen.V6 m (outs m) c) : sProp 𝕄) := by
  rw [← Pipeline.unscopedBufs_held (Ix := Unit) (Name := ℕ) (U := UR sig nD τ) (Lvl := ℕ) c (Gen.V6 m (outs m) c)]
  have h501 : (fun b : Ref sig .tc => Gen.V6 m (outs m) c (Proc.devRef .tc b)) main_v50_1 = entry1 m c main_v50_1 := Gen.V6_of m (outs m) c main_v50_1 (by decide)
  have h51 : (fun b : Ref sig .tc => Gen.V6 m (outs m) c (Proc.devRef .tc b)) main_v51 = entry1 m c main_v51 := Gen.V6_of m (outs m) c main_v51 (by decide)
  have h47 : (fun b : Ref sig .tc => Gen.V6 m (outs m) c (Proc.devRef .tc b)) main_v47 = entry1 m c main_v47 := Gen.V6_of m (outs m) c main_v47 (by decide)
  have h52 : (fun b : Ref sig .tc => Gen.V6 m (outs m) c (Proc.devRef .tc b)) main_v52 = entry1 m c main_v52 := Gen.V6_of m (outs m) c main_v52 (by decide)
  have h53 : (fun b : Ref sig .tc => Gen.V6 m (outs m) c (Proc.devRef .tc b)) main_v53 = (dat1 (entry1 m) c).arrAt 5 cfg1.N := (V6_v53 m c).trans (outs_out m c)
  refine BI.Entails.trans ?_ (Entails.of_eq (ub_split1 c (fun b => Gen.V6 m (outs m) c (Proc.devRef .tc b))).symm)
  refine BI.sep_mono (arrays1_exit (entry1 m) c (fun b => Gen.V6 m (outs m) c (Proc.devRef .tc b)) h501 h51 h47 h52 h53) ?_
  exact Entails.of_eq (unscopedRest1_congr c (entry1 m c) (fun b => Gen.V6 m (outs m) c (Proc.devRef .tc b)) fun b hb =>
    Gen.V6_of m (outs m) c b fun hmem => hb (mem_image1_of_out b hmem))

set_option backward.isDefEq.respectTransparency.types false in
set_option maxHeartbeats 1000000 in
/-- The second region: entered from every unscoped buffer at the contents the host operations between the regions leave, left with its
    result array replaced by what the write-backs leave. Its arrays are split out of the unscoped buffers, the shared column by halves,
    and put back joined; the generator register goes into the region's invariant and comes back; nothing is owed. -/
def reg1 (m : (ℓ : Loc nD τ sig) → Buf (Elt F) ℓ) : RegionSeg (pcfgs (F := F)) Gen.adm (pdats m) () defs₀ Variants.none Lv0 lv0 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ Lv0 lv0 1 fun c t => owed1 (entry1 m) c t
  pre c := iprop(StableHlo.held (c : Thread nD τ) (Pipeline.ucRefs τ sig) (Gen.V5 m (outs m) c) ∗ Rst (F := F) c)
  post c := iprop(StableHlo.held (c : Thread nD τ) (Pipeline.ucRefs τ sig) (Gen.V6 m (outs m) c) ∗ Rst (F := F) c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    iintro ⟨⟨Hub, Hp, HO⟩, -, -⟩
    ihave H := (reg1_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (entry1 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (entry1 m) c).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (reg1_join m c)
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KI.Run.lean ====
/-
  The whole program's run from the two kernel regions: every argument array ends as it started, and the result array ends holding what the
  second region's write-backs leave in it.
-/
import proofs.«135561_j38560216383500_2_alg».proof.Proof.KI.RunData
import proofs.«135561_j38560216383500_2_alg».proof.Proof.KI.Reg0
import proofs.«135561_j38560216383500_2_alg».proof.Proof.KI.Reg1
import proofs.«135561_j38560216383500_2_alg».proof.Proof.KI.Assemble

noncomputable section

namespace Cert.KernelIdeal.Hand

open Idealize.ShloMosaic Idealize.ShloMosaic.TcCoe
open Idealize.SL Idealize.SL.RA Idealize.SL.BI
open scoped Idealize.SL.BI
open scoped Idealize.SL.RA.PCS
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (outs m) (pdats m) (reg0 m) (fun _ => .rfl) (fun _ => .rfl) (reg1 m) (fun _ => .rfl) (fun _ => .rfl)

theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v53) = outs m 6 main_v53 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_out_of m ρ (outs m) (pdats m) (reg0 m) (fun _ => .rfl) (fun _ => .rfl) (reg1 m) (fun _ => .rfl) (fun _ => .rfl)

end Cert.KernelIdeal.Hand

end
-- ==== Proof.KI.Entry1.lean ====
/-
  What the second region is entered with, in terms of what the first one left. Between the two regions the program multiplies the first
  region's result h by the second weight matrix and lays the second bias out as a row; nothing else is written. So the second region finds:
  the matrix (adjacency plus identity) and h exactly as the first region left them, the column of reciprocal square roots of the degrees as
  the first region found it, the product h W2, and the bias row.
-/
import proofs.«135561_j38560216383500_2_alg».proof.Proof.Gen.KernelIdeal.Regions
import proofs.«135561_j38560216383500_2_alg».proof.Proof.KI.Common
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (outs : Gen.Outs (F := F)) (c : Dev nD)

/-- After the first region its first result array holds what the region left there, -/
theorem V4_hres : Gen.V4 m outs c main_v50_0 = outs 4 main_v50_0 c := by
  simp only [Gen.V4]
  rw [Function.update_of_ne (StableHlo.devRef_ne_of_ne (by decide) : (Proc.devRef .tc main_v50_0 : DevRef τ sig) ≠ Proc.devRef .tc main_v50_1),
    Function.update_self]

/-- and its second likewise. -/
theorem V4_Sres : Gen.V4 m outs c main_v50_1 = outs 4 main_v50_1 c := by
  simp only [Gen.V4, Function.update_self]

/-- The second region reads the matrix as the first one left it: the two host operations between them do not write it. -/
theorem V5_v50_1 : Gen.V5 m outs c main_v50_1 = outs 4 main_v50_1 c :=
  (Gen.V5_of m outs c main_v50_1 (by decide)).trans (V4_Sres m outs c)

/-- The column of reciprocal square roots is, at the second region's entry, what it was at the first's. -/
theorem V5_v47 : Gen.V5 m outs c main_v47 = Gen.V3 m c main_v47 :=
  (Gen.V5_of m outs c main_v47 (by decide)).trans (Gen.V4_of m outs c main_v47 (by decide))

/-- The second weight matrix and the second bias are the launch's: nothing before the second region writes an argument. -/
theorem V4_arg3 : Gen.V4 m outs c main_arg3 = m ((c : Thread nD τ).loc main_arg3) :=
  (Gen.V4_of m outs c main_arg3 (by decide)).trans <| (Gen.V3_of m c main_arg3 (by decide)).trans <|
    (Gen.V2_of m c main_arg3 (by decide)).trans <| (Gen.V1_of m c main_arg3 (by decide)).trans rfl
theorem V4_arg4 : Gen.V4 m outs c main_arg4 = m ((c : Thread nD τ).loc main_arg4) :=
  (Gen.V4_of m outs c main_arg4 (by decide)).trans <| (Gen.V3_of m c main_arg4 (by decide)).trans <|
    (Gen.V2_of m c main_arg4 (by decide)).trans <| (Gen.V1_of m c main_arg4 (by decide)).trans rfl

/-- The features of the second layer: the first region's result times the second weight matrix. -/
theorem V5_v51 : Gen.V5 m outs c main_v51
    = Host.dotGeneral dot_S16384x64_S64x16_S16384x16_1_0_0_1_n_n none (outs 4 main_v50_0 c) (m ((c : Thread nD τ).loc main_arg3)) := by
  rw [← V4_hres m outs c, ← V4_arg3 m outs c]
  show StableHlo.after hostOps1 (Gen.V4 m outs c) (Proc.devRef .tc main_v51) = _
  after_results

/-- The second bias as a row. -/
theorem V5_v52 : Gen.V5 m outs c main_v52
    = shapeCast S1x16 (m ((c : Thread nD τ).loc main_arg4)) shapeCasts_S16_S1x16 := by
  rw [← V4_arg4 m outs c]
  show StableHlo.after hostOps1 (Gen.V4 m outs c) (Proc.devRef .tc main_v52) = _
  after_results
  rfl

end Cert.KernelIdeal.Hand

end
-- ==== Proof.KI.ValuePay.lean ====
/-
  The values the two regions' bodies store, read at one element over the extended reals. First region: the zero block, the adjacency block
  with the diagonal of ones added, the accumulator plus the block's product with the scaled features, and the scaled, shifted, clamped output.
  Second region: the same without the diagonal and the clamp. Then the accumulation over the column tiles: whatever sequence of accumulator
  contents resets at the first tile of a row block and steps by the body's sum elsewhere holds, after tile k, the partial sum over the
  columns of the tiles 0 … k, so that the last tile's epilogue sees the whole row's sum.
-/
import proofs.«135561_j38560216383500_2_alg».proof.Proof.KI.Common
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

/-! ## Words: the diagonal test -/

/-- Two naturals below `2 ^ 32` are equal exactly when their 32-bit words are. -/
theorem ofNat32_eq_iff (a b : Nat) (ha : a < 2 ^ 32) (hb : b < 2 ^ 32) : BitVec.ofNat 32 a = BitVec.ofNat 32 b ↔ a = b := by
  constructor
  · intro e
    have := congrArg BitVec.toNat e
    rw [BitVec.toNat_ofNat, BitVec.toNat_ofNat, Nat.mod_eq_of_lt ha, Nat.mod_eq_of_lt hb] at this
    exact this
  · intro e; rw [e]

/-- The comparison of the global row `p · R + r` with the global column `q · C + c`, computed on 32-bit words, is the comparison of the
    naturals when neither overflows. -/
theorem diag_bit (p q r c R C : Nat) (h1 : p * R + r < 2 ^ 32) (h2 : q * C + c < 2 ^ 32) :
    IntOp.cmpi .eq (IntOp.addi (Scalar.muli (BitVec.ofNat 32 p) (BitVec.ofNat 32 R)) (BitVec.ofNat 32 r))
        (IntOp.addi (Scalar.muli (BitVec.ofNat 32 q) (BitVec.ofNat 32 C)) (BitVec.ofNat 32 c))
      = if p * R + r = q * C + c then 1#1 else 0#1 := by
  unfold IntOp.cmpi IntOp.addi Scalar.muli IntOp.muli
  rw [← BitVec.ofNat_mul, ← BitVec.ofNat_mul, ← BitVec.ofNat_add, ← BitVec.ofNat_add]
  by_cases h : p * R + r = q * C + c
  · rw [if_pos h, h]; simp
  · rw [if_neg h]
    have hne : BitVec.ofNat 32 (p * R + r) ≠ BitVec.ofNat 32 (q * C + c) := fun e => h ((ofNat32_eq_iff _ _ h1 h2).mp e)
    show BitVec.ofBool (BitVec.ofNat 32 (p * R + r) == BitVec.ofNat 32 (q * C + c)) = 0#1
    rw [beq_eq_false_iff_ne.mpr hne]; rfl

/-! ## A plain matrix product into an accumulator, at an element -/

/-- A `tpu.matmul` of an m×k by a k×n matrix contracting the inner axis, read at `(a, b)`: the accumulator there plus the sum over
    the inner coordinate of the products of the entries. -/
theorem matmul_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (acc : FVec Ideal ⟨2, ![m, n]⟩ .f32) (a : Fin m) (b : Fin n) :
    FloatOps.matmul (⟨[1], [0], [0], [1], [], [], w⟩ : DotDims _ _ _) prec A B acc (ix2 a b)
      = acc (ix2 a b) + ∑ c : Fin k, A (ix2 a c) * B (ix2 c b) := by
  rw [Ideal.matmul_apply,
    ← Equiv.sum_comp (contrEquiv1 (⟨[1], [0], [0], [1], [], [], w⟩ : DotDims _ _ _) k rfl rfl).symm]
  refine congrArg (acc (ix2 a b) + ·) (Finset.sum_congr rfl fun c _ => ?_)
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The first region's payloads at an element -/

/-- The one and the zero the diagonal fold selects between. -/
theorem ofBits_one_f32 : Ideal.ofBits .f32 0x3F800000#32 = 1 := IdealRules.sign_bit.ideal_onePat .f32

/-- The reset stores zero everywhere. -/
theorem pay2_apply (j : S1024x64.Idx) : k0_pay2 (F := Ideal) j = 0 := by
  unfold k0_pay2
  simp only [shapeCast_self]
  show Ideal.ofBits .f32 0x00000000#32 = 0
  exact Ideal.ofBits_zero_f32

/-- The adjacency block with the diagonal folded in: at `(r, c)` of block `(p, q)` it is the block's entry, plus one where the global
    row `1024 p + r` is the global column `2048 q + c` (the narrowing to bf16 is the identity on extended reals). -/
theorem pay3_apply (i : grid0.Coords) (p q : Nat) (hp : (i 0).val = p) (hq : (i 1).val = q) (hp16 : p < 16) (hq8 : q < 8)
    (v3 : Vec Ideal S1024x2048 .f32) (r : Fin 1024) (c : Fin 2048) :
    k0_pay3 (F := Ideal) i v3 (ix2 r c) = v3 (ix2 r c) + (if 1024 * p + r.val = 2048 * q + c.val then 1 else 0) := by
  unfold k0_pay3
  simp only [shapeCast_self]
  show v3 (ix2 r c) + Scalar.select (IntOp.cmpi .eq
      (IntOp.addi (Scalar.muli (BitVec.ofNat 32 (i 0).val) 1024#32) (iota .tc S1024x2048 32 [0] iota_S1024x2048_d0_w32 (ix2 r c)))
      (IntOp.addi (Scalar.muli (BitVec.ofNat 32 (i 1).val) 2048#32) (iota .tc S1024x2048 32 [1] iota_S1024x2048_d1_w32 (ix2 r c))))
      (Ideal.ofBits .f32 0x3F800000#32) (Ideal.ofBits .f32 0x00000000#32) = _
  rw [iota_single_apply, iota_single_apply, hp, hq]
  show v3 (ix2 r c) + Scalar.select (IntOp.cmpi .eq
      (IntOp.addi (Scalar.muli (BitVec.ofNat 32 p) (BitVec.ofNat 32 1024)) (BitVec.ofNat 32 r.val))
      (IntOp.addi (Scalar.muli (BitVec.ofNat 32 q) (BitVec.ofNat 32 2048)) (BitVec.ofNat 32 c.val)))
      (Ideal.ofBits .f32 0x3F800000#32) (Ideal.ofBits .f32 0x00000000#32) = _
  have hr := r.isLt
  have hc := c.isLt
  rw [diag_bit p q r.val c.val 1024 2048 (by omega) (by omega), ofBits_one_f32, Ideal.ofBits_zero_f32]
  by_cases h : p * 1024 + r.val = q * 2048 + c.val
  · rw [if_pos h, if_pos (by omega : 1024 * p + r.val = 2048 * q + c.val), select_one]
  · rw [if_neg h, if_neg (by omega : ¬1024 * p + r.val = 2048 * q + c.val), select_zero]

/-- A column `[n, 1]` broadcast along the rows' other axis reads its row's entry. -/
theorem bcast_col_apply {n m : Nat} (x : (⟨2, ![n, 1]⟩ : Shape).Idx → EReal) (h : (⟨2, ![n, 1]⟩ : Shape).Broadcasts ⟨2, ![n, m]⟩)
    (hm : m ≠ 1) (hn : n ≠ 1) (r : Fin n) (c : Fin m) : broadcastTo ⟨2, ![n, m]⟩ x h (ix2 r c) = x (ix2 r 0) :=
  broadcastTo_apply x h (ix2 r c) (ix2 r 0) fun a => by
    match a with
    | ⟨0, _⟩ => show r.val = if n = 1 then 0 else r.val; rw [if_neg hn]
    | ⟨1, _⟩ => exact (if_pos rfl).symm

/-- A row `[1, m]` broadcast down the rows reads its column's entry. -/
theorem bcast_row_apply {n m : Nat} (x : (⟨2, ![1, m]⟩ : Shape).Idx → EReal) (h : (⟨2, ![1, m]⟩ : Shape).Broadcasts ⟨2, ![n, m]⟩)
    (hm : m ≠ 1) (r : Fin n) (c : Fin m) : broadcastTo ⟨2, ![n, m]⟩ x h (ix2 r c) = x (ix2 0 c) :=
  broadcastTo_apply x h (ix2 r c) (ix2 0 c) fun a => by
    match a with
    | ⟨0, _⟩ => exact (if_pos rfl).symm
    | ⟨1, _⟩ => show c.val = if m = 1 then 0 else c.val; rw [if_neg hm]

/-- The accumulation: at `(r, c)` the accumulator plus the sum over the block's columns of the folded adjacency entry times the scaled
    feature `v (k, c) · d (k)`. -/
theorem pay4_apply (i : grid0.Coords) (v3 : Vec Ideal S1024x2048 .f32) (v20 : Vec Ideal S2048x64 .f32) (v22 : Vec Ideal S2048x1 .f32)
    (v27 : Vec Ideal S1024x64 .f32) (r : Fin 1024) (c : Fin 64) :
    k0_pay4 (F := Ideal) i v3 v20 v22 v27 (ix2 r c)
      = v27 (ix2 r c) + ∑ k : Fin 2048, k0_pay3 (F := Ideal) i v3 (ix2 r k) * (v20 (ix2 k c) * v22 (ix2 k 0)) := by
  unfold k0_pay4
  simp only [shapeCast_self]
  show v27 (ix2 r c) + FloatOps.matmul (⟨[1], [0], [0], [1], [], [], dot_S1024x2048_S2048x64_S1024x64_1_0_0_1_n_n_wf⟩ : DotDims _ _ _) none
      (k0_pay3 (F := Ideal) i v3) (truncf .bf16 (mulf v20 (broadcastTo S2048x64 v22 broadcasts_S2048x1_S2048x64)) bitsLt_bf16_f32)
      (constant S1024x64 .f32 0x00000000#32) (ix2 r c) = _
  rw [matmul_plain_apply]
  show v27 (ix2 r c) + (Ideal.ofBits .f32 0x00000000#32 + ∑ k : Fin 2048, k0_pay3 (F := Ideal) i v3 (ix2 r k)
      * (v20 (ix2 k c) * broadcastTo S2048x64 v22 broadcasts_S2048x1_S2048x64 (ix2 k c))) = _
  rw [Ideal.ofBits_zero_f32, zero_add]
  refine congrArg (v27 (ix2 r c) + ·) (Finset.sum_congr rfl fun k _ => ?_)
  rw [bcast_col_apply v22 broadcasts_S2048x1_S2048x64 (by decide) (by decide) k c]

/-- The epilogue: at `(r, c)` the accumulator scaled by the row's factor, shifted by the bias, clamped below at zero. -/
theorem pay1_apply (v36 : Vec Ideal S1024x64 .f32) (v37 : Vec Ideal S1024x1 .f32) (v41 : Vec Ideal S1x64 .f32) (r : Fin 1024) (c : Fin 64) :
    k0_pay1 (F := Ideal) v36 v37 v41 (ix2 r c) = max (v36 (ix2 r c) * v37 (ix2 r 0) + v41 (ix2 0 c)) 0 := by
  unfold k0_pay1
  simp only [shapeCast_self]
  show max (v36 (ix2 r c) * broadcastTo S1024x64 v37 broadcasts_S1024x1_S1024x64 (ix2 r c)
      + broadcastTo S1024x64 v41 broadcasts_S1x64_S1024x64 (ix2 r c)) (Ideal.ofBits .f32 0x00000000#32) = _
  rw [bcast_col_apply v37 broadcasts_S1024x1_S1024x64 (by decide) (by decide) r c,
    bcast_row_apply v41 broadcasts_S1x64_S1024x64 (by decide) r c, Ideal.ofBits_zero_f32]

/-! ## The second region's payloads at an element -/

/-- The reset stores zero everywhere. -/
theorem pay1'_apply (j : S1024x16.Idx) : k1_pay1 (F := Ideal) j = 0 := by
  unfold k1_pay1
  simp only [shapeCast_self]
  show Ideal.ofBits .f32 0x00000000#32 = 0
  exact Ideal.ofBits_zero_f32

/-- The accumulation: at `(r, c)` the accumulator plus the sum over the block's columns of the matrix entry times the scaled feature
    `v (k, c) · d (k)`. -/
theorem pay2'_apply (v3 : Vec Ideal S4096x16 .f32) (v5 : Vec Ideal S4096x1 .f32) (v10 : Vec Ideal S1024x16 .f32)
    (v11 : Vec Ideal S1024x4096 .bf16) (r : Fin 1024) (c : Fin 16) :
    k1_pay2 (F := Ideal) v3 v5 v10 v11 (ix2 r c)
      = v10 (ix2 r c) + ∑ k : Fin 4096, v11 (ix2 r k) * (v3 (ix2 k c) * v5 (ix2 k 0)) := by
  unfold k1_pay2
  simp only [shapeCast_self]
  show v10 (ix2 r c) + FloatOps.matmul (F := Ideal) (⟨[1], [0], [0], [1], [], [], dot_S1024x4096_S4096x16_S1024x16_1_0_0_1_n_n_wf⟩ : DotDims _ _ _) none
      (v11 : FVec Ideal S1024x4096 .bf16) (truncf (F := Ideal) .bf16 (mulf v3 (broadcastTo S4096x16 v5 broadcasts_S4096x1_S4096x16)) bitsLt_bf16_f32)
      (constant S1024x16 .f32 0x00000000#32) (ix2 r c) = _
  rw [matmul_plain_apply]
  show v10 (ix2 r c) + (Ideal.ofBits .f32 0x00000000#32 + ∑ k : Fin 4096, v11 (ix2 r k)
      * (v3 (ix2 k c) * broadcastTo S4096x16 v5 broadcasts_S4096x1_S4096x16 (ix2 k c))) = _
  rw [Ideal.ofBits_zero_f32, zero_add]
  refine congrArg (v10 (ix2 r c) + ·) (Finset.sum_congr rfl fun k _ => ?_)
  rw [bcast_col_apply v5 broadcasts_S4096x1_S4096x16 (by decide) (by decide) k c]

/-- The epilogue: at `(r, c)` the accumulator scaled by the row's factor and shifted by the bias. -/
theorem pay3'_apply (v21 : Vec Ideal S1024x16 .f32) (v22 : Vec Ideal S1024x1 .f32) (v26 : Vec Ideal S1x16 .f32) (r : Fin 1024) (c : Fin 16) :
    k1_pay3 (F := Ideal) v21 v22 v26 (ix2 r c) = v21 (ix2 r c) * v22 (ix2 r 0) + v26 (ix2 0 c) := by
  unfold k1_pay3
  simp only [shapeCast_self]
  show v21 (ix2 r c) * broadcastTo S1024x16 v22 broadcasts_S1024x1_S1024x16 (ix2 r c)
      + broadcastTo S1024x16 v26 broadcasts_S1x16_S1024x16 (ix2 r c) = _
  rw [bcast_col_apply v22 broadcasts_S1024x1_S1024x16 (by decide) (by decide) r c,
    bcast_row_apply v26 broadcasts_S1x16_S1024x16 (by decide) r c]

/-! ## Arrays at natural coordinates, and the terms of the two layers' sums -/

/-- A rank-2 array read at natural coordinates: zero outside the array. -/
def at2 {n0 n1 : Nat} (X : (⟨2, ![n0, n1]⟩ : Shape).Idx → EReal) (a b : ℕ) : EReal :=
  if h : a < n0 ∧ b < n1 then X (ix2 ⟨a, h.1⟩ ⟨b, h.2⟩) else 0

theorem at2_eq {n0 n1 : Nat} (X : (⟨2, ![n0, n1]⟩ : Shape).Idx → EReal) (a : Fin n0) (b : Fin n1) :
    at2 X a.val b.val = X (ix2 a b) := dif_pos ⟨a.isLt, b.isLt⟩

/-- The first layer's term at global row `a`, feature `c`, global column `j`: the adjacency entry with the self-loop folded in,
    times the feature scaled by the column's factor. -/
def term0 (adj : S16384x16384.Idx → EReal) (feat : S16384x64.Idx → EReal) (rs : S16384x1.Idx → EReal) (a : ℕ) (c : Fin 64) (j : ℕ) : EReal :=
  (at2 adj a j + if a = j then 1 else 0) * (at2 feat j c.val * at2 rs j 0)

/-- The second layer's term: the matrix entry times the feature scaled by the column's factor. -/
def term1 (M : S16384x16384.Idx → EReal) (feat : S16384x16.Idx → EReal) (rs : S16384x1.Idx → EReal) (a : ℕ) (c : Fin 16) (j : ℕ) : EReal :=
  at2 M a j * (at2 feat j c.val * at2 rs j 0)

/-- The two grid coordinates of the first region's point `t`: the row block `t / 8` and the column tile `t % 8`. -/
theorem coords0 : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The second region's: the row block `t / 4` and the column tile `t % 4`. -/
theorem coords1 : ∀ t : Fin cfg1.N, (grid1.coords t 0).val = t.val / 4 ∧ (grid1.coords t 1).val = t.val % 4 :=
  (by decide +kernel : ∀ t : Fin grid1.N, (grid1.coords t 0).val = t.val / 4 ∧ (grid1.coords t 1).val = t.val % 4)

/-! ## The first region: the accumulator after each point is a partial sum over the column tiles -/

/-- What the first region's input blocks read at each point, as entries of the whole arrays: the adjacency block `(t / 8, t % 8)`, the
    feature and column-factor blocks `t % 8`, the row-factor block `t / 8`, the bias. -/
structure Reads0 (adj : S16384x16384.Idx → EReal) (feat : S16384x64.Idx → EReal) (rs : S16384x1.Idx → EReal) (bias : S1x64.Idx → EReal)
    (A : (n : ℕ) → n < cfg0.N → Vec Ideal S1024x2048 .f32) (Vf : (n : ℕ) → n < cfg0.N → Vec Ideal S2048x64 .f32)
    (Rr : (n : ℕ) → n < cfg0.N → Vec Ideal S1024x1 .f32) (Rc : (n : ℕ) → n < cfg0.N → Vec Ideal S2048x1 .f32)
    (B : (n : ℕ) → n < cfg0.N → Vec Ideal S1x64 .f32) : Prop where
  hA : ∀ n h (r : Fin 1024) (k : Fin 2048), A n h (ix2 r k) = at2 adj (1024 * (n / 8) + r.val) (2048 * (n % 8) + k.val)
  hV : ∀ n h (k : Fin 2048) (c : Fin 64), Vf n h (ix2 k c) = at2 feat (2048 * (n % 8) + k.val) c.val
  hRr : ∀ n h (r : Fin 1024), Rr n h (ix2 r 0) = at2 rs (1024 * (n / 8) + r.val) 0
  hRc : ∀ n h (k : Fin 2048), Rc n h (ix2 k 0) = at2 rs (2048 * (n % 8) + k.val) 0
  hB : ∀ n h (c : Fin 64), B n h (ix2 0 c) = at2 bias 0 c.val

section Acc0
variable {adj : S16384x16384.Idx → EReal} {feat : S16384x64.Idx → EReal} {rs : S16384x1.Idx → EReal} {bias : S1x64.Idx → EReal}
  {A : (n : ℕ) → n < cfg0.N → Vec Ideal S1024x2048 .f32} {Vf : (n : ℕ) → n < cfg0.N → Vec Ideal S2048x64 .f32}
  {Rr : (n : ℕ) → n < cfg0.N → Vec Ideal S1024x1 .f32} {Rc : (n : ℕ) → n < cfg0.N → Vec Ideal S2048x1 .f32}
  {B : (n : ℕ) → n < cfg0.N → Vec Ideal S1x64 .f32}

/-- The folded adjacency block the point stores, at an element: the folded adjacency at the global coordinates. -/
theorem Reads0.fold (H : Reads0 adj feat rs bias A Vf Rr Rc B) (n : ℕ) (h : n < cfg0.N) (r : Fin 1024) (k : Fin 2048) :
    k0_pay3 (F := Ideal) (grid0.coords ⟨n, h⟩) (A n h) (ix2 r k)
      = at2 adj (1024 * (n / 8) + r.val) (2048 * (n % 8) + k.val)
        + if 1024 * (n / 8) + r.val = 2048 * (n % 8) + k.val then 1 else 0 := by
  have hN : cfg0.N = 128 := N_0
  rw [pay3_apply (grid0.coords ⟨n, h⟩) (n / 8) (n % 8) (coords0 ⟨n, h⟩).1 (coords0 ⟨n, h⟩).2 (by omega) (by omega) (A n h) r k, H.hA]

/-- One point's step: the accumulator plus the tile's terms. -/
theorem Reads0.tile (H : Reads0 adj feat rs bias A Vf Rr Rc B) (n : ℕ) (h : n < cfg0.N) (acc : Vec Ideal S1024x64 .f32)
    (r : Fin 1024) (c : Fin 64) :
    k0_pay4 (F := Ideal) (grid0.coords ⟨n, h⟩) (A n h) (Vf n h) (Rc n h) acc (ix2 r c)
      = acc (ix2 r c) + ∑ k ∈ Finset.range 2048, term0 adj feat rs (1024 * (n / 8) + r.val) c (2048 * (n % 8) + k) := by
  rw [pay4_apply, Finset.sum_range]
  refine congrArg (acc (ix2 r c) + ·) (Finset.sum_congr rfl fun k _ => ?_)
  rw [H.fold n h r k, H.hV, H.hRc]
  rfl

/-- The accumulator after point `n` = (row block `n / 8`, column tile `n % 8`) holds, at row `r` of the block, the sum of the terms over the
    columns of the tiles `0 … n % 8`: by induction on the point, whatever sequence of contents resets at the multiples of 8 and steps elsewhere. -/
theorem Reads0.scratch (H : Reads0 adj feat rs bias A Vf Rr Rc B) (sc : (n : ℕ) → n < cfg0.N → Vec Ideal S1024x64 .f32)
    (h0 : ∀ n h, n % 8 = 0 → sc n h = k0_pay4 (F := Ideal) (grid0.coords ⟨n, h⟩) (A n h) (Vf n h) (Rc n h) (k0_pay2 (F := Ideal)))
    (hs : ∀ n (h : n + 1 < cfg0.N), ¬(n + 1) % 8 = 0 →
      sc (n + 1) h = k0_pay4 (F := Ideal) (grid0.coords ⟨n + 1, h⟩) (A (n + 1) h) (Vf (n + 1) h) (Rc (n + 1) h) (sc n (Nat.lt_of_succ_lt h))) :
    ∀ (n : ℕ) (h : n < cfg0.N) (r : Fin 1024) (c : Fin 64),
      sc n h (ix2 r c) = ∑ j ∈ Finset.range (2048 * (n % 8 + 1)), term0 adj feat rs (1024 * (n / 8) + r.val) c j := by
  intro n
  induction n with
  | zero =>
    intro h r c
    rw [h0 0 h rfl, H.tile 0 h, pay2_apply, zero_add]
    simp only [Nat.zero_mod, Nat.mul_zero, Nat.zero_add, Nat.mul_one, Nat.zero_div]
  | succ n ih =>
    intro h r c
    by_cases hm : (n + 1) % 8 = 0
    · rw [h0 (n + 1) h hm, H.tile (n + 1) h, pay2_apply, zero_add, hm]
      simp only [Nat.mul_zero, Nat.zero_add, Nat.mul_one]
    · rw [hs n h hm, H.tile (n + 1) h, ih (Nat.lt_of_succ_lt h) r c]
      have e1 : (n + 1) / 8 = n / 8 := by omega
      have e2 : (n + 1) % 8 = n % 8 + 1 := by omega
      rw [e1, e2, show 2048 * (n % 8 + 1 + 1) = 2048 * (n % 8 + 1) + 2048 by ring, Finset.sum_range_add]

/-- So the epilogue at a last tile's point stores, at row `r` of the block, the whole row's sum scaled by the row's factor, shifted by the
    bias and clamped. -/
theorem Reads0.out (H : Reads0 adj feat rs bias A Vf Rr Rc B) (sc : (n : ℕ) → n < cfg0.N → Vec Ideal S1024x64 .f32)
    (h0 : ∀ n h, n % 8 = 0 → sc n h = k0_pay4 (F := Ideal) (grid0.coords ⟨n, h⟩) (A n h) (Vf n h) (Rc n h) (k0_pay2 (F := Ideal)))
    (hs : ∀ n (h : n + 1 < cfg0.N), ¬(n + 1) % 8 = 0 →
      sc (n + 1) h = k0_pay4 (F := Ideal) (grid0.coords ⟨n + 1, h⟩) (A (n + 1) h) (Vf (n + 1) h) (Rc (n + 1) h) (sc n (Nat.lt_of_succ_lt h)))
    (n : ℕ) (h : n < cfg0.N) (h7 : n % 8 = 7) (r : Fin 1024) (c : Fin 64) :
    k0_pay1 (F := Ideal) (sc n h) (Rr n h) (B n h) (ix2 r c)
      = max ((∑ j ∈ Finset.range 16384, term0 adj feat rs (1024 * (n / 8) + r.val) c j) * at2 rs (1024 * (n / 8) + r.val) 0
          + at2 bias 0 c.val) 0 := by
  rw [pay1_apply, H.scratch sc h0 hs n h r c, H.hRr, H.hB, h7]

end Acc0

/-! ## The second region: the same, over four column tiles, with no self-loop and no clamp -/

/-- What the second region's input blocks read at each point, as entries of the whole arrays. -/
structure Reads1 (M : S16384x16384.Idx → EReal) (feat : S16384x16.Idx → EReal) (rs : S16384x1.Idx → EReal) (bias : S1x16.Idx → EReal)
    (A : (n : ℕ) → n < cfg1.N → Vec Ideal S1024x4096 .bf16) (Vf : (n : ℕ) → n < cfg1.N → Vec Ideal S4096x16 .f32)
    (Rr : (n : ℕ) → n < cfg1.N → Vec Ideal S1024x1 .f32) (Rc : (n : ℕ) → n < cfg1.N → Vec Ideal S4096x1 .f32)
    (B : (n : ℕ) → n < cfg1.N → Vec Ideal S1x16 .f32) : Prop where
  hA : ∀ n h (r : Fin 1024) (k : Fin 4096), A n h (ix2 r k) = at2 M (1024 * (n / 4) + r.val) (4096 * (n % 4) + k.val)
  hV : ∀ n h (k : Fin 4096) (c : Fin 16), Vf n h (ix2 k c) = at2 feat (4096 * (n % 4) + k.val) c.val
  hRr : ∀ n h (r : Fin 1024), Rr n h (ix2 r 0) = at2 rs (1024 * (n / 4) + r.val) 0
  hRc : ∀ n h (k : Fin 4096), Rc n h (ix2 k 0) = at2 rs (4096 * (n % 4) + k.val) 0
  hB : ∀ n h (c : Fin 16), B n h (ix2 0 c) = at2 bias 0 c.val

section Acc1
variable {M : S16384x16384.Idx → EReal} {feat : S16384x16.Idx → EReal} {rs : S16384x1.Idx → EReal} {bias : S1x16.Idx → EReal}
  {A : (n : ℕ) → n < cfg1.N → Vec Ideal S1024x4096 .bf16} {Vf : (n : ℕ) → n < cfg1.N → Vec Ideal S4096x16 .f32}
  {Rr : (n : ℕ) → n < cfg1.N → Vec Ideal S1024x1 .f32} {Rc : (n : ℕ) → n < cfg1.N → Vec Ideal S4096x1 .f32}
  {B : (n : ℕ) → n < cfg1.N → Vec Ideal S1x16 .f32}

/-- One point's step: the accumulator plus the tile's terms. -/
theorem Reads1.tile (H : Reads1 M feat rs bias A Vf Rr Rc B) (n : ℕ) (h : n < cfg1.N) (acc : Vec Ideal S1024x16 .f32)
    (r : Fin 1024) (c : Fin 16) :
    k1_pay2 (F := Ideal) (Vf n h) (Rc n h) acc (A n h) (ix2 r c)
      = acc (ix2 r c) + ∑ k ∈ Finset.range 4096, term1 M feat rs (1024 * (n / 4) + r.val) c (4096 * (n % 4) + k) := by
  rw [pay2'_apply, Finset.sum_range]
  refine congrArg (acc (ix2 r c) + ·) (Finset.sum_congr rfl fun k _ => ?_)
  rw [H.hA, H.hV, H.hRc]
  rfl

/-- The accumulator after point `n` = (row block `n / 4`, column tile `n % 4`): the partial sum over the tiles `0 … n % 4`. -/
theorem Reads1.scratch (H : Reads1 M feat rs bias A Vf Rr Rc B) (sc : (n : ℕ) → n < cfg1.N → Vec Ideal S1024x16 .f32)
    (h0 : ∀ n h, n % 4 = 0 → sc n h = k1_pay2 (F := Ideal) (Vf n h) (Rc n h) (k1_pay1 (F := Ideal)) (A n h))
    (hs : ∀ n (h : n + 1 < cfg1.N), ¬(n + 1) % 4 = 0 →
      sc (n + 1) h = k1_pay2 (F := Ideal) (Vf (n + 1) h) (Rc (n + 1) h) (sc n (Nat.lt_of_succ_lt h)) (A (n + 1) h)) :
    ∀ (n : ℕ) (h : n < cfg1.N) (r : Fin 1024) (c : Fin 16),
      sc n h (ix2 r c) = ∑ j ∈ Finset.range (4096 * (n % 4 + 1)), term1 M feat rs (1024 * (n / 4) + r.val) c j := by
  intro n
  induction n with
  | zero =>
    intro h r c
    rw [h0 0 h rfl, H.tile 0 h, pay1'_apply, zero_add]
    simp only [Nat.zero_mod, Nat.mul_zero, Nat.zero_add, Nat.mul_one, Nat.zero_div]
  | succ n ih =>
    intro h r c
    by_cases hm : (n + 1) % 4 = 0
    · rw [h0 (n + 1) h hm, H.tile (n + 1) h, pay1'_apply, zero_add, hm]
      simp only [Nat.mul_zero, Nat.zero_add, Nat.mul_one]
    · rw [hs n h hm, H.tile (n + 1) h, ih (Nat.lt_of_succ_lt h) r c]
      have e1 : (n + 1) / 4 = n / 4 := by omega
      have e2 : (n + 1) % 4 = n % 4 + 1 := by omega
      rw [e1, e2, show 4096 * (n % 4 + 1 + 1) = 4096 * (n % 4 + 1) + 4096 by ring, Finset.sum_range_add]

/-- The epilogue at a last tile's point: the whole row's sum scaled by the row's factor and shifted by the bias. -/
theorem Reads1.out (H : Reads1 M feat rs bias A Vf Rr Rc B) (sc : (n : ℕ) → n < cfg1.N → Vec Ideal S1024x16 .f32)
    (h0 : ∀ n h, n % 4 = 0 → sc n h = k1_pay2 (F := Ideal) (Vf n h) (Rc n h) (k1_pay1 (F := Ideal)) (A n h))
    (hs : ∀ n (h : n + 1 < cfg1.N), ¬(n + 1) % 4 = 0 →
      sc (n + 1) h = k1_pay2 (F := Ideal) (Vf (n + 1) h) (Rc (n + 1) h) (sc n (Nat.lt_of_succ_lt h)) (A (n + 1) h))
    (n : ℕ) (h : n < cfg1.N) (h3 : n % 4 = 3) (r : Fin 1024) (c : Fin 16) :
    k1_pay3 (F := Ideal) (sc n h) (Rr n h) (B n h) (ix2 r c)
      = (∑ j ∈ Finset.range 16384, term1 M feat rs (1024 * (n / 4) + r.val) c j) * at2 rs (1024 * (n / 4) + r.val) 0
          + at2 bias 0 c.val := by
  rw [pay3'_apply, H.scratch sc h0 hs n h r c, H.hRr, H.hB, h3]

end Acc1

end Cert.KernelIdeal.Hand

end
-- ==== Proof.KI.Spec.lean ====
/-
  What the two kernel regions compute, as plain functions on the extended reals, index by index.

  A is the 16384 x 16384 matrix scattered from the edge list, r the column of reciprocal square roots of the degrees (zero where the degree is
  not positive). Region 0 adds the identity to A tile by tile (`withLoops`), and for a feature matrix v and a bias row b leaves

      h (i, c) = max ((sum over j of (A + 1) (i, j) * (v (j, c) * r j)) * r i + b c) 0         (`layer1`)

  beside the matrix A + 1 itself; region 1, reading that matrix back, leaves

      out (i, c) = (sum over j of S (i, j) * (v (j, c) * r j)) * r i + b c                      (`layer2`).

  The order of the factors is the kernels': the features are scaled by r first, the product with the matrix follows, the row factor is applied
  to the finished sum. Each sum runs over all 16384 columns; the kernels reach it by adding the column tiles' partial sums one after the other.
-/
import proofs.«135561_j38560216383500_2_alg».proof.KernelIdeal
import Idealize.ShloMosaic.PureOps.Ideal
import Idealize.ShloMosaic.Lib.ValueIdx

noncomputable section

namespace Cert.KernelIdeal.Hand.Spec

open Idealize.ShloMosaic Idealize.ShloMosaic.ValueIdx Cert.KernelIdeal

/-- The matrix with a one added on the diagonal. -/
def withLoops (A : S16384x16384.Idx → EReal) : S16384x16384.Idx → EReal :=
  fun ij => A ij + if (ij 0).val = (ij 1).val then 1 else 0

/-- Row `row` of the matrix against column `col` of the features scaled by `r`: the sum over all 16384 columns of the matrix. -/
def conv {d : Nat} (S : S16384x16384.Idx → EReal) (v : (⟨2, ![16384, d]⟩ : Shape).Idx → EReal) (r : S16384x1.Idx → EReal)
    (row : Fin 16384) (col : Fin d) : EReal :=
  ∑ j : Fin 16384, S (ix2 row j) * (v (ix2 j col) * r (ix2 j (0 : Fin 1)))

/-- What region 0 leaves in its first result: the first layer, with the self loops added, the bias and the maximum with zero. -/
def layer1 (A : S16384x16384.Idx → EReal) (v : S16384x64.Idx → EReal) (r : S16384x1.Idx → EReal) (b : S1x64.Idx → EReal) :
    S16384x64.Idx → EReal :=
  fun ic => max (conv (d := 64) (withLoops A) v r (ic 0) (ic 1) * r (ix2 (n0 := 16384) (ic 0) (0 : Fin 1)) + b (ix2 (0 : Fin 1) (n1 := 64) (ic 1))) 0

/-- What region 1 leaves in the program's result: the second layer over the matrix region 0 wrote, no maximum. -/
def layer2 (S : S16384x16384.Idx → EReal) (v : S16384x16.Idx → EReal) (r : S16384x1.Idx → EReal) (b : S1x16.Idx → EReal) :
    S16384x16.Idx → EReal :=
  fun ic => conv (d := 16) S v r (ic 0) (ic 1) * r (ix2 (n0 := 16384) (ic 0) (0 : Fin 1)) + b (ix2 (0 : Fin 1) (n1 := 16) (ic 1))

end Cert.KernelIdeal.Hand.Spec

end
-- ==== Proof.KI.Value0.lean ====
/-
  The first region's windows at an element, and what the region leaves in its two result arrays as whole-array formulas.
-/
import proofs.«135561_j38560216383500_2_alg».proof.Proof.KI.R0Frame
import proofs.«135561_j38560216383500_2_alg».proof.Proof.KI.ValuePay
import proofs.«135561_j38560216383500_2_alg».proof.Proof.KI.Spec
import Idealize.ShloMosaic.Lib.Pipeline.Value

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

/-! ## The block index of each window at each point -/

theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)
theorem idx0_2 : ∀ t : Fin cfg0.N, win0_2.index t 0 = t.val / 8 ∧ win0_2.index t 1 = 0 :=
  (by decide +kernel : ∀ t : Fin grid0.N, win0_2.index t 0 = t.val / 8 ∧ win0_2.index t 1 = 0)
theorem idx0_3 : ∀ t : Fin cfg0.N, win0_3.index t 0 = t.val % 8 ∧ win0_3.index t 1 = 0 :=
  (by decide +kernel : ∀ t : Fin grid0.N, win0_3.index t 0 = t.val % 8 ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)
theorem idx0_5 : ∀ t : Fin cfg0.N, win0_5.index t 0 = t.val / 8 ∧ win0_5.index t 1 = 0 :=
  (by decide +kernel : ∀ t : Fin grid0.N, win0_5.index t 0 = t.val / 8 ∧ win0_5.index t 1 = 0)
theorem idx0_6 : ∀ t : Fin cfg0.N, win0_6.index t 0 = t.val / 8 ∧ win0_6.index t 1 = t.val % 8 :=
  (by decide +kernel : ∀ t : Fin grid0.N, win0_6.index t 0 = t.val / 8 ∧ win0_6.index t 1 = t.val % 8)

/-! ## The input windows' blocks at an element -/

variable (V : EntryV Ideal) (c : Dev nD)

/-- The adjacency block at point `t`: rows `1024 (t / 8) + r`, columns `2048 (t % 8) + k` of the array. -/
theorem iblk0_0_apply (t : Fin cfg0.N) (r : Fin 1024) (k : Fin 2048) :
    (iblk0 V c 0 t : Vec Ideal S1024x2048 .f32) (ix2 r k)
      = at2 (V c main_v23) (1024 * (t.val / 8) + r.val) (2048 * (t.val % 8) + k.val) := by
  have hi := idx0_0 t
  have hN : cfg0.N = 128 := N_0
  have ht := t.isLt
  have hr := r.isLt
  have hk := k.isLt
  unfold at2
  rw [dif_pos ⟨by omega, by omega⟩]
  unfold iblk0
  rw [View.read_apply]
  show V c main_v23 _ = V c main_v23 _
  congr 1
  funext a
  apply Fin.ext
  match a with
  | ⟨0, _⟩ => show win0_0.index t 0 * 1024 + 1 * r.val = 1024 * (t.val / 8) + r.val; rw [hi.1]; omega
  | ⟨1, _⟩ => show win0_0.index t 1 * 2048 + 1 * k.val = 2048 * (t.val % 8) + k.val; rw [hi.2]; omega

/-- The feature block at point `t`: rows `2048 (t % 8) + k` of the feature array. -/
theorem iblk0_1_apply (t : Fin cfg0.N) (k : Fin 2048) (col : Fin 64) :
    (iblk0 V c 1 t : Vec Ideal S2048x64 .f32) (ix2 k col) = at2 (V c main_v48) (2048 * (t.val % 8) + k.val) col.val := by
  have hi := idx0_1 t
  have hk := k.isLt
  have hc := col.isLt
  unfold at2
  rw [dif_pos ⟨by omega, by omega⟩]
  unfold iblk0
  rw [View.read_apply]
  show V c main_v48 _ = V c main_v48 _
  congr 1
  funext a
  apply Fin.ext
  match a with
  | ⟨0, _⟩ => show win0_1.index t 0 * 2048 + 1 * k.val = 2048 * (t.val % 8) + k.val; rw [hi.1]; omega
  | ⟨1, _⟩ => show win0_1.index t 1 * 64 + 1 * col.val = col.val; rw [hi.2]; omega

/-- The row-factor block at point `t`: rows `1024 (t / 8) + r` of the column of factors. -/
theorem iblk0_2_apply (t : Fin cfg0.N) (r : Fin 1024) :
    (iblk0 V c 2 t : Vec Ideal S1024x1 .f32) (ix2 r 0) = at2 (V c main_v47) (1024 * (t.val / 8) + r.val) 0 := by
  have hi := idx0_2 t
  have hN : cfg0.N = 128 := N_0
  have ht := t.isLt
  have hr := r.isLt
  unfold at2
  rw [dif_pos ⟨by omega, by omega⟩]
  unfold iblk0
  rw [View.read_apply]
  show V c main_v47 _ = V c main_v47 _
  congr 1
  funext a
  apply Fin.ext
  match a with
  | ⟨0, _⟩ => show win0_2.index t 0 * 1024 + 1 * r.val = 1024 * (t.val / 8) + r.val; rw [hi.1]; omega
  | ⟨1, _⟩ => show win0_2.index t 1 * 1 + 1 * 0 = 0; rw [hi.2]

/-- The column-factor block at point `t`: rows `2048 (t % 8) + k` of the same column. -/
theorem iblk0_3_apply (t : Fin cfg0.N) (k : Fin 2048) :
    (iblk0 V c 3 t : Vec Ideal S2048x1 .f32) (ix2 k 0) = at2 (V c main_v47) (2048 * (t.val % 8) + k.val) 0 := by
  have hi := idx0_3 t
  have hk := k.isLt
  unfold at2
  rw [dif_pos ⟨by omega, by omega⟩]
  unfold iblk0
  rw [View.read_apply]
  show V c main_v47 _ = V c main_v47 _
  congr 1
  funext a
  apply Fin.ext
  match a with
  | ⟨0, _⟩ => show win0_3.index t 0 * 2048 + 1 * k.val = 2048 * (t.val % 8) + k.val; rw [hi.1]; omega
  | ⟨1, _⟩ => show win0_3.index t 1 * 1 + 1 * 0 = 0; rw [hi.2]

/-- The bias block at every point: the bias row. -/
theorem iblk0_4_apply (t : Fin cfg0.N) (col : Fin 64) :
    (iblk0 V c 4 t : Vec Ideal S1x64 .f32) (ix2 0 col) = at2 (V c main_v49) 0 col.val := by
  have hi := idx0_4 t
  have hc := col.isLt
  unfold at2
  rw [dif_pos ⟨by omega, by omega⟩]
  unfold iblk0
  rw [View.read_apply]
  show V c main_v49 _ = V c main_v49 _
  congr 1
  funext a
  apply Fin.ext
  match a with
  | ⟨0, _⟩ => show win0_4.index t 0 * 1 + 1 * 0 = 0; rw [hi.1]
  | ⟨1, _⟩ => show win0_4.index t 1 * 64 + 1 * col.val = col.val; rw [hi.2]; omega

/-- So the region's input blocks read the whole arrays as the accumulation expects. -/
theorem reads0 : Reads0 (V c main_v23) (V c main_v48) (V c main_v47) (V c main_v49)
    (fun n h => iblk0 V c 0 ⟨n, h⟩) (fun n h => iblk0 V c 1 ⟨n, h⟩) (fun n h => iblk0 V c 2 ⟨n, h⟩)
    (fun n h => iblk0 V c 3 ⟨n, h⟩) (fun n h => iblk0 V c 4 ⟨n, h⟩) where
  hA n h r k := iblk0_0_apply V c ⟨n, h⟩ r k
  hV n h k col := iblk0_1_apply V c ⟨n, h⟩ k col
  hRr n h r := iblk0_2_apply V c ⟨n, h⟩ r
  hRc n h k := iblk0_3_apply V c ⟨n, h⟩ k
  hB n h col := iblk0_4_apply V c ⟨n, h⟩ col

/-! ## The accumulator's two equations -/

theorem acc0_reset (n : ℕ) (h : n < cfg0.N) (hm : n % 8 = 0) :
    acc0 V c n h = k0_pay4 (F := Ideal) (grid0.coords ⟨n, h⟩) (iblk0 V c 0 ⟨n, h⟩) (iblk0 V c 1 ⟨n, h⟩) (iblk0 V c 3 ⟨n, h⟩)
      (k0_pay2 (F := Ideal)) := by
  cases n with
  | zero => rfl
  | succ n =>
    show k0_pay4 (F := Ideal) _ _ _ _ (if (n + 1) % 8 = 0 then k0_pay2 (F := Ideal) else acc0 V c n (Nat.lt_of_succ_lt h)) = _
    rw [if_pos hm]

theorem acc0_step (n : ℕ) (h : n + 1 < cfg0.N) (hm : ¬(n + 1) % 8 = 0) :
    acc0 V c (n + 1) h = k0_pay4 (F := Ideal) (grid0.coords ⟨n + 1, h⟩) (iblk0 V c 0 ⟨n + 1, h⟩) (iblk0 V c 1 ⟨n + 1, h⟩)
      (iblk0 V c 3 ⟨n + 1, h⟩) (acc0 V c n (Nat.lt_of_succ_lt h)) := by
  show k0_pay4 (F := Ideal) _ _ _ _ (if (n + 1) % 8 = 0 then k0_pay2 (F := Ideal) else acc0 V c n (Nat.lt_of_succ_lt h)) = _
  rw [if_neg hm]

/-! ## The two whole-array formulas at an element -/

/-- The first layer's formula at `(a, col)`, its sum written over the naturals below 16384. -/
theorem layer1_apply (A : S16384x16384.Idx → EReal) (v : S16384x64.Idx → EReal) (rs : S16384x1.Idx → EReal) (b : S1x64.Idx → EReal)
    (a : Fin 16384) (col : Fin 64) :
    Spec.layer1 A v rs b (ix2 a col)
      = max ((∑ j ∈ Finset.range 16384, term0 A v rs a.val col j) * at2 rs a.val 0 + at2 b 0 col.val) 0 := by
  have hsum : ∑ j ∈ Finset.range 16384, term0 A v rs a.val col j
      = ∑ j : Fin 16384, Spec.withLoops A (ix2 a j) * (v (ix2 j col) * rs (ix2 j (0 : Fin 1))) := by
    rw [Finset.sum_range]
    refine Finset.sum_congr rfl fun j _ => ?_
    have e3 : at2 rs j.val 0 = rs (ix2 j (0 : Fin 1)) := at2_eq rs j 0
    unfold term0 Spec.withLoops
    rw [at2_eq, at2_eq, e3]
  have e1 : at2 rs a.val 0 = rs (ix2 a (0 : Fin 1)) := at2_eq rs a 0
  have e2 : at2 b 0 col.val = b (ix2 (0 : Fin 1) col) := at2_eq b 0 col
  rw [hsum, e1, e2]
  rfl

/-- The matrix with the self-loops at `(a, j)`. -/
theorem withLoops_apply (A : S16384x16384.Idx → EReal) (a j : Fin 16384) :
    Spec.withLoops A (ix2 a j) = at2 A a.val j.val + if a.val = j.val then 1 else 0 := by
  rw [at2_eq]
  rfl

/-! ## What each write-back writes is the formula's block -/

/-- At the last tile of a row block the first output's buffer holds the formula's rows of that block. -/
theorem flushed0_5 (t : Fin cfg0.N) (hf : (cfg0.win 5).flush t = true) :
    (dat0 V c).flushed 5 t
      = ((cfg0.win 5).blk t).view.read (Elt Ideal) (Spec.layer1 (V c main_v23) (V c main_v48) (V c main_v47) (V c main_v49)) := by
  have h7 : t.val % 8 = 7 := (flush0_5 t).mp hf
  have hi := idx0_5 t
  have hN : cfg0.N = 128 := N_0
  have ht := t.isLt
  show (dat0 V c).after 5 t = _
  rw [after0_out5]
  show k0_pay1 (F := Ideal) (acc0 V c t.val t.isLt) (iblk0 V c 2 ⟨t.val, t.isLt⟩) (iblk0 V c 4 ⟨t.val, t.isLt⟩) = _
  funext y
  obtain ⟨r, col, rfl⟩ : ∃ (r : Fin 1024) (col : Fin 64), y = ix2 r col := ⟨y 0, y 1, eq_ix2 y⟩
  have hr := r.isLt
  refine ((reads0 V c).out (acc0 V c) (acc0_reset V c) (acc0_step V c) t.val t.isLt h7 r col).trans ?_
  rw [View.read_apply]
  have he : ((cfg0.win 5).blk t).view.emb (ix2 r col)
      = (ix2 (⟨1024 * (t.val / 8) + r.val, by omega⟩ : Fin 16384) col : S16384x64.Idx) := by
    funext a
    apply Fin.ext
    match a with
    | ⟨0, _⟩ => show win0_5.index t 0 * 1024 + 1 * r.val = 1024 * (t.val / 8) + r.val; rw [hi.1]; omega
    | ⟨1, _⟩ => show win0_5.index t 1 * 64 + 1 * col.val = col.val; rw [hi.2]; omega
  show _ = Spec.layer1 (V c main_v23) (V c main_v48) (V c main_v47) (V c main_v49) (((cfg0.win 5).blk t).view.emb (ix2 r col))
  rw [he, layer1_apply]

/-- At every point the second output's buffer holds the block of the matrix with the self-loops. -/
theorem flushed0_6 (t : Fin cfg0.N) (hf : (cfg0.win 6).flush t = true) :
    (dat0 V c).flushed 6 t = ((cfg0.win 6).blk t).view.read (Elt Ideal) (Spec.withLoops (V c main_v23)) := by
  have hi := idx0_6 t
  have hN : cfg0.N = 128 := N_0
  have ht := t.isLt
  show (dat0 V c).after 6 t = _
  rw [after0_out6]
  show k0_pay3 (F := Ideal) (grid0.coords ⟨t.val, t.isLt⟩) (iblk0 V c 0 ⟨t.val, t.isLt⟩) = _
  funext y
  obtain ⟨r, k, rfl⟩ : ∃ (r : Fin 1024) (k : Fin 2048), y = ix2 r k := ⟨y 0, y 1, eq_ix2 y⟩
  have hr := r.isLt
  have hk := k.isLt
  refine ((reads0 V c).fold t.val t.isLt r k).trans ?_
  rw [View.read_apply]
  have he : ((cfg0.win 6).blk t).view.emb (ix2 r k)
      = (ix2 (⟨1024 * (t.val / 8) + r.val, by omega⟩ : Fin 16384) (⟨2048 * (t.val % 8) + k.val, by omega⟩ : Fin 16384) : S16384x16384.Idx) := by
    funext a
    apply Fin.ext
    match a with
    | ⟨0, _⟩ => show win0_6.index t 0 * 1024 + 1 * r.val = 1024 * (t.val / 8) + r.val; rw [hi.1]; omega
    | ⟨1, _⟩ => show win0_6.index t 1 * 2048 + 1 * k.val = 2048 * (t.val % 8) + k.val; rw [hi.2]; omega
  show _ = Spec.withLoops (V c main_v23) (((cfg0.win 6).blk t).view.emb (ix2 r k))
  rw [he, withLoops_apply]

/-! ## The write-backs cover the arrays -/

theorem cover0_5 (i : S16384x64.Idx) : ∃ t : Fin cfg0.N, (cfg0.win 5).flush t = true ∧ i ∈ ((cfg0.win 5).blk t).view.set := by
  have h0 : (i 0).val < 16384 := (i 0).isLt
  have h1 : (i 1).val < 64 := (i 1).isLt
  have hN : cfg0.N = 128 := N_0
  have hlt : 8 * ((i 0).val / 1024) + 7 < cfg0.N := by omega
  refine ⟨⟨8 * ((i 0).val / 1024) + 7, hlt⟩, (flush0_5 _).mpr (by show (8 * ((i 0).val / 1024) + 7) % 8 = 7; omega), ?_⟩
  have hi := idx0_5 ⟨8 * ((i 0).val / 1024) + 7, hlt⟩
  show i ∈ ((View.whole main_v50_0).slice (win0_5.rect ⟨8 * ((i 0).val / 1024) + 7, hlt⟩)).set
  rw [View.set_slice_whole, Rect.mem_set_unit]
  intro a
  match a with
  | ⟨0, _⟩ =>
    show win0_5.index ⟨8 * ((i 0).val / 1024) + 7, _⟩ 0 * 1024 ≤ (i 0).val ∧ (i 0).val < win0_5.index ⟨8 * ((i 0).val / 1024) + 7, _⟩ 0 * 1024 + 1024
    rw [hi.1]; show (8 * ((i 0).val / 1024) + 7) / 8 * 1024 ≤ (i 0).val ∧ (i 0).val < (8 * ((i 0).val / 1024) + 7) / 8 * 1024 + 1024; omega
  | ⟨1, _⟩ =>
    show win0_5.index ⟨8 * ((i 0).val / 1024) + 7, _⟩ 1 * 64 ≤ (i 1).val ∧ (i 1).val < win0_5.index ⟨8 * ((i 0).val / 1024) + 7, _⟩ 1 * 64 + 64
    rw [hi.2]; omega

theorem cover0_6 (i : S16384x16384.Idx) : ∃ t : Fin cfg0.N, (cfg0.win 6).flush t = true ∧ i ∈ ((cfg0.win 6).blk t).view.set := by
  have h0 : (i 0).val < 16384 := (i 0).isLt
  have h1 : (i 1).val < 16384 := (i 1).isLt
  have hN : cfg0.N = 128 := N_0
  have hlt : 8 * ((i 0).val / 1024) + (i 1).val / 2048 < cfg0.N := by omega
  refine ⟨⟨8 * ((i 0).val / 1024) + (i 1).val / 2048, hlt⟩, flush0_6 _, ?_⟩
  have hi := idx0_6 ⟨8 * ((i 0).val / 1024) + (i 1).val / 2048, hlt⟩
  show i ∈ ((View.whole main_v50_1).slice (win0_6.rect ⟨8 * ((i 0).val / 1024) + (i 1).val / 2048, hlt⟩)).set
  rw [View.set_slice_whole, Rect.mem_set_unit]
  intro a
  match a with
  | ⟨0, _⟩ =>
    show win0_6.index ⟨8 * ((i 0).val / 1024) + (i 1).val / 2048, _⟩ 0 * 1024 ≤ (i 0).val
      ∧ (i 0).val < win0_6.index ⟨8 * ((i 0).val / 1024) + (i 1).val / 2048, _⟩ 0 * 1024 + 1024
    rw [hi.1]
    show (8 * ((i 0).val / 1024) + (i 1).val / 2048) / 8 * 1024 ≤ (i 0).val
      ∧ (i 0).val < (8 * ((i 0).val / 1024) + (i 1).val / 2048) / 8 * 1024 + 1024
    omega
  | ⟨1, _⟩ =>
    show win0_6.index ⟨8 * ((i 0).val / 1024) + (i 1).val / 2048, _⟩ 1 * 2048 ≤ (i 1).val
      ∧ (i 1).val < win0_6.index ⟨8 * ((i 0).val / 1024) + (i 1).val / 2048, _⟩ 1 * 2048 + 2048
    rw [hi.2]
    show (8 * ((i 0).val / 1024) + (i 1).val / 2048) % 8 * 2048 ≤ (i 1).val
      ∧ (i 1).val < (8 * ((i 0).val / 1024) + (i 1).val / 2048) % 8 * 2048 + 2048
    omega

/-! ## The region's two results -/

/-- The first result array ends holding the first layer. -/
theorem region0_h : (dat0 (F := Ideal) V c).arrAt 5 cfg0.N
    = Spec.layer1 (V c main_v23) (V c main_v48) (V c main_v47) (V c main_v49) :=
  (dat0 V c).arrAt_eq_of_cover 5 (Spec.layer1 (V c main_v23) (V c main_v48) (V c main_v47) (V c main_v49)) (flushed0_5 V c) cover0_5

/-- The second result array ends holding the matrix with the self-loops. -/
theorem region0_S : (dat0 (F := Ideal) V c).arrAt 6 cfg0.N = Spec.withLoops (V c main_v23) :=
  (dat0 V c).arrAt_eq_of_cover 6 (Spec.withLoops (V c main_v23)) (flushed0_6 V c) cover0_6

end Cert.KernelIdeal.Hand

end
-- ==== Proof.KI.Value1.lean ====
/-
  The second region's windows at an element, and what the region leaves in the program's result array as a whole-array formula.
-/
import proofs.«135561_j38560216383500_2_alg».proof.Proof.KI.R1Frame
import proofs.«135561_j38560216383500_2_alg».proof.Proof.KI.ValuePay
import proofs.«135561_j38560216383500_2_alg».proof.Proof.KI.Spec
import Idealize.ShloMosaic.Lib.Pipeline.Value

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen
open scoped BigOperators

/-! ## The block index of each window at each point -/

theorem idx1_0 : ∀ t : Fin cfg1.N, win1_0.index t 0 = t.val / 4 ∧ win1_0.index t 1 = t.val % 4 :=
  (by decide +kernel : ∀ t : Fin grid1.N, win1_0.index t 0 = t.val / 4 ∧ win1_0.index t 1 = t.val % 4)
theorem idx1_1 : ∀ t : Fin cfg1.N, win1_1.index t 0 = t.val % 4 ∧ win1_1.index t 1 = 0 :=
  (by decide +kernel : ∀ t : Fin grid1.N, win1_1.index t 0 = t.val % 4 ∧ win1_1.index t 1 = 0)
theorem idx1_2 : ∀ t : Fin cfg1.N, win1_2.index t 0 = t.val / 4 ∧ win1_2.index t 1 = 0 :=
  (by decide +kernel : ∀ t : Fin grid1.N, win1_2.index t 0 = t.val / 4 ∧ win1_2.index t 1 = 0)
theorem idx1_3 : ∀ t : Fin cfg1.N, win1_3.index t 0 = t.val % 4 ∧ win1_3.index t 1 = 0 :=
  (by decide +kernel : ∀ t : Fin grid1.N, win1_3.index t 0 = t.val % 4 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = t.val / 4 ∧ win1_5.index t 1 = 0 :=
  (by decide +kernel : ∀ t : Fin grid1.N, win1_5.index t 0 = t.val / 4 ∧ win1_5.index t 1 = 0)

/-! ## The input windows' blocks at an element -/

variable (V : EntryV Ideal) (c : Dev nD)

/-- The matrix block at point `t`: rows `1024 (t / 4) + r`, columns `4096 (t % 4) + k` of the array. -/
theorem iblk1_0_apply (t : Fin cfg1.N) (r : Fin 1024) (k : Fin 4096) :
    (iblk1 V c 0 t : Vec Ideal S1024x4096 .bf16) (ix2 r k)
      = at2 (V c main_v50_1) (1024 * (t.val / 4) + r.val) (4096 * (t.val % 4) + k.val) := by
  have hi := idx1_0 t
  have hN : cfg1.N = 64 := N_1
  have ht := t.isLt
  have hr := r.isLt
  have hk := k.isLt
  unfold at2
  rw [dif_pos ⟨by omega, by omega⟩]
  unfold iblk1
  rw [View.read_apply]
  show V c main_v50_1 _ = V c main_v50_1 _
  congr 1
  funext a
  apply Fin.ext
  match a with
  | ⟨0, _⟩ => show win1_0.index t 0 * 1024 + 1 * r.val = 1024 * (t.val / 4) + r.val; rw [hi.1]; omega
  | ⟨1, _⟩ => show win1_0.index t 1 * 4096 + 1 * k.val = 4096 * (t.val % 4) + k.val; rw [hi.2]; omega

/-- The feature block at point `t`: rows `4096 (t % 4) + k` of the feature array. -/
theorem iblk1_1_apply (t : Fin cfg1.N) (k : Fin 4096) (col : Fin 16) :
    (iblk1 V c 1 t : Vec Ideal S4096x16 .f32) (ix2 k col) = at2 (V c main_v51) (4096 * (t.val % 4) + k.val) col.val := by
  have hi := idx1_1 t
  have hk := k.isLt
  have hc := col.isLt
  unfold at2
  rw [dif_pos ⟨by omega, by omega⟩]
  unfold iblk1
  rw [View.read_apply]
  show V c main_v51 _ = V c main_v51 _
  congr 1
  funext a
  apply Fin.ext
  match a with
  | ⟨0, _⟩ => show win1_1.index t 0 * 4096 + 1 * k.val = 4096 * (t.val % 4) + k.val; rw [hi.1]; omega
  | ⟨1, _⟩ => show win1_1.index t 1 * 16 + 1 * col.val = col.val; rw [hi.2]; omega

/-- The row-factor block at point `t`: rows `1024 (t / 4) + r` of the column of factors. -/
theorem iblk1_2_apply (t : Fin cfg1.N) (r : Fin 1024) :
    (iblk1 V c 2 t : Vec Ideal S1024x1 .f32) (ix2 r 0) = at2 (V c main_v47) (1024 * (t.val / 4) + r.val) 0 := by
  have hi := idx1_2 t
  have hN : cfg1.N = 64 := N_1
  have ht := t.isLt
  have hr := r.isLt
  unfold at2
  rw [dif_pos ⟨by omega, by omega⟩]
  unfold iblk1
  rw [View.read_apply]
  show V c main_v47 _ = V c main_v47 _
  congr 1
  funext a
  apply Fin.ext
  match a with
  | ⟨0, _⟩ => show win1_2.index t 0 * 1024 + 1 * r.val = 1024 * (t.val / 4) + r.val; rw [hi.1]; omega
  | ⟨1, _⟩ => show win1_2.index t 1 * 1 + 1 * 0 = 0; rw [hi.2]

/-- The column-factor block at point `t`: rows `4096 (t % 4) + k` of the same column. -/
theorem iblk1_3_apply (t : Fin cfg1.N) (k : Fin 4096) :
    (iblk1 V c 3 t : Vec Ideal S4096x1 .f32) (ix2 k 0) = at2 (V c main_v47) (4096 * (t.val % 4) + k.val) 0 := by
  have hi := idx1_3 t
  have hk := k.isLt
  unfold at2
  rw [dif_pos ⟨by omega, by omega⟩]
  unfold iblk1
  rw [View.read_apply]
  show V c main_v47 _ = V c main_v47 _
  congr 1
  funext a
  apply Fin.ext
  match a with
  | ⟨0, _⟩ => show win1_3.index t 0 * 4096 + 1 * k.val = 4096 * (t.val % 4) + k.val; rw [hi.1]; omega
  | ⟨1, _⟩ => show win1_3.index t 1 * 1 + 1 * 0 = 0; rw [hi.2]

/-- The bias block at every point: the bias row. -/
theorem iblk1_4_apply (t : Fin cfg1.N) (col : Fin 16) :
    (iblk1 V c 4 t : Vec Ideal S1x16 .f32) (ix2 0 col) = at2 (V c main_v52) 0 col.val := by
  have hi := idx1_4 t
  have hc := col.isLt
  unfold at2
  rw [dif_pos ⟨by omega, by omega⟩]
  unfold iblk1
  rw [View.read_apply]
  show V c main_v52 _ = V c main_v52 _
  congr 1
  funext a
  apply Fin.ext
  match a with
  | ⟨0, _⟩ => show win1_4.index t 0 * 1 + 1 * 0 = 0; rw [hi.1]
  | ⟨1, _⟩ => show win1_4.index t 1 * 16 + 1 * col.val = col.val; rw [hi.2]; omega

/-- So the region's input blocks read the whole arrays as the accumulation expects. -/
theorem reads1 : Reads1 (V c main_v50_1) (V c main_v51) (V c main_v47) (V c main_v52)
    (fun n h => iblk1 V c 0 ⟨n, h⟩) (fun n h => iblk1 V c 1 ⟨n, h⟩) (fun n h => iblk1 V c 2 ⟨n, h⟩)
    (fun n h => iblk1 V c 3 ⟨n, h⟩) (fun n h => iblk1 V c 4 ⟨n, h⟩) where
  hA n h r k := iblk1_0_apply V c ⟨n, h⟩ r k
  hV n h k col := iblk1_1_apply V c ⟨n, h⟩ k col
  hRr n h r := iblk1_2_apply V c ⟨n, h⟩ r
  hRc n h k := iblk1_3_apply V c ⟨n, h⟩ k
  hB n h col := iblk1_4_apply V c ⟨n, h⟩ col

/-! ## The accumulator's two equations, and the output at a last tile -/

/-- The accumulator after point `n`. -/
def sc1 (n : ℕ) (h : n < cfg1.N) : Vec Ideal S1024x16 .f32 := (outsAt1 V c n h).2

/-- The contents after a later point, by the three cases of its column tile. -/
theorem v1_outs_succ (n : ℕ) (h : n + 1 < cfg1.N) :
    outsAt1 V c (n + 1) h =
      if (n + 1) % 4 = 0 then (k1_pay1 (F := Ideal), acc1 V c ⟨n + 1, h⟩ (k1_pay1 (F := Ideal)))
      else if (n + 1) % 4 = 3 then
        (fin1 V c ⟨n + 1, h⟩ (acc1 V c ⟨n + 1, h⟩ (outsAt1 V c n (Nat.lt_of_succ_lt h)).2),
          acc1 V c ⟨n + 1, h⟩ (outsAt1 V c n (Nat.lt_of_succ_lt h)).2)
      else (k1_pay1 (F := Ideal), acc1 V c ⟨n + 1, h⟩ (outsAt1 V c n (Nat.lt_of_succ_lt h)).2) := rfl

theorem sc1_reset (n : ℕ) (h : n < cfg1.N) (hm : n % 4 = 0) :
    sc1 V c n h = k1_pay2 (F := Ideal) (iblk1 V c 1 ⟨n, h⟩) (iblk1 V c 3 ⟨n, h⟩) (k1_pay1 (F := Ideal)) (iblk1 V c 0 ⟨n, h⟩) := by
  cases n with
  | zero => rfl
  | succ n =>
    unfold sc1
    rw [v1_outs_succ, if_pos hm]
    rfl

theorem sc1_step (n : ℕ) (h : n + 1 < cfg1.N) (hm : ¬(n + 1) % 4 = 0) :
    sc1 V c (n + 1) h = k1_pay2 (F := Ideal) (iblk1 V c 1 ⟨n + 1, h⟩) (iblk1 V c 3 ⟨n + 1, h⟩) (sc1 V c n (Nat.lt_of_succ_lt h))
      (iblk1 V c 0 ⟨n + 1, h⟩) := by
  unfold sc1
  rw [v1_outs_succ, if_neg hm]
  by_cases h3 : (n + 1) % 4 = 3
  · rw [if_pos h3]; rfl
  · rw [if_neg h3]; rfl

theorem v1_out_last (n : ℕ) (h : n + 1 < cfg1.N) (h3 : (n + 1) % 4 = 3) :
    (outsAt1 V c (n + 1) h).1
      = k1_pay3 (F := Ideal) (sc1 V c (n + 1) h) (iblk1 V c 2 ⟨n + 1, h⟩) (iblk1 V c 4 ⟨n + 1, h⟩) := by
  unfold sc1
  rw [v1_outs_succ, if_neg (by omega), if_pos h3]
  rfl

theorem out1_last (t : Fin cfg1.N) (h3 : t.val % 4 = 3) :
    (outsAt1 V c t.val t.isLt).1 = k1_pay3 (F := Ideal) (sc1 V c t.val t.isLt) (iblk1 V c 2 t) (iblk1 V c 4 t) := by
  obtain ⟨tv, ht⟩ := t
  cases tv with
  | zero => exact absurd (show (0 : ℕ) % 4 = 3 from h3) (by decide)
  | succ n => exact v1_out_last V c n ht h3

/-- The output's buffer after the body at point `t`. -/
theorem v1_after_out (t : Fin cfg1.N) : (dat1 V c).after 5 t = (outsAt1 V c t.val t.isLt).1 := by dsimp only [dat1]

/-! ## The whole-array formula at an element -/

/-- The second layer's formula at `(a, col)`, its sum written over the naturals below 16384. -/
theorem layer2_apply (S : S16384x16384.Idx → EReal) (v : S16384x16.Idx → EReal) (rs : S16384x1.Idx → EReal) (b : S1x16.Idx → EReal)
    (a : Fin 16384) (col : Fin 16) :
    Spec.layer2 S v rs b (ix2 a col)
      = (∑ j ∈ Finset.range 16384, term1 S v rs a.val col j) * at2 rs a.val 0 + at2 b 0 col.val := by
  have hsum : ∑ j ∈ Finset.range 16384, term1 S v rs a.val col j
      = ∑ j : Fin 16384, S (ix2 a j) * (v (ix2 j col) * rs (ix2 j (0 : Fin 1))) := by
    rw [Finset.sum_range]
    refine Finset.sum_congr rfl fun j _ => ?_
    have e3 : at2 rs j.val 0 = rs (ix2 j (0 : Fin 1)) := at2_eq rs j 0
    unfold term1
    rw [at2_eq, at2_eq, e3]
  have e1 : at2 rs a.val 0 = rs (ix2 a (0 : Fin 1)) := at2_eq rs a 0
  have e2 : at2 b 0 col.val = b (ix2 (0 : Fin 1) col) := at2_eq b 0 col
  rw [hsum, e1, e2]
  rfl

/-! ## What the write-back writes is the formula's block -/

/-- At the last tile of a row block the output's buffer holds the formula's rows of that block. -/
theorem flushed1_5 (t : Fin cfg1.N) (hf : (cfg1.win 5).flush t = true) :
    (dat1 V c).flushed 5 t
      = ((cfg1.win 5).blk t).view.read (Elt Ideal) (Spec.layer2 (V c main_v50_1) (V c main_v51) (V c main_v47) (V c main_v52)) := by
  have h3 : t.val % 4 = 3 := (flush1_5 t).mp hf
  have hi := idx1_5 t
  have hN : cfg1.N = 64 := N_1
  have ht := t.isLt
  show (dat1 V c).after 5 t = _
  rw [v1_after_out, out1_last V c t h3]
  funext y
  obtain ⟨r, col, rfl⟩ : ∃ (r : Fin 1024) (col : Fin 16), y = ix2 r col := ⟨y 0, y 1, eq_ix2 y⟩
  have hr := r.isLt
  refine ((reads1 V c).out (sc1 V c) (sc1_reset V c) (sc1_step V c) t.val t.isLt h3 r col).trans ?_
  rw [View.read_apply]
  have he : ((cfg1.win 5).blk t).view.emb (ix2 r col)
      = (ix2 (⟨1024 * (t.val / 4) + r.val, by omega⟩ : Fin 16384) col : S16384x16.Idx) := by
    funext a
    apply Fin.ext
    match a with
    | ⟨0, _⟩ => show win1_5.index t 0 * 1024 + 1 * r.val = 1024 * (t.val / 4) + r.val; rw [hi.1]; omega
    | ⟨1, _⟩ => show win1_5.index t 1 * 16 + 1 * col.val = col.val; rw [hi.2]; omega
  show _ = Spec.layer2 (V c main_v50_1) (V c main_v51) (V c main_v47) (V c main_v52) (((cfg1.win 5).blk t).view.emb (ix2 r col))
  rw [he, layer2_apply]

/-! ## The write-backs cover the array -/

theorem cover1_5 (i : S16384x16.Idx) : ∃ t : Fin cfg1.N, (cfg1.win 5).flush t = true ∧ i ∈ ((cfg1.win 5).blk t).view.set := by
  have h0 : (i 0).val < 16384 := (i 0).isLt
  have h1 : (i 1).val < 16 := (i 1).isLt
  have hN : cfg1.N = 64 := N_1
  have hlt : 4 * ((i 0).val / 1024) + 3 < cfg1.N := by omega
  refine ⟨⟨4 * ((i 0).val / 1024) + 3, hlt⟩, (flush1_5 _).mpr (by show (4 * ((i 0).val / 1024) + 3) % 4 = 3; omega), ?_⟩
  have hi := idx1_5 ⟨4 * ((i 0).val / 1024) + 3, hlt⟩
  show i ∈ ((View.whole main_v53).slice (win1_5.rect ⟨4 * ((i 0).val / 1024) + 3, hlt⟩)).set
  rw [View.set_slice_whole, Rect.mem_set_unit]
  intro a
  match a with
  | ⟨0, _⟩ =>
    show win1_5.index ⟨4 * ((i 0).val / 1024) + 3, _⟩ 0 * 1024 ≤ (i 0).val ∧ (i 0).val < win1_5.index ⟨4 * ((i 0).val / 1024) + 3, _⟩ 0 * 1024 + 1024
    rw [hi.1]; show (4 * ((i 0).val / 1024) + 3) / 4 * 1024 ≤ (i 0).val ∧ (i 0).val < (4 * ((i 0).val / 1024) + 3) / 4 * 1024 + 1024; omega
  | ⟨1, _⟩ =>
    show win1_5.index ⟨4 * ((i 0).val / 1024) + 3, _⟩ 1 * 16 ≤ (i 1).val ∧ (i 1).val < win1_5.index ⟨4 * ((i 0).val / 1024) + 3, _⟩ 1 * 16 + 16
    rw [hi.2]; omega

/-! ## The region's result -/

/-- The program's result array ends holding the second layer. -/
theorem region1_out : (dat1 (F := Ideal) V c).arrAt 5 cfg1.N
    = Spec.layer2 (V c main_v50_1) (V c main_v51) (V c main_v47) (V c main_v52) :=
  (dat1 V c).arrAt_eq_of_cover 5 (Spec.layer2 (V c main_v50_1) (V c main_v51) (V c main_v47) (V c main_v52)) (flushed1_5 V c) cover1_5

end Cert.KernelIdeal.Hand

end
-- ==== Proof.KI.BridgeScatter.lean ====
/-
  A scatter-add of scalars, read at an index (over the extended reals, where the sum of the colliding updates is exact).

  The update of number `e` carries a start index read off the index array: for a matrix operand the two words
  `idx (e, 0)`, `idx (e, 1)`, for a vector operand the one word `idx (e, 0)`, each read SIGNED and not clamped. It is added
  to the operand's element whose coordinates are exactly those integers, and is dropped when an integer is outside the operand.
  So the result at `i` is the operand at `i` plus the sum, over all updates `e`, of `[start e = i] upd e`.
-/
import Idealize.ShloMosaic.PureOps.Ideal
import Idealize.ShloMosaic.Lib.ValueIdx

noncomputable section

namespace Cert.KernelIdeal.Hand.Bridge

open Idealize.ShloMosaic Idealize.ShloMosaic.ValueIdx

/-- The indices of a vector are its coordinates. -/
def idxEquiv1 {n : Nat} : (⟨1, ![n]⟩ : Shape).Idx ≃ Fin n where
  toFun i := i 0
  invFun a := ix1 a
  left_inv i := (eq_ix1 i).symm
  right_inv _ := rfl

/-- A sum over the indices of a vector is the sum over its coordinates. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A matrix operand: two start coordinates per update -/

section Two

/-- The dimension numbers of a scatter of `E` scalars into an `n x n'` matrix: no window axes, both operand axes named by the
    two components of the start index, which lie along axis 1 of the `E x 2` index array. -/
def d2 (E n n' : Nat) (h : ScatterDims.WF (⟨2, ![n, n']⟩ : Shape) (⟨2, ![E, 2]⟩ : Shape) (⟨1, ![E]⟩ : Shape) [] [0, 1] [0, 1] 1) :
    ScatterDims (⟨2, ![n, n']⟩ : Shape) (⟨2, ![E, 2]⟩ : Shape) (⟨1, ![E]⟩ : Shape) where
  updateWindowDims := []
  insertedWindowDims := [0, 1]
  scatterDimsToOperandDims := [0, 1]
  indexVectorDim := 1
  wf := h

variable {E n n' : Nat} (h : ScatterDims.WF (⟨2, ![n, n']⟩ : Shape) (⟨2, ![E, 2]⟩ : Shape) (⟨1, ![E]⟩ : Shape) [] [0, 1] [0, 1] 1)

theorem d2_siIdx (j : (⟨1, ![E]⟩ : Shape).Idx) (c : Fin 2) : (d2 E n n' h).siIdx j ⟨c.val, c.isLt⟩ = ix2 (j 0) c := by
  funext a
  apply Fin.ext
  match a with
  | ⟨0, _⟩ => rfl
  | ⟨1, _⟩ => rfl

theorem d2_sKept : (d2 E n n' h).sKept = [] := rfl

theorem d2_window (j : (⟨1, ![E]⟩ : Shape).Idx) (a : Fin 2) : (d2 E n n' h).window j a = 0 := by
  unfold ScatterDims.window
  rw [dif_neg]
  rw [d2_sKept]; exact List.not_mem_nil

theorem d2_start {w : Nat} (j : (⟨1, ![E]⟩ : Shape).Idx) (idx : IVec (⟨2, ![E, 2]⟩ : Shape) w) (a : Fin 2) :
    (d2 E n n' h).start j idx a = (idx (ix2 (j 0) a)).toInt := by
  unfold ScatterDims.start
  match a with
  | ⟨0, _⟩ =>
    rw [dif_pos (show (⟨0, _⟩ : Fin 2) ∈ (d2 E n n' h).scatterDimsToOperandDims from List.mem_cons_self ..)]
    exact congrArg (fun z => (idx z).toInt) (d2_siIdx h j 0)
  | ⟨1, _⟩ =>
    rw [dif_pos (show (⟨1, _⟩ : Fin 2) ∈ (d2 E n n' h).scatterDimsToOperandDims from List.mem_cons_of_mem _ (List.mem_cons_self ..))]
    exact congrArg (fun z => (idx z).toInt) (d2_siIdx h j 1)

/-- Update `j` lands at `i` exactly when its two start coordinates, read signed, are `i`'s. -/
theorem d2_resultIdx_eq_some {w : Nat} (j : (⟨1, ![E]⟩ : Shape).Idx) (idx : IVec (⟨2, ![E, 2]⟩ : Shape) w) (i : (⟨2, ![n, n']⟩ : Shape).Idx) :
    (d2 E n n' h).resultIdx? j idx = some i ↔ (idx (ix2 (j 0) 0)).toInt = ((i 0).val : Int) ∧ (idx (ix2 (j 0) 1)).toInt = ((i 1).val : Int) := by
  unfold ScatterDims.resultIdx?
  simp only [d2_start, d2_window]
  constructor
  · intro hh
    split at hh
    · next hc =>
      have := Option.some.inj hh
      have h0 := congrArg (fun f => (f 0).val) this
      have h1 := congrArg (fun f => (f 1).val) this
      simp only at h0 h1
      have c0 := hc 0; have c1 := hc 1
      constructor <;> omega
    · exact absurd hh (by simp)
  · rintro ⟨h0, h1⟩
    have hc : ∀ a : Fin 2, 0 ≤ (idx (ix2 (j 0) a)).toInt + ((0 : Nat) : Int) ∧ (idx (ix2 (j 0) a)).toInt + ((0 : Nat) : Int) < (((⟨2, ![n, n']⟩ : Shape).size a : Nat) : Int) := by
      intro a
      match a with
      | ⟨0, _⟩ =>
        have : (i 0).val < n := (i 0).isLt
        show 0 ≤ (idx (ix2 (j 0) 0)).toInt + ((0 : Nat) : Int) ∧ (idx (ix2 (j 0) 0)).toInt + ((0 : Nat) : Int) < ((n : Nat) : Int)
        constructor <;> omega
      | ⟨1, _⟩ =>
        have : (i 1).val < n' := (i 1).isLt
        show 0 ≤ (idx (ix2 (j 0) 1)).toInt + ((0 : Nat) : Int) ∧ (idx (ix2 (j 0) 1)).toInt + ((0 : Nat) : Int) < ((n' : Nat) : Int)
        constructor <;> omega
    rw [dif_pos hc]
    congr 1
    funext a
    apply Fin.ext
    match a with
    | ⟨0, _⟩ => show ((idx (ix2 (j 0) 0)).toInt + ((0:Nat):Int)).toNat = (i 0).val; omega
    | ⟨1, _⟩ => show ((idx (ix2 (j 0) 1)).toInt + ((0:Nat):Int)).toNat = (i 1).val; omega

/-- The scatter-add into a matrix at `i`: the operand there plus the updates whose start index is `i`. -/
theorem scatterAdd2_apply {w : Nat} (x : (⟨2, ![n, n']⟩ : Shape).Idx → EReal) (idx : IVec (⟨2, ![E, 2]⟩ : Shape) w)
    (upd : (⟨1, ![E]⟩ : Shape).Idx → EReal) (i : (⟨2, ![n, n']⟩ : Shape).Idx) :
    Ideal.hostScatterAdd (d2 E n n' h) x idx upd i
      = x i + ∑ e : Fin E, if (idx (ix2 e 0)).toInt = ((i 0).val : Int) ∧ (idx (ix2 e 1)).toInt = ((i 1).val : Int) then upd (ix1 e) else 0 := by
  unfold Ideal.hostScatterAdd
  rw [Finset.sum_filter, sum_idx1]
  refine congrArg (x i + ·) (Finset.sum_congr rfl fun e _ => ?_)
  exact if_congr (d2_resultIdx_eq_some h (ix1 e) idx i) rfl rfl

end Two

/-! ## A vector operand: one start coordinate per update -/

section One

/-- The dimension numbers of a scatter of `E` scalars into a vector of `n`: no window axes, the operand's axis named by the
    one component of the start index, which lies along axis 1 of the `E x 1` index array. -/
def d1 (E n : Nat) (h : ScatterDims.WF (⟨1, ![n]⟩ : Shape) (⟨2, ![E, 1]⟩ : Shape) (⟨1, ![E]⟩ : Shape) [] [0] [0] 1) :
    ScatterDims (⟨1, ![n]⟩ : Shape) (⟨2, ![E, 1]⟩ : Shape) (⟨1, ![E]⟩ : Shape) where
  updateWindowDims := []
  insertedWindowDims := [0]
  scatterDimsToOperandDims := [0]
  indexVectorDim := 1
  wf := h

variable {E n : Nat} (h : ScatterDims.WF (⟨1, ![n]⟩ : Shape) (⟨2, ![E, 1]⟩ : Shape) (⟨1, ![E]⟩ : Shape) [] [0] [0] 1)

theorem d1_siIdx (j : (⟨1, ![E]⟩ : Shape).Idx) : (d1 E n h).siIdx j ⟨0, Nat.one_pos⟩ = ix2 (j 0) (0 : Fin 1) := by
  funext a
  apply Fin.ext
  match a with
  | ⟨0, _⟩ => rfl
  | ⟨1, _⟩ => rfl

theorem d1_sKept : (d1 E n h).sKept = [] := rfl

theorem d1_window (j : (⟨1, ![E]⟩ : Shape).Idx) (a : Fin 1) : (d1 E n h).window j a = 0 := by
  unfold ScatterDims.window
  rw [dif_neg]
  rw [d1_sKept]; exact List.not_mem_nil

theorem d1_start {w : Nat} (j : (⟨1, ![E]⟩ : Shape).Idx) (idx : IVec (⟨2, ![E, 1]⟩ : Shape) w) (a : Fin 1) :
    (d1 E n h).start j idx a = (idx (ix2 (j 0) (0 : Fin 1))).toInt := by
  unfold ScatterDims.start
  match a with
  | ⟨0, _⟩ =>
    rw [dif_pos (show (⟨0, _⟩ : Fin 1) ∈ (d1 E n h).scatterDimsToOperandDims from List.mem_cons_self ..)]
    exact congrArg (fun z => (idx z).toInt) (d1_siIdx h j)

/-- Update `j` lands at `i` exactly when its start coordinate, read signed, is `i`'s. -/
theorem d1_resultIdx_eq_some {w : Nat} (j : (⟨1, ![E]⟩ : Shape).Idx) (idx : IVec (⟨2, ![E, 1]⟩ : Shape) w) (i : (⟨1, ![n]⟩ : Shape).Idx) :
    (d1 E n h).resultIdx? j idx = some i ↔ (idx (ix2 (j 0) (0 : Fin 1))).toInt = ((i 0).val : Int) := by
  unfold ScatterDims.resultIdx?
  simp only [d1_start, d1_window]
  constructor
  · intro hh
    split at hh
    · next hc =>
      have := Option.some.inj hh
      have h0 := congrArg (fun f => (f 0).val) this
      simp only at h0
      have c0 := hc 0
      omega
    · exact absurd hh (by simp)
  · intro h0
    have hc : ∀ a : Fin 1, 0 ≤ (idx (ix2 (j 0) (0 : Fin 1))).toInt + ((0 : Nat) : Int) ∧ (idx (ix2 (j 0) (0 : Fin 1))).toInt + ((0 : Nat) : Int) < (((⟨1, ![n]⟩ : Shape).size a : Nat) : Int) := by
      intro a
      match a with
      | ⟨0, _⟩ =>
        have : (i 0).val < n := (i 0).isLt
        show 0 ≤ (idx (ix2 (j 0) (0 : Fin 1))).toInt + ((0 : Nat) : Int) ∧ (idx (ix2 (j 0) (0 : Fin 1))).toInt + ((0 : Nat) : Int) < ((n : Nat) : Int)
        constructor <;> omega
    rw [dif_pos hc]
    congr 1
    funext a
    apply Fin.ext
    match a with
    | ⟨0, _⟩ => show ((idx (ix2 (j 0) (0 : Fin 1))).toInt + ((0:Nat):Int)).toNat = (i 0).val; omega

/-- The scatter-add into a vector at `i`: the operand there plus the updates whose start index is `i`. -/
theorem scatterAdd1_apply {w : Nat} (x : (⟨1, ![n]⟩ : Shape).Idx → EReal) (idx : IVec (⟨2, ![E, 1]⟩ : Shape) w)
    (upd : (⟨1, ![E]⟩ : Shape).Idx → EReal) (i : (⟨1, ![n]⟩ : Shape).Idx) :
    Ideal.hostScatterAdd (d1 E n h) x idx upd i
      = x i + ∑ e : Fin E, if (idx (ix2 e (0 : Fin 1))).toInt = ((i 0).val : Int) then upd (ix1 e) else 0 := by
  unfold Ideal.hostScatterAdd
  rw [Finset.sum_filter, sum_idx1]
  refine congrArg (x i + ·) (Finset.sum_congr rfl fun e _ => ?_)
  exact if_congr (d1_resultIdx_eq_some h (ix1 e) idx i) rfl rfl

end One

end Cert.KernelIdeal.Hand.Bridge

end
-- ==== Proof.LibEdgeAdjacency.lean ====
/-
  A dense adjacency built from an edge list, and the symmetric normalization of a graph convolution moved across its sum.

  An edge list is two maps `row col : E → N` into the nodes and a weight `h : E → M`. The symmetrized adjacency adds the weight of
  edge `e` at the entry `(row e, col e)` and again at `(col e, row e)`:

      adj i j = ∑ e, [row e = i ∧ col e = j] h e + ∑ e, [col e = i ∧ row e = j] h e.

  * `sum_two_copies`: a sum over two copies of the edge list, the second with the two ends swapped, is the sum of the two sums
    (adding all the updates of both directions in one pass, or in two passes, gives the same matrix).
  * `sum_adj_row`: the sum of row `i` of the adjacency is the total weight of the edges that start at `i` plus the total weight of
    those that end at `i`. Here it matters that EVERY end of every edge is a node: the inner sum over the columns `j` of
    `[col e = j]` is one because `col e` is one of the `j`. (With an end outside the node set the entry is never written, while a
    sum over the edges alone still counts the edge: then the two sides differ.)
  * `norm_sum`: for real data, `(∑ j, a j * (v j * d j)) * di = ∑ j, ((di * a j) * d j) * v j` on the extended reals: scaling the
    columns before the product and the rows after it is the product with the matrix scaled on both sides. Distributing a factor
    over a sum of extended reals fails at infinities, so the statement is for real numbers, where it is `Finset.sum_mul` and `ring`.

  Only commutative-monoid laws are used in the first two (they hold on the extended reals with no finiteness).
-/
import Mathlib.Algebra.BigOperators.Group.Finset.Basic
import Mathlib.Algebra.BigOperators.Ring.Finset
import Mathlib.Algebra.BigOperators.Group.Finset.Sigma
import Mathlib.Data.Fintype.BigOperators
import Mathlib.Data.EReal.Operations

namespace Cert.Lib.EdgeAdjacency

open Finset

section Monoid

variable {M : Type*} [AddCommMonoid M] {E N : Type*} [Fintype E] [Fintype N] [DecidableEq N]

/-- The symmetrized adjacency of an edge list: the weight of each edge at `(row, col)` and at `(col, row)`. -/
def adj (row col : E → N) (h : E → M) (i j : N) : M :=
  (∑ e, if row e = i ∧ col e = j then h e else 0) + ∑ e, if col e = i ∧ row e = j then h e else 0

/-- A sum over two copies of the edge list is the sum over the first copy plus the sum over the second. -/
theorem sum_two_copies (f : E ⊕ E → M) : ∑ u, f u = ∑ e, f (Sum.inl e) + ∑ e, f (Sum.inr e) :=
  Fintype.sum_sum_type f

/-- Summing `[p ∧ c = j] x` over all `j` leaves `[p] x`: `c` is one of the `j`. -/
theorem sum_and_eq (p : Prop) [Decidable p] (c : N) (x : M) :
    (∑ j, if p ∧ c = j then x else 0) = if p then x else 0 := by
  by_cases hp : p
  · simp only [hp, true_and, if_true]
    exact Finset.sum_ite_eq Finset.univ c (fun _ => x) |>.trans (by simp)
  · simp only [hp, false_and, if_false, Finset.sum_const_zero]

/-- The sum of row `i` of the adjacency: the weight that starts at `i` plus the weight that ends at `i`. -/
theorem sum_adj_row (row col : E → N) (h : E → M) (i : N) :
    ∑ j, adj row col h i j = (∑ e, if row e = i then h e else 0) + ∑ e, if col e = i then h e else 0 := by
  unfold adj
  rw [Finset.sum_add_distrib, Finset.sum_comm, Finset.sum_comm (f := fun j e => if col e = i ∧ row e = j then h e else 0)]
  congr 1 <;> exact Finset.sum_congr rfl fun e _ => sum_and_eq _ _ _

end Monoid

section Real

variable {ι : Type*} [Fintype ι]

/-- The coercion of a finite sum of reals is the sum of the coercions. -/
theorem coe_sum (f : ι → ℝ) : ((∑ j, f j : ℝ) : EReal) = ∑ j, (f j : EReal) := by
  classical
  refine Finset.induction_on (Finset.univ : Finset ι) (by simp) fun a s ha ih => ?_
  rw [Finset.sum_insert ha, Finset.sum_insert ha, EReal.coe_add, ih]

/-- Columns scaled by `d` before the product and the row scaled by `di` after it, against the matrix scaled on both sides. -/
theorem norm_sum (a v d : ι → ℝ) (di : ℝ) :
    (∑ j, (a j : EReal) * ((v j : EReal) * (d j : EReal))) * (di : EReal)
      = ∑ j, (((di : EReal) * (a j : EReal)) * (d j : EReal)) * (v j : EReal) := by
  have hl : (∑ j, (a j : EReal) * ((v j : EReal) * (d j : EReal))) = ((∑ j, a j * (v j * d j) : ℝ) : EReal) := by
    rw [coe_sum]; exact Finset.sum_congr rfl fun j _ => by rw [EReal.coe_mul, EReal.coe_mul]
  have hr : (∑ j, (((di : EReal) * (a j : EReal)) * (d j : EReal)) * (v j : EReal)) = ((∑ j, di * a j * d j * v j : ℝ) : EReal) := by
    rw [coe_sum]; exact Finset.sum_congr rfl fun j _ => by rw [EReal.coe_mul, EReal.coe_mul, EReal.coe_mul]
  rw [hl, hr, ← EReal.coe_mul, Finset.sum_mul]
  exact congrArg _ (Finset.sum_congr rfl fun j _ => by ring)

end Real

end Cert.Lib.EdgeAdjacency
-- ==== Proof.KI.BridgeMath.lean ====
/-
  The two-layer graph convolution as two formulas over the extended reals, and why they agree on real data.

  From an edge list `row col : E → N` with half weights `hw : E → EReal`: the symmetrized adjacency `adj` (the weight of edge `e`
  at `(row e, col e)` and at `(col e, row e)`), `S = adj + 1` (the identity matrix), the degree `d i = ∑ j, S i j`, and the factor
  `r i = 1 / sqrt (d i)` where `d i > 0`, else `0`.

  * The degree: summing the rows of `S` (from `0`), or `1` plus the weight starting at `i` plus the weight ending at `i` — the same
    extended real, by commutative-monoid laws only (`degKer_eq_degRef`).
  * One layer: `(∑ j, S i j * (v j c * r j)) * r i + b c` (columns scaled before the product, the row after) against
    `(∑ j, ((r i * S i j) * r j) * v j c) + b c` (the product with the matrix scaled on both sides) — equal when `S`, `r`, `v` are
    real (`layer_eq`), false in general at infinities.
  * Two layers with the maximum with `0` between them and a plain product by `W2`: `gcn_eq`.
-/
import proofs.«135561_j38560216383500_2_alg».proof.Proof.LibEdgeAdjacency
import Idealize.ShloMosaic.PureOps.Ideal
import Idealize.ShloMosaic.PureOps.Ideal.Laws

noncomputable section

namespace Cert.KernelIdeal.Hand.Bridge

open Finset Cert.Lib.EdgeAdjacency Idealize.ShloMosaic

/-! ## Real numbers among the extended reals -/

/-- An extended real that is a real number. -/
def IsReal (x : EReal) : Prop := ∃ r : ℝ, x = (r : EReal)

namespace IsReal

theorem coe (r : ℝ) : IsReal (r : EReal) := ⟨r, rfl⟩
theorem zero : IsReal 0 := ⟨0, EReal.coe_zero.symm⟩
theorem one : IsReal 1 := ⟨1, EReal.coe_one.symm⟩
theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem max {x y : EReal} (hx : IsReal x) (hy : IsReal y) : IsReal (Max.max x y) := by
  rcases max_choice x y with h | h <;> rw [h] <;> assumption
theorem ite {p : Prop} [Decidable p] {x y : EReal} (hx : IsReal x) (hy : IsReal y) : IsReal (if p then x else y) := by
  split <;> assumption
theorem sum {ι : Type*} (s : Finset ι) (f : ι → EReal) (h : ∀ j ∈ s, IsReal (f j)) : IsReal (∑ j ∈ s, f j) :=
  Finset.sum_induction f IsReal (fun _ _ => add) zero h

end IsReal

/-! ## The degree, two ways -/

section Degree

variable {E N : Type*} [Fintype E] [Fintype N] [DecidableEq N] (row col : E → N) (hw : E → EReal)

/-- The adjacency with the self loops: `adj + 1`. -/
def S (i j : N) : EReal := adj row col hw i j + if i = j then 1 else 0

/-- The degree as the sum, from `0`, of row `i` of `S`. -/
def degRef (i : N) : EReal := 0 + ∑ k, S row col hw i k

/-- The degree from the edge list: `1`, plus (from `0`) the weight of the edges starting at `i`, plus (from `0`) the weight of those ending at `i`. -/
def degKer (i : N) : EReal := (1 + (0 + ∑ e, if row e = i then hw e else 0)) + (0 + ∑ e, if col e = i then hw e else 0)

theorem degKer_eq_degRef (i : N) : degKer row col hw i = degRef row col hw i := by
  have key : ∀ a b : EReal, (1 + a) + b = (a + b) + 1 := fun a b => by
    rw [add_comm 1 a, add_assoc, add_comm 1 b, ← add_assoc]
  unfold degKer degRef S
  rw [Finset.sum_add_distrib, sum_adj_row, Finset.sum_ite_eq Finset.univ i (fun _ => (1 : EReal)), if_pos (Finset.mem_univ i),
    zero_add, zero_add, zero_add]
  exact key _ _

theorem adj_isReal (h : ∀ e, IsReal (hw e)) (i j : N) : IsReal (adj row col hw i j) :=
  (IsReal.sum _ _ fun e _ => IsReal.ite (h e) IsReal.zero).add (IsReal.sum _ _ fun e _ => IsReal.ite (h e) IsReal.zero)

theorem S_isReal (h : ∀ e, IsReal (hw e)) (i j : N) : IsReal (S row col hw i j) :=
  (adj_isReal row col hw h i j).add (IsReal.ite IsReal.one IsReal.zero)

theorem degRef_isReal (h : ∀ e, IsReal (hw e)) (i : N) : IsReal (degRef row col hw i) :=
  IsReal.zero.add (IsReal.sum _ _ fun k _ => S_isReal row col hw h i k)

end Degree

/-! ## The reciprocal square root of the degree -/

/-- `1 / sqrt d` where `d > 0`, else `0`, as both programs spell it: a selection by the comparison with the zero pattern. -/
def rOf (d : EReal) : EReal :=
  Scalar.select (FloatOps.cmpf (F := Ideal) (φ := .f32) .ogt d (FloatOps.ofBits (F := Ideal) .f32 0x00000000#32))
    (FloatOps.hostUnary (F := Ideal) (φ := .f32) .rsqrt d) (FloatOps.ofBits (F := Ideal) .f32 0x00000000#32)

theorem rOf_isReal {d : EReal} (hd : IsReal d) : IsReal (rOf d) := by
  obtain ⟨x, rfl⟩ := hd
  unfold rOf Scalar.select
  show IsReal (if Ideal.cmp .ogt (x : EReal) (Ideal.ofBits .f32 0x00000000#32) = 1 then Ideal.rsqrt (x : EReal) else Ideal.ofBits .f32 0x00000000#32)
  rw [Ideal.ofBits_zero_f32]
  split
  · next hc =>
    have hpos : (0 : ℝ) < x := by
      by_contra hn
      have hn' : ¬ ((0 : EReal) < (x : EReal)) := fun h => hn (by exact_mod_cast h)
      change BitVec.ofBool (decide ((0 : EReal) < (x : EReal))) = 1 at hc
      rw [decide_eq_false hn'] at hc
      exact absurd hc (by decide)
    rw [Ideal.rsqrt_coe, if_neg (not_lt.2 hpos.le), if_neg hpos.ne']
    exact IsReal.coe _
  · exact IsReal.zero

/-! ## One layer -/

section Layer

variable {ι : Type*} [Fintype ι]

/-- Columns scaled by `r` before the product and the row scaled by `ri` after it, against the matrix scaled on both sides: for real data. -/
theorem layer_eq (S v r : ι → EReal) (ri : EReal) (hS : ∀ j, IsReal (S j)) (hv : ∀ j, IsReal (v j)) (hr : ∀ j, IsReal (r j))
    (hri : IsReal ri) : (∑ j, S j * (v j * r j)) * ri = ∑ j, ((ri * S j) * r j) * v j := by
  choose S' hS' using hS
  choose v' hv' using hv
  choose r' hr' using hr
  obtain ⟨ri', rfl⟩ := hri
  obtain rfl : S = fun j => ((S' j : ℝ) : EReal) := funext hS'
  obtain rfl : v = fun j => ((v' j : ℝ) : EReal) := funext hv'
  obtain rfl : r = fun j => ((r' j : ℝ) : EReal) := funext hr'
  exact norm_sum S' v' r' ri'

theorem layer_isReal (S v r : ι → EReal) (ri b : EReal) (hS : ∀ j, IsReal (S j)) (hv : ∀ j, IsReal (v j)) (hr : ∀ j, IsReal (r j))
    (hri : IsReal ri) (hb : IsReal b) : IsReal ((∑ j, S j * (v j * r j)) * ri + b) :=
  ((IsReal.sum _ _ fun j _ => (hS j).mul ((hv j).mul (hr j))).mul hri).add hb

end Layer

/-! ## Two layers -/

section Gcn

variable {N K C : Type*} [Fintype N] [Fintype K] [Fintype C]

/-- One layer, columns scaled before the product and the row after it (the accumulating form). -/
def layerK (S : N → N → EReal) (r : N → EReal) (v : N → K → EReal) (b : K → EReal) (i : N) (c : K) : EReal :=
  (∑ j, S i j * (v j c * r j)) * r i + b c

/-- One layer as the product with the normalized matrix `r i * S i j * r j`. -/
def layerR (S : N → N → EReal) (r : N → EReal) (v : N → K → EReal) (b : K → EReal) (i : N) (c : K) : EReal :=
  (∑ j, ((r i * S i j) * r j) * v j c) + b c

theorem layerK_eq_layerR (S : N → N → EReal) (r : N → EReal) (v : N → K → EReal) (b : K → EReal)
    (hS : ∀ i j, IsReal (S i j)) (hr : ∀ i, IsReal (r i)) (hv : ∀ j c, IsReal (v j c)) (i : N) (c : K) :
    layerK S r v b i c = layerR S r v b i c := by
  unfold layerK layerR
  rw [layer_eq (S i) (fun j => v j c) r (r i) (hS i) (fun j => hv j c) hr (hr i)]

theorem layerK_isReal (S : N → N → EReal) (r : N → EReal) (v : N → K → EReal) (b : K → EReal)
    (hS : ∀ i j, IsReal (S i j)) (hr : ∀ i, IsReal (r i)) (hv : ∀ j c, IsReal (v j c)) (hb : ∀ c, IsReal (b c)) (i : N) (c : K) :
    IsReal (layerK S r v b i c) :=
  layer_isReal (S i) (fun j => v j c) r (r i) (b c) (hS i) (fun j => hv j c) hr (hr i) (hb c)

/-- The features of the second layer: the first layer's result, its maximum with `0`, times `W2`. -/
def hidden (L : N → K → EReal) (W2 : K → C → EReal) (j : N) (c : C) : EReal := ∑ l, Max.max (L j l) 0 * W2 l c

/-- Both layers, each in the accumulating form. -/
def gcnK (S : N → N → EReal) (r : N → EReal) (v : N → K → EReal) (b1 : K → EReal) (W2 : K → C → EReal) (b2 : C → EReal) (i : N) (c : C) : EReal :=
  layerK S r (hidden (layerK S r v b1) W2) b2 i c

/-- Both layers, each as the product with the normalized matrix. -/
def gcnR (S : N → N → EReal) (r : N → EReal) (v : N → K → EReal) (b1 : K → EReal) (W2 : K → C → EReal) (b2 : C → EReal) (i : N) (c : C) : EReal :=
  layerR S r (hidden (layerR S r v b1) W2) b2 i c

theorem gcnK_eq_gcnR (S : N → N → EReal) (r : N → EReal) (v : N → K → EReal) (b1 : K → EReal) (W2 : K → C → EReal) (b2 : C → EReal)
    (hS : ∀ i j, IsReal (S i j)) (hr : ∀ i, IsReal (r i)) (hv : ∀ j c, IsReal (v j c)) (hb1 : ∀ c, IsReal (b1 c))
    (hW2 : ∀ l c, IsReal (W2 l c)) (i : N) (c : C) :
    gcnK S r v b1 W2 b2 i c = gcnR S r v b1 W2 b2 i c := by
  unfold gcnK gcnR
  have e1 : layerK S r v b1 = layerR S r v b1 := funext fun j => funext fun l => layerK_eq_layerR S r v b1 hS hr hv j l
  rw [← e1]
  refine layerK_eq_layerR S r _ b2 hS hr (fun j c => ?_) i c
  exact IsReal.sum _ _ fun l _ => ((layerK_isReal S r v b1 hS hr hv hb1 j l).max IsReal.zero).mul (hW2 l c)

end Gcn

end Cert.KernelIdeal.Hand.Bridge

end
-- ==== Proof.KI.BridgeBits.lean ====
/-
  The words and constants both programs read the same way.

  * A node number is a word of the edge list read signed. Both programs first add the node count to a negative one (the array
    indexing convention); on a word in `0 .. 16383` that step changes nothing (`norm_eq`), and the word read signed is the node it names
    (`node`, `node_iff`).
  * The half weight of an edge is its weight times the constant one half (`hwOf`), a real when the weight is.
  * The identity matrix, as a comparison of the row number with the column number converted to a float, is `1` on the diagonal and
    `0` off it (`eye_eq`); the constant pattern of one is `1`.
-/
import proofs.«135561_j38560216383500_2_alg».proof.Proof.KI.BridgeScatter
import proofs.«135561_j38560216383500_2_alg».proof.Proof.KI.BridgeMath
import Idealize.ShloMosaic.Lib.Affine

noncomputable section

namespace Cert.KernelIdeal.Hand.Bridge

open Idealize.ShloMosaic Idealize.ShloMosaic.ValueIdx

/-- Every entry of the edge list names a node: read signed it is in `0 .. 16383`. -/
def InRange (x6 : (⟨2, ![2, 524288]⟩ : Shape).Idx → BitVec 32) : Prop := ∀ i, 0 ≤ (x6 i).toInt ∧ (x6 i).toInt < 16384

/-- End `a` (0: the start, 1: the end) of edge `e`, as a node. -/
def node (x6 : (⟨2, ![2, 524288]⟩ : Shape).Idx → BitVec 32) (hr : InRange x6) (a : Fin 2) (e : Fin 524288) : Fin 16384 :=
  ⟨(x6 (ix2 a e)).toInt.toNat, by have := hr (ix2 a e); omega⟩

theorem node_iff (x6 : (⟨2, ![2, 524288]⟩ : Shape).Idx → BitVec 32) (hr : InRange x6) (a : Fin 2) (e : Fin 524288) (i : Fin 16384) :
    (x6 (ix2 a e)).toInt = ((i.val : ℕ) : ℤ) ↔ node x6 hr a e = i := by
  have := hr (ix2 a e)
  constructor
  · intro h; apply Fin.ext; show (x6 (ix2 a e)).toInt.toNat = i.val; omega
  · intro h; have h2 := congrArg Fin.val h; change (x6 (ix2 a e)).toInt.toNat = i.val at h2; omega

/-- On a nonnegative word the wrap of a negative index changes nothing. -/
theorem norm_eq (x : BitVec 32) (h : 0 ≤ x.toInt) : Scalar.select (IntOp.cmpi .slt x 0#32) (IntOp.addi x 16384#32) x = x := by
  unfold Scalar.select
  rw [if_neg]
  intro hc
  have hc' : IntOp.cmpi .slt x 0#32 = 1#1 := hc
  rw [IntOp.cmpi_slt] at hc'
  have : (0#32 : BitVec 32).toInt = 0 := by decide
  omega

/-- The half weight of edge `e`. -/
def hwOf (x5 : (⟨1, ![524288]⟩ : Shape).Idx → EReal) (e : Fin 524288) : EReal := x5 (ix1 e) * Ideal.ofBits .f32 0x3F000000#32

theorem half_isReal : IsReal (Ideal.ofBits .f32 0x3F000000#32) := by
  unfold Ideal.ofBits Ideal.ieee
  simp
  exact ⟨_, rfl⟩

theorem hwOf_isReal (x5 : (⟨1, ![524288]⟩ : Shape).Idx → EReal) (h : ∀ i, IsReal (x5 i)) (e : Fin 524288) : IsReal (hwOf x5 e) :=
  (h _).mul half_isReal

/-- The constant pattern of one is `1`. -/
theorem ofBits_one_f32 : Ideal.ofBits .f32 0x3F800000#32 = 1 := by
  simp [Ideal.ofBits, Ideal.ieee]
  have h : (8388608 : ℝ) * ((2 : ℝ) ^ 23)⁻¹ = 1 := by norm_num
  exact_mod_cast h

private theorem bv1_cases : ∀ b : BitVec 1, b ≠ 1#1 → b = 0#1 := by decide

/-- The identity matrix from the comparison of the row number with the column number. -/
theorem eye_eq (i j : Fin 16384) :
    FloatOps.uitofp (F := Ideal) .f32 (IntOp.cmpi .eq (IntOp.addi (BitVec.ofNat 32 i.val) 0#32) (BitVec.ofNat 32 j.val))
      = if i = j then (1 : EReal) else 0 := by
  have hadd : IntOp.addi (BitVec.ofNat 32 i.val) 0#32 = BitVec.ofNat 32 i.val := BitVec.add_zero _
  rw [hadd]
  by_cases hij : i = j
  · subst hij
    rw [if_pos rfl, IntOp.cmpi_eq.mpr rfl]
    show (((1#1 : BitVec 1).toNat : ℝ) : EReal) = 1
    simp
  · rw [if_neg hij]
    have hne : IntOp.cmpi .eq (BitVec.ofNat 32 i.val) (BitVec.ofNat 32 j.val) ≠ 1#1 := by
      rw [Ne, IntOp.cmpi_eq]
      intro he
      have h2 := congrArg BitVec.toNat he
      rw [BitVec.toNat_ofNat, BitVec.toNat_ofNat] at h2
      have hi := i.isLt; have hj := j.isLt
      exact hij (Fin.ext (by omega))
    rw [bv1_cases _ hne]
    show (((0#1 : BitVec 1).toNat : ℝ) : EReal) = 0
    simp

end Cert.KernelIdeal.Hand.Bridge

end
-- ==== Proof.KI.BridgeRef.lean ====
/-
  The reference's result, read index by index.

  With every entry of the edge list a node (`InRange`), the reference's stages are, at an index:
  the two scatter-adds together the symmetrized adjacency `adj` of the edge list (the first adds the half weight of edge `e` at
  `(row e, col e)`, the second at `(col e, row e)`); with the identity added, `S`; the row sums, the degree `degRef`; the selection
  of the reciprocal square root, `rOf`; the matrix scaled on both sides, `r i * S i k * r k`; and the two layers `gcnR`.
-/
import proofs.«135561_j38560216383500_2_alg».proof.Proof.Gen.ReferenceIdeal.Read
import proofs.«135561_j38560216383500_2_alg».proof.Proof.KI.BridgeBits

noncomputable section

namespace Cert.KernelIdeal.Hand.Bridge

open Idealize.ShloMosaic Idealize.ShloMosaic.ValueIdx Cert.Lib.EdgeAdjacency
open Cert.ReferenceIdeal Cert.ReferenceIdeal.Gen Cert.ReferenceIdeal.Read

/-- The features times the first weight matrix. -/
def xwOf (x0 : (⟨2, ![16384, 64]⟩ : Shape).Idx → EReal) (x1 : (⟨2, ![64, 64]⟩ : Shape).Idx → EReal) (j : Fin 16384) (c : Fin 64) : EReal :=
  ∑ k : Fin 64, x0 (ix2 j k) * x1 (ix2 k c)

section

variable (x0 : S16384x64.Idx → EReal) (x1 : S64x64.Idx → EReal) (x2 : S64.Idx → EReal) (x3 : S64x16.Idx → EReal)
  (x4 : S16.Idx → EReal) (x5 : S524288.Idx → EReal) (x6 : S2x524288.Idx → BitVec 32)

/-! ### The edge list's two rows -/

theorem ref_v1 (e : Fin 524288) : val_main_v1 (F := Ideal) x6 (ix1 e) = x6 (ix2 (0 : Fin 2) e) := by
  rw [val_main_v1_apply, val_main_v0_apply]
  refine congrArg x6 (funext fun a => Fin.ext ?_)
  match a with
  | ⟨0, _⟩ => rfl
  | ⟨1, _⟩ => exact Nat.mod_eq_of_lt e.isLt

theorem ref_v3 (e : Fin 524288) : val_main_v3 (F := Ideal) x6 (ix1 e) = x6 (ix2 (1 : Fin 2) e) := by
  rw [val_main_v3_apply, val_main_v2_apply]
  refine congrArg x6 (funext fun a => Fin.ext ?_)
  match a with
  | ⟨0, _⟩ => rfl
  | ⟨1, _⟩ => exact Nat.mod_eq_of_lt e.isLt

theorem ref_v5 (e : Fin 524288) : val_main_v5 (F := Ideal) x5 (ix1 e) = hwOf x5 e := by
  rw [val_main_v5_apply, val_main_v4_apply, val_main_cst_apply]
  rfl

theorem ref_v53 (j : Fin 16384) (c : Fin 64) : val_main_v53 (F := Ideal) x0 x1 (ix2 j c) = xwOf x0 x1 j c := by
  rw [val_main_v53_apply]
  exact Finset.sum_congr rfl fun k _ => by
    rw [show lidx_main_v53 (ix2 j c) k = ix2 j k from (by funext a; match a with | ⟨0, _⟩ => rfl | ⟨1, _⟩ => rfl), show ridx_main_v53 (ix2 j c) k = ix2 k c from (by funext a; match a with | ⟨0, _⟩ => rfl | ⟨1, _⟩ => rfl)]

variable (hr : InRange x6)
include hr

theorem ref_v11 (e : Fin 524288) : val_main_v11 (F := Ideal) x6 (ix1 e) = x6 (ix2 (0 : Fin 2) e) := by
  rw [val_main_v11_apply, val_main_v8_apply, val_main_v10_apply, val_main_v7_apply, val_main_v9_apply, val_main_c_apply,
    val_main_c_1_apply, ref_v1]
  exact norm_eq _ (hr _).1

theorem ref_v16 (e : Fin 524288) : val_main_v16 (F := Ideal) x6 (ix1 e) = x6 (ix2 (1 : Fin 2) e) := by
  rw [val_main_v16_apply, val_main_v13_apply, val_main_v15_apply, val_main_v12_apply, val_main_v14_apply, val_main_c_2_apply,
    val_main_c_3_apply, ref_v3]
  exact norm_eq _ (hr _).1

theorem ref_v25 (e : Fin 524288) : val_main_v25 (F := Ideal) x6 (ix1 e) = x6 (ix2 (1 : Fin 2) e) := by
  rw [val_main_v25_apply, val_main_v22_apply, val_main_v24_apply, val_main_v21_apply, val_main_v23_apply, val_main_c_4_apply,
    val_main_c_5_apply, ref_v3]
  exact norm_eq _ (hr _).1

theorem ref_v30 (e : Fin 524288) : val_main_v30 (F := Ideal) x6 (ix1 e) = x6 (ix2 (0 : Fin 2) e) := by
  rw [val_main_v30_apply, val_main_v27_apply, val_main_v29_apply, val_main_v26_apply, val_main_v28_apply, val_main_c_6_apply,
    val_main_c_7_apply, ref_v1]
  exact norm_eq _ (hr _).1

/-! ### The start indices: the two columns laid side by side -/

theorem ref_v19_0 (e : Fin 524288) : val_main_v19 (F := Ideal) x6 (ix2 e (0 : Fin 2)) = x6 (ix2 (0 : Fin 2) e) := by
  unfold val_main_v19
  rw [concatenate_pair_apply_left (1 : Fin S524288x2.rank) _ _ concatenates_S524288x1_S524288x1_S524288x2_d1 (ix2 e (0 : Fin 2)) rfl
    (ix2 e (0 : Fin 1)) (fun b => by match b with | ⟨0, _⟩ => rfl | ⟨1, _⟩ => rfl)]
  rw [val_main_v17_apply]
  exact (congrArg (val_main_v11 (F := Ideal) x6) (by funext a; match a with | ⟨0, _⟩ => rfl)).trans (ref_v11 x6 hr e)

theorem ref_v19_1 (e : Fin 524288) : val_main_v19 (F := Ideal) x6 (ix2 e (1 : Fin 2)) = x6 (ix2 (1 : Fin 2) e) := by
  unfold val_main_v19
  rw [concatenate_pair_apply_right (1 : Fin S524288x2.rank) _ _ concatenates_S524288x1_S524288x1_S524288x2_d1 (ix2 e (1 : Fin 2)) rfl rfl
    (ix2 e (0 : Fin 1)) (fun b hb => by match b with | ⟨0, _⟩ => rfl | ⟨1, _⟩ => exact absurd rfl hb) rfl]
  rw [val_main_v18_apply]
  exact (congrArg (val_main_v16 (F := Ideal) x6) (by funext a; match a with | ⟨0, _⟩ => rfl)).trans (ref_v16 x6 hr e)

theorem ref_v33_0 (e : Fin 524288) : val_main_v33 (F := Ideal) x6 (ix2 e (0 : Fin 2)) = x6 (ix2 (1 : Fin 2) e) := by
  unfold val_main_v33
  rw [concatenate_pair_apply_left (1 : Fin S524288x2.rank) _ _ concatenates_S524288x1_S524288x1_S524288x2_d1 (ix2 e (0 : Fin 2)) rfl
    (ix2 e (0 : Fin 1)) (fun b => by match b with | ⟨0, _⟩ => rfl | ⟨1, _⟩ => rfl)]
  rw [val_main_v31_apply]
  exact (congrArg (val_main_v25 (F := Ideal) x6) (by funext a; match a with | ⟨0, _⟩ => rfl)).trans (ref_v25 x6 hr e)

theorem ref_v33_1 (e : Fin 524288) : val_main_v33 (F := Ideal) x6 (ix2 e (1 : Fin 2)) = x6 (ix2 (0 : Fin 2) e) := by
  unfold val_main_v33
  rw [concatenate_pair_apply_right (1 : Fin S524288x2.rank) _ _ concatenates_S524288x1_S524288x1_S524288x2_d1 (ix2 e (1 : Fin 2)) rfl rfl
    (ix2 e (0 : Fin 1)) (fun b hb => by match b with | ⟨0, _⟩ => rfl | ⟨1, _⟩ => exact absurd rfl hb) rfl]
  rw [val_main_v32_apply]
  exact (congrArg (val_main_v30 (F := Ideal) x6) (by funext a; match a with | ⟨0, _⟩ => rfl)).trans (ref_v30 x6 hr e)

/-! ### The two scatters: the adjacency -/

omit hr in
/-- The program's scatter dimension numbers are the ones read in BridgeScatter. -/
theorem scatter_eq : scatter_S16384x16384_S524288x2_S524288_n_01_01_1
    = d2 524288 16384 16384 Facts₀.scatter_S16384x16384_S524288x2_S524288_n_01_01_1_wf := rfl

theorem ref_v20 (i j : Fin 16384) : val_main_v20 (F := Ideal) x5 x6 (ix2 i j)
    = 0 + ∑ e, if node x6 hr 0 e = i ∧ node x6 hr 1 e = j then hwOf x5 e else 0 := by
  unfold val_main_v20
  simp only [Host.scatterAdd, Ideal.hostScatterAdd_def]
  rw [scatter_eq, scatterAdd2_apply]
  refine congrArg₂ (· + ·) ?_ ?_
  · rw [val_main_v6_apply, val_main_cst_0_apply]; exact Ideal.ofBits_zero_f32
  · refine Finset.sum_congr rfl fun e _ => ?_
    rw [ref_v19_0 x6 hr e, ref_v19_1 x6 hr e, ref_v5]
    exact if_congr (and_congr (node_iff x6 hr 0 e i) (node_iff x6 hr 1 e j)) rfl rfl

theorem ref_v34 (i j : Fin 16384) : val_main_v34 (F := Ideal) x5 x6 (ix2 i j) = adj (node x6 hr 0) (node x6 hr 1) (hwOf x5) i j := by
  unfold val_main_v34
  simp only [Host.scatterAdd, Ideal.hostScatterAdd_def]
  rw [scatter_eq, scatterAdd2_apply, ref_v20 x5 x6 hr, zero_add]
  unfold adj
  refine congrArg₂ (· + ·) rfl ?_
  refine Finset.sum_congr rfl fun e _ => ?_
  rw [ref_v33_0 x6 hr e, ref_v33_1 x6 hr e, ref_v5]
  exact if_congr (and_congr (node_iff x6 hr 1 e i) (node_iff x6 hr 0 e j)) rfl rfl

/-! ### Self loops, degree, reciprocal square root -/

theorem ref_v41 (i j : Fin 16384) : val_main_v41 (F := Ideal) x5 x6 (ix2 i j) = S (node x6 hr 0) (node x6 hr 1) (hwOf x5) i j := by
  rw [val_main_v41_apply, ref_v34 x5 x6 hr, val_main_v40_apply, val_main_v39_apply, val_main_v38_apply, val_main_v35_apply,
    val_main_v36_apply, val_main_v37_apply, val_main_c_8_apply]
  unfold S
  exact congrArg (adj (node x6 hr 0) (node x6 hr 1) (hwOf x5) i j + ·) (eye_eq i j)

theorem ref_v42 (i : Fin 16384) : val_main_v42 (F := Ideal) x5 x6 (ix1 i) = degRef (node x6 hr 0) (node x6 hr 1) (hwOf x5) i := by
  rw [val_main_v42_apply, val_main_cst_9_apply]
  unfold degRef
  refine congrArg₂ (· + ·) ?_ ?_
  · exact Ideal.ofBits_zero_f32
  · exact Finset.sum_congr rfl fun k _ =>
      (congrArg (val_main_v41 (F := Ideal) x5 x6) (by funext a; match a with | ⟨0, _⟩ => rfl | ⟨1, _⟩ => rfl)).trans (ref_v41 x5 x6 hr i k)

theorem ref_v46 (i : Fin 16384) : val_main_v46 (F := Ideal) x5 x6 (ix1 i) = rOf (degRef (node x6 hr 0) (node x6 hr 1) (hwOf x5) i) := by
  rw [val_main_v46_apply, val_main_v44_apply, val_main_v45_apply, val_main_v43_apply, val_main_call0_v1_apply, val_main_call0_v0_apply,
    val_main_cst_10_apply, val_main_cst_11_apply, ref_v42 x5 x6 hr]
  rfl

/-- The normalized matrix. -/
theorem ref_v52 (i k : Fin 16384) : val_main_v52 (F := Ideal) x5 x6 (ix2 i k)
    = (rOf (degRef (node x6 hr 0) (node x6 hr 1) (hwOf x5) i) * S (node x6 hr 0) (node x6 hr 1) (hwOf x5) i k)
        * rOf (degRef (node x6 hr 0) (node x6 hr 1) (hwOf x5) k) := by
  have e1 : idx_main_v47 (idx_main_v48 (ix2 i k)) = ix1 i := (by funext a; match a with | ⟨0, _⟩ => rfl)
  have e2 : idx_main_v50 (idx_main_v51 (ix2 i k)) = ix1 k := (by funext a; match a with | ⟨0, _⟩ => rfl)
  rw [val_main_v52_apply, val_main_v49_apply, val_main_v48_apply, val_main_v47_apply, val_main_v51_apply, val_main_v50_apply,
    ref_v41 x5 x6 hr, e1, e2, ref_v46 x5 x6 hr, ref_v46 x5 x6 hr]
  rfl

/-! ### The layers -/

/-- The first layer before the maximum. -/
theorem ref_v57 (j : Fin 16384) (l : Fin 64) : val_main_v57 (F := Ideal) x0 x1 x2 x5 x6 (ix2 j l)
    = layerR (S (node x6 hr 0) (node x6 hr 1) (hwOf x5)) (fun i => rOf (degRef (node x6 hr 0) (node x6 hr 1) (hwOf x5) i)) (xwOf x0 x1)
        (fun l => x2 (ix1 l)) j l := by
  rw [val_main_v57_apply, val_main_v54_apply, val_main_v56_apply, val_main_v55_apply]
  unfold layerR
  refine congrArg₂ (· + ·) ?_ ?_
  · refine Finset.sum_congr rfl fun k _ => ?_
    rw [show lidx_main_v54 (ix2 j l) k = ix2 j k from (by funext a; match a with | ⟨0, _⟩ => rfl | ⟨1, _⟩ => rfl), show ridx_main_v54 (ix2 j l) k = ix2 k l from (by funext a; match a with | ⟨0, _⟩ => rfl | ⟨1, _⟩ => rfl),
      ref_v52 x5 x6 hr, ref_v53]
  · exact congrArg x2 (by funext a; match a with | ⟨0, _⟩ => rfl)

theorem ref_v59 (j : Fin 16384) (c : Fin 16) : val_main_v59 (F := Ideal) x0 x1 x2 x3 x5 x6 (ix2 j c)
    = hidden (layerR (S (node x6 hr 0) (node x6 hr 1) (hwOf x5)) (fun i => rOf (degRef (node x6 hr 0) (node x6 hr 1) (hwOf x5) i)) (xwOf x0 x1)
        (fun l => x2 (ix1 l))) (fun l c => x3 (ix2 l c)) j c := by
  rw [val_main_v59_apply]
  unfold hidden
  refine Finset.sum_congr rfl fun l _ => ?_
  rw [show lidx_main_v59 (ix2 j c) l = ix2 j l from (by funext a; match a with | ⟨0, _⟩ => rfl | ⟨1, _⟩ => rfl), show ridx_main_v59 (ix2 j c) l = ix2 l c from (by funext a; match a with | ⟨0, _⟩ => rfl | ⟨1, _⟩ => rfl),
    val_main_v58_apply, ref_v57 x0 x1 x2 x5 x6 hr, val_main_call1_v0_apply, val_main_call1_cst_apply]
  show Max.max _ (Ideal.ofBits .f32 0x00000000#32) * _ = _
  rw [Ideal.ofBits_zero_f32]

/-- THE REFERENCE'S RESULT at row `i`, column `c`. -/
theorem ref_v63 (i : Fin 16384) (c : Fin 16) : val_main_v63 (F := Ideal) x0 x1 x2 x3 x4 x5 x6 (ix2 i c)
    = gcnR (S (node x6 hr 0) (node x6 hr 1) (hwOf x5)) (fun i => rOf (degRef (node x6 hr 0) (node x6 hr 1) (hwOf x5) i)) (xwOf x0 x1)
        (fun l => x2 (ix1 l)) (fun l c => x3 (ix2 l c)) (fun c => x4 (ix1 c)) i c := by
  rw [val_main_v63_apply, val_main_v60_apply, val_main_v62_apply, val_main_v61_apply]
  rw [gcnR, layerR]
  refine congrArg₂ (· + ·) ?_ ?_
  · refine Finset.sum_congr rfl fun k _ => ?_
    rw [show lidx_main_v60 (ix2 i c) k = ix2 i k from (by funext a; match a with | ⟨0, _⟩ => rfl | ⟨1, _⟩ => rfl), show ridx_main_v60 (ix2 i c) k = ix2 k c from (by funext a; match a with | ⟨0, _⟩ => rfl | ⟨1, _⟩ => rfl),
      ref_v52 x5 x6 hr, ref_v59 x0 x1 x2 x3 x5 x6 hr]
  · exact congrArg x4 (by funext a; match a with | ⟨0, _⟩ => rfl)

end

end Cert.KernelIdeal.Hand.Bridge

end
-- ==== Proof.KI.KerRead.lean ====
/-
  The kernel's host operations before its first region, read index by index.

  Before region 0 the program writes, from the arguments: the matrix `A` by ONE scatter-add over the two directions of the edge list laid
  end to end (starts `(row, col)` for the first 524288 updates, `(col, row)` for the second 524288, the half weights twice); the degree as
  `1` plus a scatter-add of the half weights at the edges' starts plus another at their ends; the column of reciprocal square roots; the
  product of the features with the first weight matrix; the bias as a row. With every entry of the edge list a node these are, at an
  index, the adjacency `adj`, the degree `degKer`, `rOf` of it, `xwOf`, and the bias.
-/
import proofs.«135561_j38560216383500_2_alg».proof.Proof.Gen.KernelIdeal.Regions
import proofs.«135561_j38560216383500_2_alg».proof.Proof.Gen.ReferenceIdeal.Read
import proofs.«135561_j38560216383500_2_alg».proof.Proof.KI.BridgeBits
import Idealize.ShloMosaic.Lib.StableHlo.Run

noncomputable section

namespace Cert.KernelIdeal.Hand.Bridge

open Idealize.ShloMosaic Idealize.ShloMosaic.ValueIdx Idealize.ShloMosaic.TcCoe Idealize.ShloMosaic.StableHlo Idealize.SL.Sem
open Cert.Lib.EdgeAdjacency
open Cert.KernelIdeal Cert.KernelIdeal.Gen

/-! ## The stages as terms -/

section Stages

variable (x5 : S524288.Idx → EReal) (x6 : S2x524288.Idx → BitVec 32)

/-- The starts of the two directions laid end to end: first the rows then the columns of the edge list. -/
def kv6 : S1048576.Idx → BitVec 32 :=
  concatenate S1048576 0 [⟨S524288, Cert.ReferenceIdeal.Read.val_main_v1 (F := Ideal) x6⟩, ⟨S524288, Cert.ReferenceIdeal.Read.val_main_v3 (F := Ideal) x6⟩] concatenates_S524288_S524288_S1048576_d0
/-- The ends: first the columns then the rows. -/
def kv7 : S1048576.Idx → BitVec 32 :=
  concatenate S1048576 0 [⟨S524288, Cert.ReferenceIdeal.Read.val_main_v3 (F := Ideal) x6⟩, ⟨S524288, Cert.ReferenceIdeal.Read.val_main_v1 (F := Ideal) x6⟩] concatenates_S524288_S524288_S1048576_d0
/-- The half weights twice. -/
def kv8 : S1048576.Idx → EReal :=
  concatenate S1048576 0 [⟨S524288, Cert.ReferenceIdeal.Read.val_main_v5 (F := Ideal) x5⟩, ⟨S524288, Cert.ReferenceIdeal.Read.val_main_v5 (F := Ideal) x5⟩] concatenates_S524288_S524288_S1048576_d0
/-- The wrap of a negative index, on the long vectors. -/
def knorm (v : S1048576.Idx → BitVec 32) : S1048576.Idx → BitVec 32 :=
  select (cmpi .slt v (broadcastInDim S1048576 ![] bcast_S_S1048576 (constantI S_ 32 0#32)))
    (addi v (broadcastInDim S1048576 ![] bcast_S_S1048576 (constantI S_ 32 16384#32))) v
/-- The start indices of the one scatter: starts and ends side by side. -/
def kv22 : S1048576x2.Idx → BitVec 32 :=
  concatenate S1048576x2 1 [⟨S1048576x1, broadcastInDim S1048576x1 ![0] bcast_S1048576_S1048576x1_0 (knorm (kv6 x6))⟩,
    ⟨S1048576x1, broadcastInDim S1048576x1 ![0] bcast_S1048576_S1048576x1_0 (knorm (kv7 x6))⟩] concatenates_S1048576x1_S1048576x1_S1048576x2_d1
/-- The scattered matrix. -/
def kv23 : S16384x16384.Idx → EReal :=
  Host.scatterAdd (F := Ideal) scatter_S16384x16384_S1048576x2_S1048576_n_01_01_1
    (broadcastInDim S16384x16384 ![] bcast_S_S16384x16384 (constant (F := Ideal) S_ .f32 0x00000000#32)) (kv22 x6) (kv8 x5)
/-- The degree from the edge list. -/
def kdeg : S16384.Idx → EReal :=
  addf (addf (broadcastInDim S16384 ![] bcast_S_S16384 (constant (F := Ideal) S_ .f32 0x3F800000#32))
      (Host.scatterAdd (F := Ideal) scatter_S16384_S524288x1_S524288_n_0_0_1
        (broadcastInDim S16384 ![] bcast_S_S16384 (constant (F := Ideal) S_ .f32 0x00000000#32)) (Cert.ReferenceIdeal.Read.val_main_v32 (F := Ideal) x6) (Cert.ReferenceIdeal.Read.val_main_v5 (F := Ideal) x5)))
    (Host.scatterAdd (F := Ideal) scatter_S16384_S524288x1_S524288_n_0_0_1
      (broadcastInDim S16384 ![] bcast_S_S16384 (constant (F := Ideal) S_ .f32 0x00000000#32)) (Cert.ReferenceIdeal.Read.val_main_v31 (F := Ideal) x6) (Cert.ReferenceIdeal.Read.val_main_v5 (F := Ideal) x5))
/-- The reciprocal square roots, as a vector. -/
def kr : S16384.Idx → EReal :=
  select (cmpf (F := Ideal) (φ := .f32) .ogt (kdeg x5 x6) (broadcastInDim S16384 ![] bcast_S_S16384 (constant (F := Ideal) S_ .f32 0x00000000#32))) (Host.rsqrt (F := Ideal) (s := S16384) (φ := .f32) (kdeg x5 x6))
    (broadcastInDim S16384 ![] bcast_S_S16384 (id (constant (F := Ideal) S_ .f32 0x00000000#32)))
/-- The same as a column. -/
def kv47 : S16384x1.Idx → EReal := shapeCast S16384x1 (kr x5 x6) shapeCasts_S16384_S16384x1

end Stages

/-! ## The buffers region 0 is entered with -/

section Read

variable (m : (ℓ : Loc nD τ sig) → Buf (Elt Ideal) ℓ) (c : Dev nD)

set_option maxRecDepth 65536 in
set_option maxHeartbeats 8000000 in
theorem V3_main_v23 : (V3 m c main_v23 : S16384x16384.Idx → EReal)
    = kv23 (m ((c.tc : Thread nD τ).loc main_arg5)) (m ((c.tc : Thread nD τ).loc main_arg6)) := by
  rw [V3_of m c main_v23 (by decide), V2_of m c main_v23 (by decide)]
  dsimp only [V1, V0, hostOps0]
  after_results_simp
  rfl

/-- The last stretch before the first region turns the vector of factors into a column, whatever the buffers held before it. -/
theorem after2_v47 (W : Valuation τ sig (Elt Ideal)) :
    (StableHlo.after hostOps0_2 W (Proc.devRef .tc main_v47) : S16384x1.Idx → EReal)
      = shapeCast S16384x1 (W (Proc.devRef .tc main_v46) : S16384.Idx → EReal) shapeCasts_S16384_S16384x1 := by
  dsimp only [hostOps0_2]
  after_results
  rfl

/-- The stretch before it selects the reciprocal square root where the degree is positive, zero elsewhere. -/
theorem after1_v46 (W : Valuation τ sig (Elt Ideal)) :
    (StableHlo.after hostOps0_1 W (Proc.devRef .tc main_v46) : S16384.Idx → EReal)
      = select (W (Proc.devRef .tc main_v44) : S16384.Idx → BitVec 1) (W (Proc.devRef .tc main_v45) : S16384.Idx → EReal)
          (broadcastInDim S16384 ![] bcast_S_S16384 (id (W (Proc.devRef .tc main_cst_12) : S_.Idx → EReal))) := by
  dsimp only [hostOps0_1]
  after_results
  rfl

set_option maxRecDepth 65536 in
set_option maxHeartbeats 8000000 in
/-- The comparison of the degree with zero, after the first stretch. -/
theorem V1_main_v44 : (V1 m c main_v44 : S16384.Idx → BitVec 1)
    = cmpf (F := Ideal) (φ := .f32) .ogt (kdeg (m ((c.tc : Thread nD τ).loc main_arg5)) (m ((c.tc : Thread nD τ).loc main_arg6)))
        (broadcastInDim S16384 ![] bcast_S_S16384 (constant (F := Ideal) S_ .f32 0x00000000#32)) := by
  dsimp only [V1, V0, hostOps0]
  after_results_simp
  rfl

set_option maxRecDepth 65536 in
set_option maxHeartbeats 8000000 in
/-- The reciprocal square root of the degree, after the first stretch. -/
theorem V1_main_v45 : (V1 m c main_v45 : S16384.Idx → EReal)
    = Host.rsqrt (F := Ideal) (s := S16384) (φ := .f32) (kdeg (m ((c.tc : Thread nD τ).loc main_arg5)) (m ((c.tc : Thread nD τ).loc main_arg6))) := by
  dsimp only [V1, V0, hostOps0]
  after_results_simp
  rfl

set_option maxRecDepth 65536 in
set_option maxHeartbeats 8000000 in
/-- The zero the selection falls back to, after the first stretch. -/
theorem V1_main_cst_12 : (V1 m c main_cst_12 : S_.Idx → EReal) = constant (F := Ideal) S_ .f32 0x00000000#32 := by
  dsimp only [V1, V0, hostOps0]
  after_results_simp

theorem V3_main_v47 : (V3 m c main_v47 : S16384x1.Idx → EReal)
    = kv47 (m ((c.tc : Thread nD τ).loc main_arg5)) (m ((c.tc : Thread nD τ).loc main_arg6)) := by
  show (StableHlo.after hostOps0_2 (V2 m c) (Proc.devRef .tc main_v47) : S16384x1.Idx → EReal) = _
  rw [after2_v47]
  show shapeCast S16384x1 (StableHlo.after hostOps0_1 (V1 m c) (Proc.devRef .tc main_v46) : S16384.Idx → EReal) shapeCasts_S16384_S16384x1 = _
  rw [after1_v46]
  show shapeCast S16384x1 (select (V1 m c main_v44 : S16384.Idx → BitVec 1) (V1 m c main_v45 : S16384.Idx → EReal)
      (broadcastInDim S16384 ![] bcast_S_S16384 (id (V1 m c main_cst_12 : S_.Idx → EReal)))) shapeCasts_S16384_S16384x1 = _
  rw [V1_main_v44, V1_main_v45, V1_main_cst_12]
  rfl

set_option maxRecDepth 65536 in
set_option maxHeartbeats 8000000 in
theorem V3_main_v48 : (V3 m c main_v48 : S16384x64.Idx → EReal)
    = Cert.ReferenceIdeal.Read.val_main_v53 (F := Ideal) (m ((c.tc : Thread nD τ).loc main_arg0)) (m ((c.tc : Thread nD τ).loc main_arg1)) := by
  have h0 : V2 m c main_arg0 = m ((c.tc : Thread nD τ).loc main_arg0) := (V2_of m c main_arg0 (by decide)).trans (V1_of m c main_arg0 (by decide))
  have h1 : V2 m c main_arg1 = m ((c.tc : Thread nD τ).loc main_arg1) := (V2_of m c main_arg1 (by decide)).trans (V1_of m c main_arg1 (by decide))
  show StableHlo.after hostOps0_2 (V2 m c) (Proc.devRef .tc main_v48) = _
  dsimp only [hostOps0_2]
  after_results
  rfl

set_option maxRecDepth 65536 in
set_option maxHeartbeats 8000000 in
theorem V3_main_v49 : (V3 m c main_v49 : S1x64.Idx → EReal)
    = shapeCast S1x64 (m ((c.tc : Thread nD τ).loc main_arg2)) shapeCasts_S64_S1x64 := by
  have h2 : V2 m c main_arg2 = m ((c.tc : Thread nD τ).loc main_arg2) := (V2_of m c main_arg2 (by decide)).trans (V1_of m c main_arg2 (by decide))
  show StableHlo.after hostOps0_2 (V2 m c) (Proc.devRef .tc main_v49) = _
  dsimp only [hostOps0_2]
  after_results
  rfl

end Read

end Cert.KernelIdeal.Hand.Bridge

end
-- ==== Proof.KI.KerApply.lean ====
/-
  The kernel's host operations before its first region, read at an index. With every entry of the edge list a node: the one scatter-add
  over the two directions of the edge list laid end to end is the symmetrized adjacency; one plus the two vector scatter-adds of the half
  weights, at the edges' starts and at their ends, is the degree counted from the edge list; the selection of the reciprocal square root
  follows it entry by entry.
-/
import proofs.«135561_j38560216383500_2_alg».proof.Proof.KI.KerRead
import proofs.«135561_j38560216383500_2_alg».proof.Proof.KI.BridgeRef
import Idealize.ShloMosaic.Lib.Pipeline.Value

noncomputable section

namespace Cert.KernelIdeal.Hand.Bridge

open Idealize.ShloMosaic Idealize.ShloMosaic.ValueIdx
open Cert.Lib.EdgeAdjacency
open Cert.KernelIdeal Cert.KernelIdeal.Gen

/-! ## The stages at an index -/

section Apply

variable (x5 : S524288.Idx → EReal) (x6 : S2x524288.Idx → BitVec 32)

/-- The program's dimension numbers of its matrix scatter are the plain ones: no window axes, both operand axes from the index pair. -/
theorem kscatter2_eq : scatter_S16384x16384_S1048576x2_S1048576_n_01_01_1
    = d2 1048576 16384 16384 Facts₀.scatter_S16384x16384_S1048576x2_S1048576_n_01_01_1_wf := rfl
/-- Likewise for its two vector scatters. -/
theorem kscatter1_eq : scatter_S16384_S524288x1_S524288_n_0_0_1
    = d1 524288 16384 Facts₀.scatter_S16384_S524288x1_S524288_n_0_0_1_wf := rfl

/-- Update number `e` of the first direction, among the 1048576. -/
def uLo (e : Fin 524288) : Fin 1048576 := ⟨e.val, by have := e.isLt; omega⟩
/-- Update number `e` of the second direction. -/
def uHi (e : Fin 524288) : Fin 1048576 := ⟨524288 + e.val, by have := e.isLt; omega⟩

/-- A sum over the two directions laid end to end is the sum over the first plus the sum over the second. -/
theorem sum_double {M : Type*} [AddCommMonoid M] (f : Fin 1048576 → M) :
    ∑ u, f u = ∑ e : Fin 524288, f (uLo e) + ∑ e : Fin 524288, f (uHi e) :=
  Fin.sum_univ_add (a := 524288) (b := 524288) f

theorem kv6_lo (e : Fin 524288) : kv6 x6 (ix1 (uLo e)) = x6 (ix2 (0 : Fin 2) e) := by
  unfold kv6
  rw [concatenate_pair_apply_left (0 : Fin S1048576.rank) _ _ concatenates_S524288_S524288_S1048576_d0 (ix1 (uLo e)) rfl (ix1 e)
    (fun b => by match b with | ⟨0, _⟩ => rfl)]
  exact ref_v1 x6 e

theorem kv6_hi (e : Fin 524288) : kv6 x6 (ix1 (uHi e)) = x6 (ix2 (1 : Fin 2) e) := by
  unfold kv6
  rw [concatenate_pair_apply_right (0 : Fin S1048576.rank) _ _ concatenates_S524288_S524288_S1048576_d0 (ix1 (uHi e)) rfl rfl (ix1 e)
    (fun b hb => by match b with | ⟨0, _⟩ => exact absurd rfl hb) (by show e.val + 524288 = 524288 + e.val; omega)]
  exact ref_v3 x6 e

theorem kv7_lo (e : Fin 524288) : kv7 x6 (ix1 (uLo e)) = x6 (ix2 (1 : Fin 2) e) := by
  unfold kv7
  rw [concatenate_pair_apply_left (0 : Fin S1048576.rank) _ _ concatenates_S524288_S524288_S1048576_d0 (ix1 (uLo e)) rfl (ix1 e)
    (fun b => by match b with | ⟨0, _⟩ => rfl)]
  exact ref_v3 x6 e

theorem kv7_hi (e : Fin 524288) : kv7 x6 (ix1 (uHi e)) = x6 (ix2 (0 : Fin 2) e) := by
  unfold kv7
  rw [concatenate_pair_apply_right (0 : Fin S1048576.rank) _ _ concatenates_S524288_S524288_S1048576_d0 (ix1 (uHi e)) rfl rfl (ix1 e)
    (fun b hb => by match b with | ⟨0, _⟩ => exact absurd rfl hb) (by show e.val + 524288 = 524288 + e.val; omega)]
  exact ref_v1 x6 e

theorem kv8_lo (e : Fin 524288) : kv8 x5 (ix1 (uLo e)) = hwOf x5 e := by
  unfold kv8
  rw [concatenate_pair_apply_left (0 : Fin S1048576.rank) _ _ concatenates_S524288_S524288_S1048576_d0 (ix1 (uLo e)) rfl (ix1 e)
    (fun b => by match b with | ⟨0, _⟩ => rfl)]
  exact ref_v5 x5 e

theorem kv8_hi (e : Fin 524288) : kv8 x5 (ix1 (uHi e)) = hwOf x5 e := by
  unfold kv8
  rw [concatenate_pair_apply_right (0 : Fin S1048576.rank) _ _ concatenates_S524288_S524288_S1048576_d0 (ix1 (uHi e)) rfl rfl (ix1 e)
    (fun b hb => by match b with | ⟨0, _⟩ => exact absurd rfl hb) (by show e.val + 524288 = 524288 + e.val; omega)]
  exact ref_v5 x5 e

theorem knorm_apply (v : S1048576.Idx → BitVec 32) (i : S1048576.Idx) (h : 0 ≤ (v i).toInt) : knorm v i = v i := by
  unfold knorm
  show Scalar.select (IntOp.cmpi .slt (v i) (broadcastInDim S1048576 ![] bcast_S_S1048576 (constantI S_ 32 0#32) i))
    (IntOp.addi (v i) (broadcastInDim S1048576 ![] bcast_S_S1048576 (constantI S_ 32 16384#32) i)) (v i) = v i
  rw [broadcastInDim_apply _ bcast_S_S1048576 _ i (fun a => a.elim0) (fun a => a.elim0), broadcastInDim_apply _ bcast_S_S1048576 _ i (fun a => a.elim0) (fun a => a.elim0)]
  exact norm_eq _ h

theorem kv22_0 (u : Fin 1048576) : kv22 x6 (ix2 u (0 : Fin 2)) = knorm (kv6 x6) (ix1 u) := by
  unfold kv22
  rw [concatenate_pair_apply_left (1 : Fin S1048576x2.rank) _ _ concatenates_S1048576x1_S1048576x1_S1048576x2_d1 (ix2 u (0 : Fin 2)) rfl
    (ix2 u (0 : Fin 1)) (fun b => by match b with | ⟨0, _⟩ => rfl | ⟨1, _⟩ => rfl)]
  exact broadcastInDim_apply _ bcast_S1048576_S1048576x1_0 _ (ix2 u (0 : Fin 1)) (ix1 u) (fun a => match a with
    | ⟨0, _⟩ => by show u.val = if (1048576 : Nat) = 1 then 0 else u.val; rw [if_neg (by decide)])

theorem kv22_1 (u : Fin 1048576) : kv22 x6 (ix2 u (1 : Fin 2)) = knorm (kv7 x6) (ix1 u) := by
  unfold kv22
  rw [concatenate_pair_apply_right (1 : Fin S1048576x2.rank) _ _ concatenates_S1048576x1_S1048576x1_S1048576x2_d1 (ix2 u (1 : Fin 2)) rfl rfl
    (ix2 u (0 : Fin 1)) (fun b hb => by match b with | ⟨0, _⟩ => rfl | ⟨1, _⟩ => exact absurd rfl hb) rfl]
  exact broadcastInDim_apply _ bcast_S1048576_S1048576x1_0 _ (ix2 u (0 : Fin 1)) (ix1 u) (fun a => match a with
    | ⟨0, _⟩ => by show u.val = if (1048576 : Nat) = 1 then 0 else u.val; rw [if_neg (by decide)])

/-- The scattered matrix is the scatter-add, at the plain dimension numbers, of the half weights twice at the start pairs. -/
theorem kv23_eq_scatter : kv23 x5 x6
    = Ideal.hostScatterAdd (d2 1048576 16384 16384 Facts₀.scatter_S16384x16384_S1048576x2_S1048576_n_01_01_1_wf)
        (broadcastInDim S16384x16384 ![] bcast_S_S16384x16384 (constant (F := Ideal) S_ .f32 0x00000000#32)) (kv22 x6) (kv8 x5) := by
  unfold kv23
  simp only [Host.scatterAdd, Ideal.hostScatterAdd_def]
  rw [kscatter2_eq]
/-- The matrix the scatter starts from is zero everywhere. -/
theorem kzero2_apply (i j : Fin 16384) :
    broadcastInDim S16384x16384 ![] bcast_S_S16384x16384 (constant (F := Ideal) S_ .f32 0x00000000#32) (ix2 i j) = (0 : EReal) := by
  rw [broadcastInDim_apply _ bcast_S_S16384x16384 _ (ix2 i j) (fun a => a.elim0) (fun a => a.elim0)]
  exact Ideal.ofBits_zero_f32
/-- The scattered matrix at an index: the sum over the 1048576 updates of those whose start pair is the index. -/
theorem kv23_sum (i j : Fin 16384) : kv23 x5 x6 (ix2 i j)
    = 0 + ∑ u : Fin 1048576, if (kv22 x6 (ix2 u 0)).toInt = (((ix2 i j : S16384x16384.Idx) 0).val : Int)
        ∧ (kv22 x6 (ix2 u 1)).toInt = (((ix2 i j : S16384x16384.Idx) 1).val : Int) then kv8 x5 (ix1 u) else 0 := by
  rw [kv23_eq_scatter, scatterAdd2_apply, kzero2_apply]
variable (hr : InRange x6)
include hr

/-- An update of the first direction lands at `(i, j)` exactly when its edge starts at `i` and ends at `j`. -/
theorem kterm_lo (i j : Fin 16384) (e : Fin 524288) :
    (if (kv22 x6 (ix2 (uLo e) 0)).toInt = (((ix2 i j : S16384x16384.Idx) 0).val : Int)
        ∧ (kv22 x6 (ix2 (uLo e) 1)).toInt = (((ix2 i j : S16384x16384.Idx) 1).val : Int) then kv8 x5 (ix1 (uLo e)) else 0)
      = if node x6 hr 0 e = i ∧ node x6 hr 1 e = j then hwOf x5 e else 0 := by
  have h6 : knorm (kv6 x6) (ix1 (uLo e)) = x6 (ix2 (0 : Fin 2) e) := by
    rw [knorm_apply (kv6 x6) (ix1 (uLo e)) (by rw [kv6_lo]; exact (hr _).1), kv6_lo]
  have h7 : knorm (kv7 x6) (ix1 (uLo e)) = x6 (ix2 (1 : Fin 2) e) := by
    rw [knorm_apply (kv7 x6) (ix1 (uLo e)) (by rw [kv7_lo]; exact (hr _).1), kv7_lo]
  rw [kv22_0, kv22_1, h6, h7, kv8_lo]
  exact if_congr (and_congr (node_iff x6 hr 0 e i) (node_iff x6 hr 1 e j)) rfl rfl
/-- An update of the second direction lands at `(i, j)` exactly when its edge ends at `i` and starts at `j`. -/
theorem kterm_hi (i j : Fin 16384) (e : Fin 524288) :
    (if (kv22 x6 (ix2 (uHi e) 0)).toInt = (((ix2 i j : S16384x16384.Idx) 0).val : Int)
        ∧ (kv22 x6 (ix2 (uHi e) 1)).toInt = (((ix2 i j : S16384x16384.Idx) 1).val : Int) then kv8 x5 (ix1 (uHi e)) else 0)
      = if node x6 hr 1 e = i ∧ node x6 hr 0 e = j then hwOf x5 e else 0 := by
  have h6 : knorm (kv6 x6) (ix1 (uHi e)) = x6 (ix2 (1 : Fin 2) e) := by
    rw [knorm_apply (kv6 x6) (ix1 (uHi e)) (by rw [kv6_hi]; exact (hr _).1), kv6_hi]
  have h7 : knorm (kv7 x6) (ix1 (uHi e)) = x6 (ix2 (0 : Fin 2) e) := by
    rw [knorm_apply (kv7 x6) (ix1 (uHi e)) (by rw [kv7_hi]; exact (hr _).1), kv7_hi]
  rw [kv22_0, kv22_1, h6, h7, kv8_hi]
  exact if_congr (and_congr (node_iff x6 hr 1 e i) (node_iff x6 hr 0 e j)) rfl rfl
/-- THE SCATTERED MATRIX is the symmetrized adjacency of the edge list. -/
theorem kv23_apply (i j : Fin 16384) : kv23 x5 x6 (ix2 i j) = adj (node x6 hr 0) (node x6 hr 1) (hwOf x5) i j := by
  rw [kv23_sum, zero_add, sum_double]
  unfold adj
  exact congrArg₂ (· + ·) (Finset.sum_congr rfl fun e _ => kterm_lo x5 x6 hr i j e) (Finset.sum_congr rfl fun e _ => kterm_hi x5 x6 hr i j e)

omit hr in
/-- The vector the two vector scatters start from is zero everywhere, -/
theorem kzero1_apply (i : Fin 16384) :
    broadcastInDim S16384 ![] bcast_S_S16384 (constant (F := Ideal) S_ .f32 0x00000000#32) (ix1 i) = (0 : EReal) := by
  rw [broadcastInDim_apply _ bcast_S_S16384 _ (ix1 i) (fun a => a.elim0) (fun a => a.elim0)]
  exact Ideal.ofBits_zero_f32
omit hr in
/-- and the one the degree starts from is one everywhere. -/
theorem kone1_apply (i : Fin 16384) :
    broadcastInDim S16384 ![] bcast_S_S16384 (constant (F := Ideal) S_ .f32 0x3F800000#32) (ix1 i) = (1 : EReal) := by
  rw [broadcastInDim_apply _ bcast_S_S16384 _ (ix1 i) (fun a => a.elim0) (fun a => a.elim0)]
  exact ofBits_one_f32

/-- The half weights scattered at the edges' starts: at node `i`, the weight of the edges starting there. -/
theorem kscat_start (i : Fin 16384) :
    Ideal.hostScatterAdd (d1 524288 16384 Facts₀.scatter_S16384_S524288x1_S524288_n_0_0_1_wf)
        (broadcastInDim S16384 ![] bcast_S_S16384 (constant (F := Ideal) S_ .f32 0x00000000#32))
        (Cert.ReferenceIdeal.Read.val_main_v32 (F := Ideal) x6) (Cert.ReferenceIdeal.Read.val_main_v5 (F := Ideal) x5) (ix1 i)
      = 0 + ∑ e, if node x6 hr 0 e = i then hwOf x5 e else 0 := by
  rw [scatterAdd1_apply, kzero1_apply]
  refine congrArg₂ (· + ·) rfl (Finset.sum_congr rfl fun e _ => ?_)
  rw [Cert.ReferenceIdeal.Read.val_main_v32_apply,
    show Cert.ReferenceIdeal.Read.idx_main_v32 (ix2 e (0 : Fin 1)) = ix1 e from (by funext a; match a with | ⟨0, _⟩ => rfl),
    ref_v30 x6 hr e, ref_v5]
  exact if_congr (node_iff x6 hr 0 e i) rfl rfl

/-- The half weights scattered at the edges' ends: at node `i`, the weight of the edges ending there. -/
theorem kscat_end (i : Fin 16384) :
    Ideal.hostScatterAdd (d1 524288 16384 Facts₀.scatter_S16384_S524288x1_S524288_n_0_0_1_wf)
        (broadcastInDim S16384 ![] bcast_S_S16384 (constant (F := Ideal) S_ .f32 0x00000000#32))
        (Cert.ReferenceIdeal.Read.val_main_v31 (F := Ideal) x6) (Cert.ReferenceIdeal.Read.val_main_v5 (F := Ideal) x5) (ix1 i)
      = 0 + ∑ e, if node x6 hr 1 e = i then hwOf x5 e else 0 := by
  rw [scatterAdd1_apply, kzero1_apply]
  refine congrArg₂ (· + ·) rfl (Finset.sum_congr rfl fun e _ => ?_)
  rw [Cert.ReferenceIdeal.Read.val_main_v31_apply,
    show Cert.ReferenceIdeal.Read.idx_main_v31 (ix2 e (0 : Fin 1)) = ix1 e from (by funext a; match a with | ⟨0, _⟩ => rfl),
    ref_v25 x6 hr e, ref_v5]
  exact if_congr (node_iff x6 hr 1 e i) rfl rfl

omit hr in
/-- The degree vector at an entry, as the program adds it up: one, plus the first scatter, plus the second. -/
theorem kdeg_eq (i : Fin 16384) : kdeg x5 x6 (ix1 i)
    = (broadcastInDim S16384 ![] bcast_S_S16384 (constant (F := Ideal) S_ .f32 0x3F800000#32) (ix1 i)
        + Ideal.hostScatterAdd (d1 524288 16384 Facts₀.scatter_S16384_S524288x1_S524288_n_0_0_1_wf)
            (broadcastInDim S16384 ![] bcast_S_S16384 (constant (F := Ideal) S_ .f32 0x00000000#32))
            (Cert.ReferenceIdeal.Read.val_main_v32 (F := Ideal) x6) (Cert.ReferenceIdeal.Read.val_main_v5 (F := Ideal) x5) (ix1 i))
      + Ideal.hostScatterAdd (d1 524288 16384 Facts₀.scatter_S16384_S524288x1_S524288_n_0_0_1_wf)
          (broadcastInDim S16384 ![] bcast_S_S16384 (constant (F := Ideal) S_ .f32 0x00000000#32))
          (Cert.ReferenceIdeal.Read.val_main_v31 (F := Ideal) x6) (Cert.ReferenceIdeal.Read.val_main_v5 (F := Ideal) x5) (ix1 i) := by
  unfold kdeg
  rw [kscatter1_eq]
  simp only [Host.scatterAdd, Ideal.hostScatterAdd_def, Idealize.ShloMosaic.addf, Ideal.addf_def]

/-- THE DEGREE from the edge list. -/
theorem kdeg_apply (i : Fin 16384) : kdeg x5 x6 (ix1 i) = degKer (node x6 hr 0) (node x6 hr 1) (hwOf x5) i := by
  rw [kdeg_eq, kone1_apply, kscat_start x5 x6 hr, kscat_end x5 x6 hr]
  rfl

omit hr in
/-- The column at a row is the vector's entry there. -/
theorem kv47_eq (i : Fin 16384) : kv47 x5 x6 (ix2 i (0 : Fin 1)) = kr x5 x6 (ix1 i) := by
  unfold kv47
  exact shapeCast_apply (kr x5 x6) shapeCasts_S16384_S16384x1 (ix2 i (0 : Fin 1)) (ix1 i)
    (by rw [Shape.rowMajor_val_two, Shape.rowMajor_val_one]; show i.val = i.val * 1 + 0; omega)

omit hr in
/-- The vector of reciprocal square roots at an entry: the selection on the degree there. -/
theorem kr_eq (i : Fin 16384) : kr x5 x6 (ix1 i) = rOf (kdeg x5 x6 (ix1 i)) := by
  unfold kr rOf
  simp only [Idealize.ShloMosaic.select, Idealize.ShloMosaic.cmpf, Idealize.ShloMosaic.Host.rsqrt]
  rw [broadcastInDim_apply _ bcast_S_S16384 (constant (F := Ideal) S_ .f32 0x00000000#32) (ix1 i) (fun a => a.elim0) (fun a => a.elim0),
    broadcastInDim_apply _ bcast_S_S16384 (id (constant (F := Ideal) S_ .f32 0x00000000#32)) (ix1 i) (fun a => a.elim0) (fun a => a.elim0)]
  rfl

/-- THE COLUMN of reciprocal square roots. -/
theorem kv47_apply (i : Fin 16384) : kv47 x5 x6 (ix2 i (0 : Fin 1)) = rOf (degKer (node x6 hr 0) (node x6 hr 1) (hwOf x5) i) := by
  rw [kv47_eq, kr_eq, kdeg_apply x5 x6 hr]

end Apply

end Cert.KernelIdeal.Hand.Bridge

end
-- ==== Proof.KI.BridgePre.lean ====
/-
  The precondition, decoded: on every core, every float argument holds real numbers only (no infinity, no junk), and every entry of the
  edge list, read signed, is a node number in `0 .. 16383`.

  The predicate is a conjunction of seven "all elements satisfy" reductions: for a float array `|x| < +inf` elementwise, for the edge list
  `0 ≤ x` and `x < 16384` elementwise (signed). Each conjunct being one gives the elementwise fact at every index.
-/
import proofs.«135561_j38560216383500_2_alg».proof.Defs
import proofs.«135561_j38560216383500_2_alg».proof.Proof.Gen.KernelIdeal
import proofs.«135561_j38560216383500_2_alg».proof.Proof.Gen.Pre_finite_inputs
import proofs.«135561_j38560216383500_2_alg».proof.Proof.KI.BridgeBits
import Idealize.ShloMosaic.Lib.ReduceAll
import Idealize.ShloMosaic.Lib.Pipeline.Value

noncomputable section

namespace Cert.KernelIdeal.Hand.Bridge

open Idealize.ShloMosaic Idealize.ShloMosaic.ValueIdx Idealize.SL.Sem

/-- The pattern of plus infinity is the top element. -/
theorem ofBits_inf_f32 : Ideal.ofBits .f32 0x7F800000#32 = ⊤ := by
  simp [Ideal.ofBits, Ideal.ieee]

/-- An extended real whose absolute value is below plus infinity is a real number. -/
theorem isReal_of_abs_lt (x : EReal) (h : Ideal.cmp .olt (Max.max x (-x)) ⊤ = 1) : IsReal x := by
  have hlt : Max.max x (-x) < ⊤ := by
    by_contra hn
    change BitVec.ofBool (decide (Max.max x (-x) < ⊤)) = 1 at h
    rw [decide_eq_false hn] at h
    exact absurd h (by decide)
  induction x using EReal.rec with
  | bot => exact absurd hlt (by simp)
  | coe r => exact IsReal.coe r
  | top => exact absurd hlt (by simp)

instance : Subsingleton Cert.Pre_finite_inputs.S_.Idx := ⟨fun a b => funext fun d => d.elim0⟩

section

open Cert.Pre_finite_inputs Cert.Pre_finite_inputs.Facts

/-- One float conjunct: all of `|x| < +inf` gives every element real. -/
theorem all_finite {s : Shape} {axes : List (Fin s.rank)} (x : s.Idx → EReal) (hb : S_.BroadcastsInDim s (![] : Fin 0 → Fin s.rank))
    (hred : s.ReducesTo axes S_) (hS : 0 < S_.numel)
    (e : Host.reduce IntOp.andi (cmpf (F := Ideal) (φ := .f32) .olt (Host.absf (F := Ideal) (φ := .f32) x) (broadcastInDim s ![] hb (constant (F := Ideal) S_ .f32 0x7F800000#32)))
          (constantI S_ 1 1#1) hred hS ix0 = 1#1) (i : s.Idx) : IsReal (x i) := by
  have h1 := Host.reduce_andi_all _ _ hred hS ix0 e i
  refine isReal_of_abs_lt (x i) ?_
  have hbc : broadcastInDim s ![] hb (constant (F := Ideal) S_ .f32 0x7F800000#32) i = (⊤ : EReal) := by
    rw [broadcastInDim_apply _ hb _ i (fun a => a.elim0) (fun a => a.elim0)]
    exact ofBits_inf_f32
  have h2 : Ideal.cmp .olt (Max.max (x i) (-(x i))) (broadcastInDim s ![] hb (constant (F := Ideal) S_ .f32 0x7F800000#32) i) = 1 := h1
  rw [hbc] at h2
  exact h2

end

section

open Cert.KernelIdeal

/-- THE PRECONDITION DECODED on core `c`. -/
theorem pre_decode (m : (ℓ : Loc nD τ sig) → Buf (Elt Ideal) ℓ) (h : Cert.Pre_KernelIdeal m) (c : Dev nD) :
    (∀ i, IsReal (m ((c.tc : Thread nD τ).loc main_arg0) i)) ∧ (∀ i, IsReal (m ((c.tc : Thread nD τ).loc main_arg1) i))
    ∧ (∀ i, IsReal (m ((c.tc : Thread nD τ).loc main_arg2) i)) ∧ (∀ i, IsReal (m ((c.tc : Thread nD τ).loc main_arg3) i))
    ∧ (∀ i, IsReal (m ((c.tc : Thread nD τ).loc main_arg4) i)) ∧ (∀ i, IsReal (m ((c.tc : Thread nD τ).loc main_arg5) i))
    ∧ InRange (m ((c.tc : Thread nD τ).loc main_arg6)) := by
  have e := congrFun (h c) ix0
  dsimp only [Cert.Pre_finite_inputs.fn, Cert.Pre_finite_inputs.fn_part1, Cert.Pre_finite_inputs.fn_part2] at e
  have hand : ∀ (a b : IVec Cert.Pre_finite_inputs.S_ 1) (i : Cert.Pre_finite_inputs.S_.Idx), andi a b i = IntOp.andi (a i) (b i) := fun _ _ _ => rfl
  simp only [hand, IntOp.andi_eq_one] at e
  obtain ⟨⟨⟨⟨⟨⟨h0, h1⟩, h2⟩, h3⟩, h4⟩, h5⟩, h6⟩ := e
  refine ⟨all_finite _ _ _ _ h0, all_finite _ _ _ _ h1, all_finite _ _ _ _ h2, all_finite _ _ _ _ h3, all_finite _ _ _ _ h4,
    all_finite _ _ _ _ h5, fun i => ?_⟩
  have h7 := Host.reduce_andi_all _ _ _ _ ix0 h6 i
  have h8 : IntOp.andi (IntOp.cmpi .sge (m ((c.tc : Thread nD τ).loc main_arg6) i) (broadcastInDim Cert.Pre_finite_inputs.S2x524288 ![] Cert.Pre_finite_inputs.Facts.bcast_S_S2x524288 (constantI Cert.Pre_finite_inputs.S_ 32 0#32) i))
      (IntOp.cmpi .slt (m ((c.tc : Thread nD τ).loc main_arg6) i) (broadcastInDim Cert.Pre_finite_inputs.S2x524288 ![] Cert.Pre_finite_inputs.Facts.bcast_S_S2x524288 (constantI Cert.Pre_finite_inputs.S_ 32 16384#32) i)) = 1#1 := h7
  rw [broadcastInDim_apply _ _ _ i (fun a => a.elim0) (fun a => a.elim0), broadcastInDim_apply _ _ _ i (fun a => a.elim0) (fun a => a.elim0),
    IntOp.andi_eq_one, IntOp.cmpi_sge, IntOp.cmpi_slt] at h8
  have z0 : (constantI Cert.Pre_finite_inputs.S_ 32 0#32 (fun a => a.elim0)).toInt = 0 := by decide
  have z1 : (constantI Cert.Pre_finite_inputs.S_ 32 16384#32 (fun a => a.elim0)).toInt = 16384 := by decide
  rw [z0, z1] at h8
  exact h8

end

end Cert.KernelIdeal.Hand.Bridge

end
-- ==== Proof.KI.SpecMath.lean ====
/-
  The two regions' formulas, composed, in the vocabulary of the two-layer law: the second layer over the matrix with the self-loops, its
  features the first layer's result times the second weight matrix, is the accumulating form of both layers over the same arrays read by
  coordinates. Nothing is asked of the arrays: this is unfolding, the product with the weight matrix read at an element as the sum over the
  hidden coordinate, and the diagonal test on coordinates against the one on their values.
-/
import proofs.«135561_j38560216383500_2_alg».proof.Proof.KI.Spec
import proofs.«135561_j38560216383500_2_alg».proof.Proof.KI.BridgeMath
import proofs.«135561_j38560216383500_2_alg».proof.Proof.Gen.KernelIdeal
import Idealize.ShloMosaic.PureOps.Ideal.Laws
import Idealize.ShloMosaic.Lib.ValueIdx

noncomputable section

namespace Cert.KernelIdeal.Hand

open Idealize.ShloMosaic Idealize.ShloMosaic.ValueIdx
open Cert.KernelIdeal Cert.KernelIdeal.Gen Cert.KernelIdeal.Hand.Bridge
open scoped BigOperators

/-- A host product of an m×k by a k×n matrix contracting the inner axis, read at `(a, b)`: the sum over the inner coordinate of the
    products of the entries. -/
theorem dotGeneral_inner_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b) = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The matrix with the self-loops at `(i, j)`, the diagonal tested on the coordinates themselves. -/
theorem withLoops_ix2 (A : S16384x16384.Idx → EReal) (i j : Fin 16384) :
    Spec.withLoops A (ix2 i j) = A (ix2 i j) + if i = j then 1 else 0 := by
  show A (ix2 i j) + (if i.val = j.val then 1 else 0) = _
  exact congrArg (A (ix2 i j) + ·) (if_congr Fin.val_inj rfl rfl)

section

variable (A : S16384x16384.Idx → EReal) (xw : S16384x64.Idx → EReal) (r : S16384x1.Idx → EReal) (b1 : S1x64.Idx → EReal)

/-- The first layer's formula at `(j, l)`: the accumulating form of one layer, clamped below at zero. -/
theorem layer1_ix2 (j : Fin 16384) (l : Fin 64) :
    Spec.layer1 A xw r b1 (ix2 j l)
      = max (layerK (fun i j => A (ix2 i j) + if i = j then 1 else 0) (fun i => r (ix2 i (0 : Fin 1))) (fun j l => xw (ix2 j l))
          (fun l => b1 (ix2 (0 : Fin 1) l)) j l) 0 := by
  show max ((∑ k : Fin 16384, Spec.withLoops A (ix2 j k) * (xw (ix2 k l) * r (ix2 k (0 : Fin 1)))) * r (ix2 j (0 : Fin 1))
      + b1 (ix2 (0 : Fin 1) l)) 0 = _
  unfold layerK
  refine congrArg (fun s => max (s * r (ix2 j (0 : Fin 1)) + b1 (ix2 (0 : Fin 1) l)) 0) (Finset.sum_congr rfl fun k _ => ?_)
  rw [withLoops_ix2]

/-- Both regions' formulas composed are the accumulating form of both layers. -/
theorem spec_eq_gcnK (W2 : FVec Ideal S64x16 .f32) (b2 : S1x16.Idx → EReal) (i : Fin 16384) (c : Fin 16) :
    Spec.layer2 (Spec.withLoops A)
        (Host.dotGeneral (F := Ideal) (φ₁ := .f32) (φ₂ := .f32) dot_S16384x64_S64x16_S16384x16_1_0_0_1_n_n none (Spec.layer1 A xw r b1) W2)
        r b2 (ix2 i c)
      = gcnK (fun i j => A (ix2 i j) + if i = j then 1 else 0) (fun i => r (ix2 i (0 : Fin 1))) (fun j l => xw (ix2 j l))
          (fun l => b1 (ix2 (0 : Fin 1) l)) (fun l c => W2 (ix2 l c)) (fun c => b2 (ix2 (0 : Fin 1) c)) i c := by
  have hv : ∀ j : Fin 16384,
      Host.dotGeneral (F := Ideal) (φ₁ := .f32) (φ₂ := .f32) dot_S16384x64_S64x16_S16384x16_1_0_0_1_n_n none (Spec.layer1 A xw r b1) W2 (ix2 j c)
        = Bridge.hidden (layerK (fun i j => A (ix2 i j) + if i = j then 1 else 0) (fun i => r (ix2 i (0 : Fin 1))) (fun j l => xw (ix2 j l))
            (fun l => b1 (ix2 (0 : Fin 1) l))) (fun l c => W2 (ix2 l c)) j c := fun j => by
    show Host.dotGeneral (F := Ideal) (φ₁ := .f32) (φ₂ := .f32)
        (⟨[1], [0], [0], [1], [], [], dot_S16384x64_S64x16_S16384x16_1_0_0_1_n_n_wf⟩ : DotDims _ _ _) none (Spec.layer1 A xw r b1) W2 (ix2 j c) = _
    rw [dotGeneral_inner_apply]
    unfold Bridge.hidden
    exact Finset.sum_congr rfl fun l _ => by rw [layer1_ix2]
  show (∑ j : Fin 16384, Spec.withLoops A (ix2 i j)
      * (Host.dotGeneral (F := Ideal) (φ₁ := .f32) (φ₂ := .f32) dot_S16384x64_S64x16_S16384x16_1_0_0_1_n_n none (Spec.layer1 A xw r b1) W2 (ix2 j c)
        * r (ix2 j (0 : Fin 1)))) * r (ix2 i (0 : Fin 1)) + b2 (ix2 (0 : Fin 1) c)
    = (∑ j : Fin 16384, (A (ix2 i j) + if i = j then 1 else 0)
      * (Bridge.hidden (layerK (fun i j => A (ix2 i j) + if i = j then 1 else 0) (fun i => r (ix2 i (0 : Fin 1))) (fun j l => xw (ix2 j l))
            (fun l => b1 (ix2 (0 : Fin 1) l))) (fun l c => W2 (ix2 l c)) j c * r (ix2 j (0 : Fin 1)))) * r (ix2 i (0 : Fin 1))
      + b2 (ix2 (0 : Fin 1) c)
  refine congrArg (fun s => s * r (ix2 i (0 : Fin 1)) + b2 (ix2 (0 : Fin 1) c)) (Finset.sum_congr rfl fun j _ => ?_)
  rw [withLoops_ix2, hv j]

end

end Cert.KernelIdeal.Hand

end
-- ==== Proof.KI.Bridge.lean ====
/-
  The kernel's result is the reference's.

  Region 0 is entered with the scattered matrix `A`, the column `r`, the features `x W1` and the bias row, all read off the host
  operations before it; with the self loops the matrix is `S = adj + 1`, and `r` is the reciprocal square root of the edge-list degree,
  which is the row sum of `S` because every entry of the edge list is a node. The two regions then compute the two layers in the
  accumulating form, the reference the same two layers as products with the matrix scaled on both sides; all the data being real, the
  two forms agree.
-/
import proofs.«135561_j38560216383500_2_alg».proof.Proof.KI.BridgeRef
import proofs.«135561_j38560216383500_2_alg».proof.Proof.KI.KerRead
import proofs.«135561_j38560216383500_2_alg».proof.Proof.KI.KerApply
import proofs.«135561_j38560216383500_2_alg».proof.Proof.KI.BridgePre
import proofs.«135561_j38560216383500_2_alg».proof.Proof.KI.Spec
import proofs.«135561_j38560216383500_2_alg».proof.Proof.KI.SpecMath

set_option maxRecDepth 65536

noncomputable section

namespace Cert.KernelIdeal.Hand.Bridge

open Idealize.ShloMosaic Idealize.ShloMosaic.ValueIdx Idealize.ShloMosaic.TcCoe Idealize.SL.Sem
open Cert.Lib.EdgeAdjacency
open Cert.KernelIdeal Cert.KernelIdeal.Gen

/-- The two formulas over the arguments' contents: the regions' (over the arrays the host operations before region 0 leave) and the
    reference's, for real float arguments and an edge list of nodes. -/
theorem bridge_core (x0 : S16384x64.Idx → EReal) (x1 : S64x64.Idx → EReal) (x2 : S64.Idx → EReal) (x3 : S64x16.Idx → EReal)
    (x4 : S16.Idx → EReal) (x5 : S524288.Idx → EReal) (x6 : S2x524288.Idx → BitVec 32)
    (h0 : ∀ i, IsReal (x0 i)) (h1 : ∀ i, IsReal (x1 i)) (h2 : ∀ i, IsReal (x2 i)) (h3 : ∀ i, IsReal (x3 i)) (h5 : ∀ i, IsReal (x5 i))
    (h6 : InRange x6)
    (A : S16384x16384.Idx → EReal) (r : S16384x1.Idx → EReal) (v1 : S16384x64.Idx → EReal) (b1 : S1x64.Idx → EReal)
    (hA : A = kv23 x5 x6) (hr : r = kv47 x5 x6) (hv1 : v1 = Cert.ReferenceIdeal.Read.val_main_v53 (F := Ideal) x0 x1)
    (hb1 : b1 = shapeCast S1x64 x2 shapeCasts_S64_S1x64) (i : Fin 16384) (cc : Fin 16) :
    Spec.layer2 (Spec.withLoops A)
        (Host.dotGeneral (F := Ideal) (φ₁ := .f32) (φ₂ := .f32) dot_S16384x64_S64x16_S16384x16_1_0_0_1_n_n none (Spec.layer1 A v1 r b1) x3)
        r (shapeCast S1x16 x4 shapeCasts_S16_S1x16) (ix2 i cc)
      = Cert.ReferenceIdeal.Read.val_main_v63 (F := Ideal) x0 x1 x2 x3 x4 x5 x6 (ix2 i cc) := by
  subst hA hr hv1 hb1
  rw [ref_v63 x0 x1 x2 x3 x4 x5 x6 h6 i cc, Cert.KernelIdeal.Hand.spec_eq_gcnK]
  have hw : ∀ e, IsReal (hwOf x5 e) := hwOf_isReal x5 h5
  have hS : ∀ i j, IsReal (S (node x6 h6 0) (node x6 h6 1) (hwOf x5) i j) := S_isReal _ _ _ hw
  have hr : ∀ i, IsReal (rOf (degRef (node x6 h6 0) (node x6 h6 1) (hwOf x5) i)) := fun i => rOf_isReal (degRef_isReal _ _ _ hw i)
  have hv : ∀ j l, IsReal (xwOf x0 x1 j l) := fun j l => IsReal.sum _ _ fun k _ => (h0 _).mul (h1 _)
  refine Eq.trans ?_ (gcnK_eq_gcnR _ _ _ _ _ _ hS hr hv (fun l => h2 _) (fun l c => h3 _) i cc)
  have eS : (fun (i j : Fin 16384) => kv23 x5 x6 (ix2 i j) + if i = j then 1 else 0) = S (node x6 h6 0) (node x6 h6 1) (hwOf x5) :=
    funext fun i => funext fun j => by rw [kv23_apply x5 x6 h6]; rfl
  have er : (fun (i : Fin 16384) => kv47 x5 x6 (ix2 i (0 : Fin 1))) = fun i => rOf (degRef (node x6 h6 0) (node x6 h6 1) (hwOf x5) i) :=
    funext fun i => by rw [kv47_apply x5 x6 h6, degKer_eq_degRef]
  have ev : (fun (j : Fin 16384) (l : Fin 64) => Cert.ReferenceIdeal.Read.val_main_v53 (F := Ideal) x0 x1 (ix2 j l)) = xwOf x0 x1 :=
    funext fun j => funext fun l => ref_v53 x0 x1 j l
  have eb1 : (fun (l : Fin 64) => shapeCast S1x64 x2 shapeCasts_S64_S1x64 (ix2 (0 : Fin 1) l)) = fun l => x2 (ix1 l) :=
    funext fun l => shapeCast_apply x2 shapeCasts_S64_S1x64 (ix2 (0 : Fin 1) l) (ix1 l)
      (by rw [Shape.rowMajor_val_two, Shape.rowMajor_val_one]; show l.val = 0 * 64 + l.val; omega)
  have eb2 : (fun (c' : Fin 16) => shapeCast S1x16 x4 shapeCasts_S16_S1x16 (ix2 (0 : Fin 1) c')) = fun c' => x4 (ix1 c') :=
    funext fun c' => shapeCast_apply x4 shapeCasts_S16_S1x16 (ix2 (0 : Fin 1) c') (ix1 c')
      (by rw [Shape.rowMajor_val_two, Shape.rowMajor_val_one]; show c'.val = 0 * 16 + c'.val; omega)
  rw [eS, er, ev, eb1, eb2]

/-- THE BRIDGE: for memories agreeing on the arguments, the kernel's under the precondition, what the second region leaves — the
    second layer over the first region's results, entered with what the host operations compute — is the reference's result. -/
theorem bridge (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6))
    (c : Dev nD) :
    Spec.layer2 (Spec.withLoops (V3 m c main_v23))
        (Host.dotGeneral (F := Ideal) (φ₁ := .f32) (φ₂ := .f32) dot_S16384x64_S64x16_S16384x16_1_0_0_1_n_n none
          (Spec.layer1 (V3 m c main_v23) (V3 m c main_v48) (V3 m c main_v47) (V3 m c main_v49)) (m ((c.tc : Thread nD τ).loc main_arg3)))
        (V3 m c main_v47) (shapeCast S1x16 (m ((c.tc : Thread nD τ).loc main_arg4)) shapeCasts_S16_S1x16)
      = Cert.ReferenceIdeal.Value.res_main_v63 (F := Ideal) m' c := by
  obtain ⟨h0, h1, h2, h3, _, h5, h6⟩ := pre_decode m hpre c
  obtain ⟨a0, a1, a2, a3, a4, a5, a6⟩ := hagree c
  funext ic
  obtain ⟨i, cc, rfl⟩ : ∃ (i : Fin 16384) (cc : Fin 16), ic = ix2 i cc := ⟨ic 0, ic 1, eq_ix2 ic⟩
  rw [Cert.ReferenceIdeal.Read.val_main_v63_eq, a0, a1, a2, a3, a4, a5, a6]
  exact bridge_core _ _ _ _ _ _ _ h0 h1 h2 h3 h5 h6 _ _ _ _ (V3_main_v23 m c) (V3_main_v47 m c) (V3_main_v48 m c) (V3_main_v49 m c) i cc

end Cert.KernelIdeal.Hand.Bridge

end
-- ==== Proof.KI.Glue.lean ====
/-
  The program's result is the reference's. The second region leaves the second layer computed over what it was entered with; it was
  entered with the matrix and the first layer's result as the first region left them, the first region's result times the second weight matrix,
  the column of reciprocal square roots unchanged, and the second bias as a row; the first region was entered with what the host operations before it
  computed from the arguments. Put together this is one formula of the arguments, and that formula is the reference's result for arguments
  that satisfy the precondition.
-/
import proofs.«135561_j38560216383500_2_alg».proof.Defs
import proofs.«135561_j38560216383500_2_alg».proof.Proof.Gen.Pre_finite_inputs
import proofs.«135561_j38560216383500_2_alg».proof.Proof.Gen.ReferenceIdeal.Run
import proofs.«135561_j38560216383500_2_alg».proof.Proof.KI.Run
import proofs.«135561_j38560216383500_2_alg».proof.Proof.KI.Entry1
import proofs.«135561_j38560216383500_2_alg».proof.Proof.KI.Value0
import proofs.«135561_j38560216383500_2_alg».proof.Proof.KI.Value1
import proofs.«135561_j38560216383500_2_alg».proof.Proof.KI.Bridge

noncomputable section

namespace Cert.KernelIdeal.Hand

open Idealize.ShloMosaic Idealize.ShloMosaic.TcCoe Idealize.SL.Sem
open Cert.KernelIdeal Cert.KernelIdeal.Gen

/-- What the second region leaves in the result array is the reference's result. -/
theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6))
    (c : Dev nD) :
    outs (F := Ideal) m 6 main_v53 c = Cert.ReferenceIdeal.Value.res_main_v63 (F := Ideal) m' c := by
  -- the second region's result, over what it was entered with
  have hS : entry1 (F := Ideal) m c main_v50_1 = Spec.withLoops (Gen.V3 m c main_v23) :=
    (V5_v50_1 m (outs m) c).trans ((outs_S m c).trans (region0_S (entry0 m) c))
  have hr : entry1 (F := Ideal) m c main_v47 = Gen.V3 m c main_v47 := V5_v47 m (outs m) c
  have hh : outs (F := Ideal) m 4 main_v50_0 c
      = Spec.layer1 (Gen.V3 m c main_v23) (Gen.V3 m c main_v48) (Gen.V3 m c main_v47) (Gen.V3 m c main_v49) :=
    (outs_h m c).trans (region0_h (entry0 m) c)
  have hv : entry1 (F := Ideal) m c main_v51
      = Host.dotGeneral (F := Ideal) (φ₁ := .f32) (φ₂ := .f32) dot_S16384x64_S64x16_S16384x16_1_0_0_1_n_n none
          (Spec.layer1 (Gen.V3 m c main_v23) (Gen.V3 m c main_v48) (Gen.V3 m c main_v47) (Gen.V3 m c main_v49))
          (m ((c : Thread nD τ).loc main_arg3)) := by
    rw [← hh]; exact V5_v51 m (outs m) c
  have hb : entry1 (F := Ideal) m c main_v52 = shapeCast S1x16 (m ((c : Thread nD τ).loc main_arg4)) shapeCasts_S16_S1x16 :=
    V5_v52 m (outs m) c
  rw [outs_out m c, region1_out (entry1 m) c, hS, hr, hv, hb]
  exact Bridge.bridge m m' hpre hagree c

end Cert.KernelIdeal.Hand

end
-- ==== Proof.lean ====
/-
  A two-layer graph convolution over a DENSE adjacency built from an edge list, against its plain reference, over the extended reals.

  From the edge list (row, col : 524288 node numbers each, weights w) both programs build the 16384 x 16384 matrix

      A i j = sum over e of [row e = i, col e = j] (w e / 2) + sum over e of [col e = i, row e = j] (w e / 2),

  the kernel by ONE scatter-add over the two directions laid end to end, the reference by two scatter-adds one after the other: the same
  sums in another order. With the self loops, S = A + 1 (the identity), the degree is d i = sum over j of S i j, and r i = 1 / sqrt (d i)
  where d i > 0, else 0. The reference forms N i j = r i * S i j * r j and computes

      h = max (N (x W1) + b1) 0,      out = N (h W2) + b2.

  The kernel never forms N: it takes the degree straight from the edge list, d i = 1 + (weight of the edges starting at i) / 2
  + (weight of the edges ending at i) / 2, and computes each layer as (sum over j of S i j * ((v j) * r j)) * r i + b, the sum over j
  accumulated over column tiles of S in a scratch accumulator that is reset at the first tile of a row block and turned into the result at
  the last, the identity added tile by tile where the tile meets the diagonal.

  Three facts join the two sides:
  * the one-pass and the two-pass scatter give the same matrix (commutative sums);
  * the row sum of S is the kernel's edge-list degree — this needs EVERY node number of the edge list to be a node: an edge with one end
    outside 0..16383 is dropped from the matrix by both programs (a scatter drops an update that leaves the operand on any axis), but
    the kernel's one-axis sums still count its inside end. With such an edge the two degrees, and then the two results, differ: the
    precondition therefore says, beside the finiteness of the float inputs, that every entry of the edge list is in 0..16383;
  * (sum over j of S i j * (v j * r j)) * r i = sum over j of (r i * S i j * r j) * v j: a factor moved across a sum, true of real
    numbers and false at infinities, which is where the finiteness of the inputs is used (it makes A, d, r, x W1, h and h W2 real).

  The frames. Each of the program's two kernel regions hands one array (r, as a column) to two of its windows, one reading it by row blocks and
  one by column tiles; since both only read, the array's ownership is split in two halves when the region is entered and joined when it ends.
  Each region's body is run once for each of its three kinds of grid point (first column tile, middle, last), the accumulator's contents after
  every point being part of what is known between points. The host operations around the regions only write buffers of their own. This is written
  once for any reading of the floats and used twice: for the program at the word level and for its reading over the extended reals.
  The values. What the regions leave is read off the same runs index by index (Proof/KI/Spec.lean states it), the reference's result off its
  own run, and the three facts above join them.
-/
import proofs.«135561_j38560216383500_2_alg».proof.Defs
import proofs.«135561_j38560216383500_2_alg».proof.Proof.Gen.Kernel
import proofs.«135561_j38560216383500_2_alg».proof.Proof.Gen.Kernel.Skeleton
import proofs.«135561_j38560216383500_2_alg».proof.Proof.Gen.Kernel.Launch
import proofs.«135561_j38560216383500_2_alg».proof.Proof.Gen.Kernel.Regions
import proofs.«135561_j38560216383500_2_alg».proof.Proof.Gen.Kernel.Points
import proofs.«135561_j38560216383500_2_alg».proof.Proof.Gen.KernelIdeal
import proofs.«135561_j38560216383500_2_alg».proof.Proof.Gen.KernelIdeal.Skeleton
import proofs.«135561_j38560216383500_2_alg».proof.Proof.Gen.KernelIdeal.Launch
import proofs.«135561_j38560216383500_2_alg».proof.Proof.Gen.KernelIdeal.Regions
import proofs.«135561_j38560216383500_2_alg».proof.Proof.Gen.KernelIdeal.Points
import proofs.«135561_j38560216383500_2_alg».proof.Proof.Gen.ReferenceIdeal
import proofs.«135561_j38560216383500_2_alg».proof.Proof.Gen.ReferenceIdeal.Run
import proofs.«135561_j38560216383500_2_alg».proof.Proof.Gen.ReferenceIdeal.Read
import proofs.«135561_j38560216383500_2_alg».proof.Proof.Gen.Pre_finite_inputs
import Idealize.ShloMosaic.Adequacy
import Idealize.ShloMosaic.Init
import proofs.«135561_j38560216383500_2_alg».proof.Proof.K.Run
import proofs.«135561_j38560216383500_2_alg».proof.Proof.KI.Run
import proofs.«135561_j38560216383500_2_alg».proof.Proof.KI.Glue

noncomputable section

namespace Cert.Proof

open Idealize.ShloMosaic Idealize.SL.Sem

/-- The reference is a straight line of host operations: its run, read back operation by operation, ends with every argument array as it
    started. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization: nothing to preserve. -/
theorem preserves : Cert.preserves_Kernel_KernelIdeal := trivial

/-- The kernel program at the word level runs to the end and leaves its argument arrays unchanged, whatever they hold. -/
theorem frame_kernel : Cert.frame_Kernel := fun m ρ _ => Cert.Kernel.Hand.frame (F := Bits) m ρ

/-- The same program read over the extended reals. -/
theorem frame_kernel_ideal : Cert.frame_KernelIdeal := fun m ρ _ => Cert.KernelIdeal.Hand.frame (F := Ideal) m ρ

/-- The two idealized programs from memories that agree on the arguments end with the same result: the kernel's run ends with its result
    array holding what its second region left, which is the reference's result term for arguments satisfying the precondition. -/
theorem algebraic : Cert.algebraic_KernelIdeal_ReferenceIdeal := by
  intro m ρ m' ρ' hpre hagree
  refine ⟨fun c => Cert.ReferenceIdeal.Value.res_main_v63 (F := Ideal) m' c, ?_, Cert.ReferenceIdeal.Value.run (F := Ideal) m' ρ'⟩
  exact (θ_run Cert.KernelIdeal.defs _ _).mono
    (fun _ h c => ⟨(h c).1.trans (Cert.KernelIdeal.Hand.result_eq m m' hpre hagree c), (h c).2⟩)
    (Cert.KernelIdeal.Hand.run_out (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
